-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  IdealRules.named_const.Statement Cert.KernelIdeal.κ "inv_two_pi" .f32 0x3E22F983#32 ((2097152 / 13176795 : ℝ) : EReal)
  ∧ IdealRules.named_const.Statement Cert.KernelIdeal.κ "inv_two_pi" .f32 0x3E22F983#32 ((2097152 / 13176795 : ℝ) : EReal)
  ∧ IdealRules.named_const.Statement Cert.KernelIdeal.κ "inv_two_pi" .f32 0x3E22F983#32 ((2097152 / 13176795 : ℝ) : EReal)
  ∧ IdealRules.named_const.Statement Cert.KernelIdeal.κ "inv_two_pi" .f32 0x3E22F983#32 ((2097152 / 13176795 : ℝ) : EReal)
  ∧ IdealRules.named_const.Statement Cert.KernelIdeal.κ "inv_two_pi" .f32 0x3E22F983#32 ((2097152 / 13176795 : ℝ) : EReal)
  ∧ IdealRules.named_const.Statement Cert.KernelIdeal.κ "inv_two_pi" .f32 0x3E22F983#32 ((2097152 / 13176795 : ℝ) : EReal)
  ∧ IdealRules.named_const.Statement Cert.KernelIdeal.κ "inv_two_pi" .f32 0x3E22F983#32 ((2097152 / 13176795 : ℝ) : EReal)
  ∧ IdealRules.named_const.Statement Cert.KernelIdeal.κ "inv_two_pi" .f32 0x3E22F983#32 ((2097152 / 13176795 : ℝ) : EReal)
  ∧ IdealRules.named_const.Statement Cert.KernelIdeal.κ "inv_two_pi" .f32 0x3E22F983#32 ((2097152 / 13176795 : ℝ) : EReal)
  ∧ IdealRules.named_const.Statement Cert.KernelIdeal.κ "inv_two_pi" .f32 0x3E22F983#32 ((2097152 / 13176795 : ℝ) : EReal)
  ∧ IdealRules.named_const.Statement Cert.KernelIdeal.κ "inv_two_pi" .f32 0x3E22F983#32 ((2097152 / 13176795 : ℝ) : EReal)
  ∧ IdealRules.named_const.Statement Cert.KernelIdeal.κ "inv_two_pi" .f32 0x3E22F983#32 ((2097152 / 13176795 : ℝ) : EReal)

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v6)) (v1 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_v7) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v151) = v0 c
          ∧ r.2.mem ((c.tc : Thread Cert.ReferenceIdeal.nD Cert.ReferenceIdeal.τ).loc Cert.ReferenceIdeal.main_v154) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2x8192x16x16x1 : Shape := ⟨5, ![2, 8192, 16, 16, 1]⟩
abbrev S2x8192x16x16x4 : Shape := ⟨5, ![2, 8192, 16, 16, 4]⟩
abbrev S2x8192x4 : Shape := ⟨3, ![2, 8192, 4]⟩
abbrev S2x8192x16x16 : Shape := ⟨4, ![2, 8192, 16, 16]⟩
abbrev S_ : Shape := ⟨0, ![]⟩

class Facts : Prop where
  bcast_S_S2x8192x16x16x1 : S_.BroadcastsInDim S2x8192x16x16x1 (![] : Fin 0 → Fin S2x8192x16x16x1.rank)
  reducesTo_S2x8192x16x16x1_S_d0_1_2_3_4 : S2x8192x16x16x1.ReducesTo [0, 1, 2, 3, 4] S_
  h_S_ : 0 < S_.numel
  bcast_S_S2x8192x16x16x4 : S_.BroadcastsInDim S2x8192x16x16x4 (![] : Fin 0 → Fin S2x8192x16x16x4.rank)
  reducesTo_S2x8192x16x16x4_S_d0_1_2_3_4 : S2x8192x16x16x4.ReducesTo [0, 1, 2, 3, 4] S_
  bcast_S_S2x8192x4 : S_.BroadcastsInDim S2x8192x4 (![] : Fin 0 → Fin S2x8192x4.rank)
  reducesTo_S2x8192x4_S_d0_1_2 : S2x8192x4.ReducesTo [0, 1, 2] S_
  bcast_S_S2x8192x16x16 : S_.BroadcastsInDim S2x8192x16x16 (![] : Fin 0 → Fin S2x8192x16x16.rank)
  reducesTo_S2x8192x16x16_S_d0_1_2_3 : S2x8192x16x16.ReducesTo [0, 1, 2, 3] S_

variable [Facts]

def fn_part1 {F : FTy → Type} [FloatOps F] (main_v13 : IVec S_ 1) (main_v16 : IVec S2x8192x16x16 1) : IVec S_ 1 :=
  let main_c_5 : IVec S_ 1 := constantI S_ 1 1#1
  let main_v17 : IVec S_ 1 := (fun x v => Host.reduce IntOp.andi x v reducesTo_S2x8192x16x16_S_d0_1_2_3 h_S_) main_v16 main_c_5
  let main_v18 : IVec S_ 1 := andi main_v13 main_v17
  main_v18

def fn {F : FTy → Type} [FloatOps F] (main_arg0 : FVec F S2x8192x16x16x1 .f32) (main_arg1 : FVec F S2x8192x16x16x4 .f32) (main_arg2 : FVec F S2x8192x4 .f32) (main_arg3 : FVec F S2x8192x16x16 .f32) : IVec S_ 1 :=
  let main_v0 : FVec F S2x8192x16x16x1 .f32 := Host.absf main_arg0
  let main_cst : FVec F S_ .f32 := constant S_ .f32 0x7F800000#32
  let main_v1 : FVec F S2x8192x16x16x1 .f32 := broadcastInDim S2x8192x16x16x1 ![] bcast_S_S2x8192x16x16x1 main_cst
  let main_v2 : IVec S2x8192x16x16x1 1 := cmpf .olt main_v0 main_v1
  let main_c : IVec S_ 1 := constantI S_ 1 1#1
  let main_v3 : IVec S_ 1 := (fun x v => Host.reduce IntOp.andi x v reducesTo_S2x8192x16x16x1_S_d0_1_2_3_4 h_S_) main_v2 main_c
  let main_v4 : FVec F S2x8192x16x16x4 .f32 := Host.absf main_arg1
  let main_cst_0 : FVec F S_ .f32 := constant S_ .f32 0x7F800000#32
  let main_v5 : FVec F S2x8192x16x16x4 .f32 := broadcastInDim S2x8192x16x16x4 ![] bcast_S_S2x8192x16x16x4 main_cst_0
  let main_v6 : IVec S2x8192x16x16x4 1 := cmpf .olt main_v4 main_v5
  let main_c_1 : IVec S_ 1 := constantI S_ 1 1#1
  let main_v7 : IVec S_ 1 := (fun x v => Host.reduce IntOp.andi x v reducesTo_S2x8192x16x16x4_S_d0_1_2_3_4 h_S_) main_v6 main_c_1
  let main_v8 : IVec S_ 1 := andi main_v3 main_v7
  let main_v9 : FVec F S2x8192x4 .f32 := Host.absf main_arg2
  let main_cst_2 : FVec F S_ .f32 := constant S_ .f32 0x7F800000#32
  let main_v10 : FVec F S2x8192x4 .f32 := broadcastInDim S2x8192x4 ![] bcast_S_S2x8192x4 main_cst_2
  let main_v11 : IVec S2x8192x4 1 := cmpf .olt main_v9 main_v10
  let main_c_3 : IVec S_ 1 := constantI S_ 1 1#1
  let main_v12 : IVec S_ 1 := (fun x v => Host.reduce IntOp.andi x v reducesTo_S2x8192x4_S_d0_1_2 h_S_) main_v11 main_c_3
  let main_v13 : IVec S_ 1 := andi main_v8 main_v12
  let main_v14 : FVec F S2x8192x16x16 .f32 := Host.absf main_arg3
  let main_cst_4 : FVec F S_ .f32 := constant S_ .f32 0x7F800000#32
  let main_v15 : FVec F S2x8192x16x16 .f32 := broadcastInDim S2x8192x16x16 ![] bcast_S_S2x8192x16x16 main_cst_4
  let main_v16 : IVec S2x8192x16x16 1 := cmpf .olt main_v14 main_v15
  fn_part1 (F := F) main_v13 main_v16
-- ==== Kernel.lean ====
abbrev S2x8192x16x16x1 : Shape := ⟨5, ![2, 8192, 16, 16, 1]⟩
abbrev S2x8192x16x16x4 : Shape := ⟨5, ![2, 8192, 16, 16, 4]⟩
abbrev S2x8192x4 : Shape := ⟨3, ![2, 8192, 4]⟩
abbrev S2x8192x16x16 : Shape := ⟨4, ![2, 8192, 16, 16]⟩
abbrev S16384x16x16 : Shape := ⟨3, ![16384, 16, 16]⟩
abbrev S16384x16x16x4 : Shape := ⟨4, ![16384, 16, 16, 4]⟩
abbrev S16384x4x16x16 : Shape := ⟨4, ![16384, 4, 16, 16]⟩
abbrev S16384x4 : Shape := ⟨2, ![16384, 4]⟩
abbrev S16384 : Shape := ⟨1, ![16384]⟩
abbrev S256x16x16 : Shape := ⟨3, ![256, 16, 16]⟩
abbrev S256x4x16x16 : Shape := ⟨4, ![256, 4, 16, 16]⟩
abbrev S256x4 : Shape := ⟨2, ![256, 4]⟩
abbrev S256 : Shape := ⟨1, ![256]⟩
abbrev S256x4x1x1 : Shape := ⟨4, ![256, 4, 1, 1]⟩
abbrev S256x1x16x16 : Shape := ⟨4, ![256, 1, 16, 16]⟩
abbrev S256x15x16 : Shape := ⟨3, ![256, 15, 16]⟩
abbrev S256x1x16 : Shape := ⟨3, ![256, 1, 16]⟩
abbrev S256x16x15 : Shape := ⟨3, ![256, 16, 15]⟩
abbrev S256x16x1 : Shape := ⟨3, ![256, 16, 1]⟩
abbrev S256x16 : Shape := ⟨2, ![256, 16]⟩
abbrev S256x1x1 : Shape := ⟨3, ![256, 1, 1]⟩
abbrev S2x8192 : Shape := ⟨2, ![2, 8192]⟩

abbrev nBuf : Space → Nat
  | .hbm => 13
  | .vmem => 12
  | .smem => 0
  | _ => 0

abbrev bufTy : (tb : Table) → Fin (tcTables nBuf tb) → BufTy
  | .hbm, ⟨0, _⟩ => ⟨S2x8192x16x16x1, .f32⟩
  | .hbm, ⟨1, _⟩ => ⟨S2x8192x16x16x4, .f32⟩
  | .hbm, ⟨2, _⟩ => ⟨S2x8192x4, .f32⟩
  | .hbm, ⟨3, _⟩ => ⟨S2x8192x16x16, .f32⟩
  | .hbm, ⟨4, _⟩ => ⟨S16384x16x16, .f32⟩
  | .hbm, ⟨5, _⟩ => ⟨S16384x16x16x4, .f32⟩
  | .hbm, ⟨6, _⟩ => ⟨S16384x4x16x16, .f32⟩
  | .hbm, ⟨7, _⟩ => ⟨S16384x4, .f32⟩
  | .hbm, ⟨8, _⟩ => ⟨S16384x16x16, .f32⟩
  | .hbm, ⟨9, _⟩ => ⟨S16384x16x16, .f32⟩
  | .hbm, ⟨10, _⟩ => ⟨S16384, .f32⟩
  | .hbm, ⟨11, _⟩ => ⟨S2x8192x16x16x1, .f32⟩
  | .hbm, ⟨12, _⟩ => ⟨S2x8192, .f32⟩
  | .local _ .vmem, ⟨0, _⟩ => ⟨S256x16x16, .f32⟩
  | .local _ .vmem, ⟨1, _⟩ => ⟨S256x16x16, .f32⟩
  | .local _ .vmem, ⟨2, _⟩ => ⟨S256x4x16x16, .f32⟩
  | .local _ .vmem, ⟨3, _⟩ => ⟨S256x4x16x16, .f32⟩
  | .local _ .vmem, ⟨4, _⟩ => ⟨S256x4, .f32⟩
  | .local _ .vmem, ⟨5, _⟩ => ⟨S256x4, .f32⟩
  | .local _ .vmem, ⟨6, _⟩ => ⟨S256x16x16, .f32⟩
  | .local _ .vmem, ⟨7, _⟩ => ⟨S256x16x16, .f32⟩
  | .local _ .vmem, ⟨8, _⟩ => ⟨S256x16x16, .f32⟩
  | .local _ .vmem, ⟨9, _⟩ => ⟨S256x16x16, .f32⟩
  | .local _ .vmem, ⟨10, _⟩ => ⟨S256, .f32⟩
  | .local _ .vmem, ⟨11, _⟩ => ⟨S256, .f32⟩
  | _, _ => ⟨S2x8192x16x16x1, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5_0 : Ref sig .tc := ⟨.hbm, 9, rfl⟩
abbrev main_v5_1 : Ref sig .tc := ⟨.hbm, 10, rfl⟩
abbrev main_v6 : Ref sig .tc := ⟨.hbm, 11, rfl⟩
abbrev main_v7 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨1, ![64], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 1 → Nat :=
  let arg0 : BitVec 32 := BitVec.ofNat 32 (i 0).val
  let c0_i32 : BitVec 32 := 0#32
  ![arg0.toNat]

abbrev stage0_0 : Fin 2 → Memref sig .tc .vmem S256x16x16 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x4x16x16 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x4 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x16x16 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x16x16 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  shapeCasts_S2x8192x16x16x1_S16384x16x16 : S2x8192x16x16x1.ShapeCasts S16384x16x16
  shapeCasts_S2x8192x16x16x4_S16384x16x16x4 : S2x8192x16x16x4.ShapeCasts S16384x16x16x4
  transposes_S16384x16x16x4_S16384x4x16x16_0_3_1_2 : S16384x16x16x4.Transposes [0, 3, 1, 2] S16384x4x16x16
  shapeCasts_S2x8192x4_S16384x4 : S2x8192x4.ShapeCasts S16384x4
  shapeCasts_S2x8192x16x16_S16384x16x16 : S2x8192x16x16.ShapeCasts S16384x16x16
  inb_S256x16x16_S256x16x16_0_0_0 : ∀ a, (![0, 0, 0] : Fin 3 → Nat) a + S256x16x16.size a ≤ S256x16x16.size a
  h_S256x16x16 : 0 < S256x16x16.numel
  shapeCasts_S256x16x16_S256x16x16 : S256x16x16.ShapeCasts S256x16x16
  inb_S256x4x16x16_S256x4x16x16_0_0_0_0 : ∀ a, (![0, 0, 0, 0] : Fin 4 → Nat) a + S256x4x16x16.size a ≤ S256x4x16x16.size a
  h_S256x4x16x16 : 0 < S256x4x16x16.numel
  shapeCasts_S256x4x16x16_S256x4x16x16 : S256x4x16x16.ShapeCasts S256x4x16x16
  inb_S256x4_S256x4_0_0 : ∀ a, (![0, 0] : Fin 2 → Nat) a + S256x4.size a ≤ S256x4.size a
  h_S256x4 : 0 < S256x4.numel
  shapeCasts_S256x4_S256x4 : S256x4.ShapeCasts S256x4
  shapeCasts_S256x4_S256x4x1x1 : S256x4.ShapeCasts S256x4x1x1
  shapeCasts_S256x4x1x1_S256x4x1x1 : S256x4x1x1.ShapeCasts S256x4x1x1
  broadcasts_S256x4x1x1_S256x4x16x16 : S256x4x1x1.Broadcasts S256x4x16x16
  slices_S256x4x16x16_o0_0_0_0_S256x1x16x16 : S256x4x16x16.Slices ![0, 0, 0, 0] S256x1x16x16
  shapeCasts_S256x1x16x16_S256x16x16 : S256x1x16x16.ShapeCasts S256x16x16
  slices_S256x4x16x16_o0_1_0_0_S256x1x16x16 : S256x4x16x16.Slices ![0, 1, 0, 0] S256x1x16x16
  slices_S256x4x16x16_o0_2_0_0_S256x1x16x16 : S256x4x16x16.Slices ![0, 2, 0, 0] S256x1x16x16
  slices_S256x4x16x16_o0_3_0_0_S256x1x16x16 : S256x4x16x16.Slices ![0, 3, 0, 0] S256x1x16x16
  slices_S256x16x16_o0_1_0_S256x15x16 : S256x16x16.Slices ![0, 1, 0] S256x15x16
  concatenates_S256x15x16_S256x1x16_S256x16x16_d1 : Shape.Concatenates [S256x15x16, S256x1x16] S256x16x16 1
  slices_S256x16x16_o0_0_0_S256x15x16 : S256x16x16.Slices ![0, 0, 0] S256x15x16
  concatenates_S256x1x16_S256x15x16_S256x16x16_d1 : Shape.Concatenates [S256x1x16, S256x15x16] S256x16x16 1
  slices_S256x16x16_o0_0_1_S256x16x15 : S256x16x16.Slices ![0, 0, 1] S256x16x15
  concatenates_S256x16x15_S256x16x1_S256x16x16_d2 : Shape.Concatenates [S256x16x15, S256x16x1] S256x16x16 2
  slices_S256x16x16_o0_0_0_S256x16x15 : S256x16x16.Slices ![0, 0, 0] S256x16x15
  concatenates_S256x16x1_S256x16x15_S256x16x16_d2 : Shape.Concatenates [S256x16x1, S256x16x15] S256x16x16 2
  reduces_S256x16x16_S256x16 : S256x16x16.Reduces [2] S256x16
  reduces_S256x16_S256 : S256x16.Reduces [1] S256
  shapeCasts_S256_S256x1x1 : S256.ShapeCasts S256x1x1
  broadcasts_S256x1x1_S256x16x16 : S256x1x1.Broadcasts S256x16x16
  inb_S256_S256_0 : ∀ a, (![0] : Fin 1 → Nat) a + S256.size a ≤ S256.size a
  h_S256 : 0 < S256.numel
  shapeCasts_S16384x16x16_S2x8192x16x16x1 : S16384x16x16.ShapeCasts S2x8192x16x16x1
  shapeCasts_S16384_S2x8192 : S16384.ShapeCasts S2x8192
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x16x16.size a ≤ S16384x16x16.size a
  hwx0_0 : ∀ i : grid0.Coords, EltTy.bits .f32 = 32 ∨ (Rect.block (s := S16384x16x16) S256x16x16.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x4x16x16.size a ≤ S16384x4x16x16.size a
  hwx0_1 : ∀ i : grid0.Coords, EltTy.bits .f32 = 32 ∨ (Rect.block (s := S16384x4x16x16) S256x4x16x16.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S256x4.size a ≤ S16384x4.size a
  hwx0_2 : ∀ i : grid0.Coords, EltTy.bits .f32 = 32 ∨ (Rect.block (s := S16384x4) S256x4.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S256x16x16.size a ≤ S16384x16x16.size a
  hwx0_3 : ∀ i : grid0.Coords, EltTy.bits .f32 = 32 ∨ (Rect.block (s := S16384x16x16) S256x16x16.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S256x16x16.size a ≤ S16384x16x16.size a
  hwx0_4 : ∀ i : grid0.Coords, EltTy.bits .f32 = 32 ∨ (Rect.block (s := S16384x16x16) S256x16x16.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S256.size a ≤ S16384.size a
  hwx0_5 : ∀ i : grid0.Coords, EltTy.bits .f32 = 32 ∨ (Rect.block (s := S16384) S256.size (cc0_transform_5 i) (hinb0_5 i)).WholeWords (EltTy.packing .f32)

variable [Facts₀]

abbrev win0_0 : Pipeline.Window sig grid0 :=
  Pipeline.Window.ofSpec (Memref.whole main_v0) S256x16x16.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v2) S256x4x16x16.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v3) S256x4.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v4) S256x16x16.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v5_0) S256x16x16.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v5_1) S256.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S2x8192x16x16x1 : Shape := ⟨5, ![2, 8192, 16, 16, 1]⟩
abbrev S2x8192x16x16x4 : Shape := ⟨5, ![2, 8192, 16, 16, 4]⟩
abbrev S2x8192x4 : Shape := ⟨3, ![2, 8192, 4]⟩
abbrev S2x8192x16x16 : Shape := ⟨4, ![2, 8192, 16, 16]⟩
abbrev S2x8192x1x1x4 : Shape := ⟨5, ![2, 8192, 1, 1, 4]⟩
abbrev S_ : Shape := ⟨0, ![]⟩
abbrev S2x8192x15x16 : Shape := ⟨4, ![2, 8192, 15, 16]⟩
abbrev S2x8192x16x15 : Shape := ⟨4, ![2, 8192, 16, 15]⟩
abbrev S2x8192 : Shape := ⟨2, ![2, 8192]⟩
abbrev S2x8192x1x1x1 : Shape := ⟨5, ![2, 8192, 1, 1, 1]⟩

abbrev nBuf : Space → Nat
  | .hbm => 209
  | .vmem => 0
  | .smem => 0
  | _ => 0

abbrev hbmTy0_0 (i : Nat) : BufTy := match i % 128 with
  | 0 => ⟨S2x8192x16x16x1, .f32⟩
  | 1 => ⟨S2x8192x16x16x4, .f32⟩
  | 2 => ⟨S2x8192x4, .f32⟩
  | 3 => ⟨S2x8192x16x16, .f32⟩
  | 4 => ⟨S2x8192x1x1x4, .f32⟩
  | 5 => ⟨S_, .f32⟩
  | 6 => ⟨S2x8192x16x16x4, .f32⟩
  | 7 => ⟨S2x8192x16x16x4, .f32⟩
  | 8 => ⟨S2x8192x16x16x4, .f32⟩
  | 9 => ⟨S_, .f32⟩
  | 10 => ⟨S2x8192x16x16x4, .f32⟩
  | 11 => ⟨S2x8192x16x16x4, .f32⟩
  | 12 => ⟨S2x8192x16x16x4, .f32⟩
  | 13 => ⟨S_, .f32⟩
  | 14 => ⟨S2x8192x16x16x4, .f32⟩
  | 15 => ⟨S2x8192x16x16x4, .f32⟩
  | 16 => ⟨S2x8192x16x16x4, .f32⟩
  | 17 => ⟨S_, .f32⟩
  | 18 => ⟨S2x8192x16x16x4, .f32⟩
  | 19 => ⟨S2x8192x16x16x4, .f32⟩
  | 20 => ⟨S2x8192x16x16x4, .f32⟩
  | 21 => ⟨S_, .f32⟩
  | 22 => ⟨S2x8192x1x1x4, .f32⟩
  | 23 => ⟨S2x8192x1x1x4, .f32⟩
  | 24 => ⟨S2x8192x1x1x4, .f32⟩
  | 25 => ⟨S_, .f32⟩
  | 26 => ⟨S2x8192x1x1x4, .f32⟩
  | 27 => ⟨S2x8192x1x1x4, .f32⟩
  | 28 => ⟨S2x8192x1x1x4, .f32⟩
  | 29 => ⟨S_, .f32⟩
  | 30 => ⟨S2x8192x1x1x4, .f32⟩
  | 31 => ⟨S2x8192x1x1x4, .f32⟩
  | 32 => ⟨S2x8192x1x1x4, .f32⟩
  | 33 => ⟨S_, .f32⟩
  | 34 => ⟨S2x8192x1x1x4, .f32⟩
  | 35 => ⟨S2x8192x1x1x4, .f32⟩
  | 36 => ⟨S2x8192x1x1x4, .f32⟩
  | 37 => ⟨S2x8192x16x16x4, .f32⟩
  | 38 => ⟨S2x8192x16x16x4, .f32⟩
  | 39 => ⟨S_, .f32⟩
  | 40 => ⟨S2x8192x16x16x4, .f32⟩
  | 41 => ⟨S2x8192x16x16x4, .f32⟩
  | 42 => ⟨S_, .f32⟩
  | 43 => ⟨S2x8192x1x1x4, .f32⟩
  | 44 => ⟨S2x8192x1x1x4, .f32⟩
  | 45 => ⟨S2x8192x16x16x4, .f32⟩
  | 46 => ⟨S2x8192x16x16x4, .f32⟩
  | 47 => ⟨S2x8192x16x16x4, .f32⟩
  | 48 => ⟨S_, .f32⟩
  | 49 => ⟨S2x8192x16x16x4, .f32⟩
  | 50 => ⟨S2x8192x16x16x4, .f32⟩
  | 51 => ⟨S2x8192x16x16x4, .f32⟩
  | 52 => ⟨S_, .f32⟩
  | 53 => ⟨S2x8192x16x16x4, .f32⟩
  | 54 => ⟨S2x8192x16x16x4, .f32⟩
  | 55 => ⟨S2x8192x16x16x4, .f32⟩
  | 56 => ⟨S_, .f32⟩
  | 57 => ⟨S2x8192x16x16x4, .f32⟩
  | 58 => ⟨S2x8192x16x16x4, .f32⟩
  | 59 => ⟨S2x8192x16x16x4, .f32⟩
  | 60 => ⟨S_, .f32⟩
  | 61 => ⟨S2x8192x16x16x4, .f32⟩
  | 62 => ⟨S2x8192x16x16x4, .f32⟩
  | 63 => ⟨S2x8192x16x16x4, .f32⟩
  | 64 => ⟨S2x8192x16x16x1, .f32⟩
  | 65 => ⟨S2x8192x16x16, .f32⟩
  | 66 => ⟨S2x8192x16x16x1, .f32⟩
  | 67 => ⟨S2x8192x16x16, .f32⟩
  | 68 => ⟨S_, .f32⟩
  | 69 => ⟨S2x8192x16x16, .f32⟩
  | 70 => ⟨S2x8192x16x16, .f32⟩
  | 71 => ⟨S2x8192x16x16, .f32⟩
  | 72 => ⟨S_, .f32⟩
  | 73 => ⟨S2x8192x16x16, .f32⟩
  | 74 => ⟨S2x8192x16x16, .f32⟩
  | 75 => ⟨S2x8192x16x16, .f32⟩
  | 76 => ⟨S_, .f32⟩
  | 77 => ⟨S2x8192x16x16, .f32⟩
  | 78 => ⟨S2x8192x16x16, .f32⟩
  | 79 => ⟨S2x8192x16x16, .f32⟩
  | 80 => ⟨S_, .f32⟩
  | 81 => ⟨S2x8192x16x16, .f32⟩
  | 82 => ⟨S2x8192x16x16, .f32⟩
  | 83 => ⟨S2x8192x16x16, .f32⟩
  | 84 => ⟨S2x8192x16x16, .f32⟩
  | 85 => ⟨S2x8192x16x16x1, .f32⟩
  | 86 => ⟨S2x8192x16x16, .f32⟩
  | 87 => ⟨S2x8192x16x16x1, .f32⟩
  | 88 => ⟨S2x8192x16x16, .f32⟩
  | 89 => ⟨S_, .f32⟩
  | 90 => ⟨S2x8192x16x16, .f32⟩
  | 91 => ⟨S2x8192x16x16, .f32⟩
  | 92 => ⟨S2x8192x16x16, .f32⟩
  | 93 => ⟨S_, .f32⟩
  | 94 => ⟨S2x8192x16x16, .f32⟩
  | 95 => ⟨S2x8192x16x16, .f32⟩
  | 96 => ⟨S2x8192x16x16, .f32⟩
  | 97 => ⟨S_, .f32⟩
  | 98 => ⟨S2x8192x16x16, .f32⟩
  | 99 => ⟨S2x8192x16x16, .f32⟩
  | 100 => ⟨S2x8192x16x16, .f32⟩
  | 101 => ⟨S_, .f32⟩
  | 102 => ⟨S2x8192x16x16, .f32⟩
  | 103 => ⟨S2x8192x16x16, .f32⟩
  | 104 => ⟨S2x8192x16x16, .f32⟩
  | 105 => ⟨S2x8192x16x16, .f32⟩
  | 106 => ⟨S_, .f32⟩
  | 107 => ⟨S2x8192x16x16, .f32⟩
  | 108 => ⟨S2x8192x16x16, .f32⟩
  | 109 => ⟨S2x8192x16x16, .f32⟩
  | 110 => ⟨S_, .f32⟩
  | 111 => ⟨S2x8192x16x16, .f32⟩
  | 112 => ⟨S2x8192x16x16, .f32⟩
  | 113 => ⟨S2x8192x16x16, .f32⟩
  | 114 => ⟨S_, .f32⟩
  | 115 => ⟨S2x8192x16x16, .f32⟩
  | 116 => ⟨S2x8192x16x16, .f32⟩
  | 117 => ⟨S2x8192x16x16, .f32⟩
  | 118 => ⟨S_, .f32⟩
  | 119 => ⟨S2x8192x16x16, .f32⟩
  | 120 => ⟨S2x8192x16x16, .f32⟩
  | 121 => ⟨S2x8192x16x16, .f32⟩
  | 122 => ⟨S2x8192x16x16, .f32⟩
  | 123 => ⟨S2x8192x15x16, .f32⟩
  | 124 => ⟨S_, .i32⟩
  | 125 => ⟨S_, .f32⟩
  | 126 => ⟨S2x8192x16x16, .f32⟩
  | 127 => ⟨S2x8192x15x16, .f32⟩
  | _ => ⟨S2x8192x16x16x1, .f32⟩

abbrev hbmTy0_1 (i : Nat) : BufTy := match i % 128 with
  | 0 => ⟨S_, .i32⟩
  | 1 => ⟨S_, .f32⟩
  | 2 => ⟨S2x8192x16x16, .f32⟩
  | 3 => ⟨S2x8192x16x15, .f32⟩
  | 4 => ⟨S_, .i32⟩
  | 5 => ⟨S_, .f32⟩
  | 6 => ⟨S2x8192x16x16, .f32⟩
  | 7 => ⟨S2x8192x16x15, .f32⟩
  | 8 => ⟨S_, .i32⟩
  | 9 => ⟨S_, .f32⟩
  | 10 => ⟨S2x8192x16x16, .f32⟩
  | 11 => ⟨S2x8192x16x16, .f32⟩
  | 12 => ⟨S_, .f32⟩
  | 13 => ⟨S2x8192x16x16, .f32⟩
  | 14 => ⟨S2x8192x16x16, .f32⟩
  | 15 => ⟨S_, .f32⟩
  | 16 => ⟨S2x8192x16x16, .f32⟩
  | 17 => ⟨S2x8192x16x16, .f32⟩
  | 18 => ⟨S2x8192x16x16, .f32⟩
  | 19 => ⟨S2x8192x16x16, .f32⟩
  | 20 => ⟨S_, .f32⟩
  | 21 => ⟨S2x8192x16x16, .f32⟩
  | 22 => ⟨S2x8192x16x16, .f32⟩
  | 23 => ⟨S2x8192x16x16, .f32⟩
  | 24 => ⟨S_, .f32⟩
  | 25 => ⟨S2x8192x16x16, .f32⟩
  | 26 => ⟨S2x8192x16x16, .f32⟩
  | 27 => ⟨S_, .f32⟩
  | 28 => ⟨S2x8192x16x16, .f32⟩
  | 29 => ⟨S2x8192x16x16, .f32⟩
  | 30 => ⟨S2x8192x16x16, .f32⟩
  | 31 => ⟨S2x8192x16x16, .f32⟩
  | 32 => ⟨S_, .f32⟩
  | 33 => ⟨S2x8192x16x16, .f32⟩
  | 34 => ⟨S2x8192x16x16, .f32⟩
  | 35 => ⟨S2x8192x16x16, .f32⟩
  | 36 => ⟨S2x8192x16x16, .f32⟩
  | 37 => ⟨S2x8192x16x16, .f32⟩
  | 38 => ⟨S_, .f32⟩
  | 39 => ⟨S2x8192x16x16, .f32⟩
  | 40 => ⟨S2x8192x16x16, .f32⟩
  | 41 => ⟨S2x8192x16x16, .f32⟩
  | 42 => ⟨S2x8192x16x16, .f32⟩
  | 43 => ⟨S_, .f32⟩
  | 44 => ⟨S2x8192x16x16, .f32⟩
  | 45 => ⟨S2x8192x16x16, .f32⟩
  | 46 => ⟨S2x8192x16x16, .f32⟩
  | 47 => ⟨S2x8192x16x16, .f32⟩
  | 48 => ⟨S_, .f32⟩
  | 49 => ⟨S2x8192x16x16, .f32⟩
  | 50 => ⟨S2x8192x16x16, .f32⟩
  | 51 => ⟨S2x8192x16x16, .f32⟩
  | 52 => ⟨S2x8192x16x16, .f32⟩
  | 53 => ⟨S2x8192x16x16x1, .f32⟩
  | 54 => ⟨S2x8192x16x16x1, .f32⟩
  | 55 => ⟨S_, .f32⟩
  | 56 => ⟨S2x8192, .f32⟩
  | 57 => ⟨S_, .f32⟩
  | 58 => ⟨S2x8192, .f32⟩
  | 59 => ⟨S2x8192, .f32⟩
  | 60 => ⟨S_, .f32⟩
  | 61 => ⟨S2x8192, .f32⟩
  | 62 => ⟨S_, .f32⟩
  | 63 => ⟨S2x8192, .f32⟩
  | 64 => ⟨S2x8192, .f32⟩
  | 65 => ⟨S_, .f32⟩
  | 66 => ⟨S2x8192, .f32⟩
  | 67 => ⟨S2x8192, .f32⟩
  | 68 => ⟨S2x8192x1x1x1, .f32⟩
  | 69 => ⟨S2x8192x16x16x1, .f32⟩
  | 70 => ⟨S2x8192x16x16x1, .f32⟩
  | 71 => ⟨S2x8192x16x16x1, .f32⟩
  | 72 => ⟨S2x8192x16x16x1, .f32⟩
  | 73 => ⟨S_, .f32⟩
  | 74 => ⟨S2x8192, .f32⟩
  | 75 => ⟨S2x8192, .f32⟩
  | 76 => ⟨S2x8192x16x16x1, .f32⟩
  | 77 => ⟨S2x8192, .f32⟩
  | 78 => ⟨S_, .f32⟩
  | 79 => ⟨S2x8192, .f32⟩
  | 80 => ⟨S2x8192, .f32⟩
  | _ => ⟨S2x8192x16x16x1, .f32⟩

abbrev hbmTy (i : Nat) : BufTy := match i / 128 with
  | 0 => hbmTy0_0 i
  | 1 => hbmTy0_1 i
  | _ => ⟨S2x8192x16x16x1, .f32⟩

abbrev bufTy : (tb : Table) → Fin (tcTables nBuf tb) → BufTy
  | .hbm, ⟨i, _⟩ => hbmTy i
  | _, _ => ⟨S2x8192x16x16x1, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_cst_2 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst_3 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_cst_4 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_cst_5 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_cst_6 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_cst_7 : Ref sig .tc := ⟨.hbm, 39, rfl⟩
abbrev main_v27 : Ref sig .tc := ⟨.hbm, 40, rfl⟩
abbrev main_v28 : Ref sig .tc := ⟨.hbm, 41, rfl⟩
abbrev main_cst_8 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_cst_9 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_cst_10 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_cst_11 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_cst_12 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_cst_13 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_cst_14 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_cst_15 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_cst_16 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev main_v62 : Ref sig .tc := ⟨.hbm, 84, rfl⟩
abbrev main_v63 : Ref sig .tc := ⟨.hbm, 85, rfl⟩
abbrev main_v64 : Ref sig .tc := ⟨.hbm, 86, rfl⟩
abbrev main_v65 : Ref sig .tc := ⟨.hbm, 87, rfl⟩
abbrev main_v66 : Ref sig .tc := ⟨.hbm, 88, rfl⟩
abbrev main_cst_17 : Ref sig .tc := ⟨.hbm, 89, rfl⟩
abbrev main_v67 : Ref sig .tc := ⟨.hbm, 90, rfl⟩
abbrev main_v68 : Ref sig .tc := ⟨.hbm, 91, rfl⟩
abbrev main_v69 : Ref sig .tc := ⟨.hbm, 92, rfl⟩
abbrev main_cst_18 : Ref sig .tc := ⟨.hbm, 93, rfl⟩
abbrev main_v70 : Ref sig .tc := ⟨.hbm, 94, rfl⟩
abbrev main_v71 : Ref sig .tc := ⟨.hbm, 95, rfl⟩
abbrev main_v72 : Ref sig .tc := ⟨.hbm, 96, rfl⟩
abbrev main_cst_19 : Ref sig .tc := ⟨.hbm, 97, rfl⟩
abbrev main_v73 : Ref sig .tc := ⟨.hbm, 98, rfl⟩
abbrev main_v74 : Ref sig .tc := ⟨.hbm, 99, rfl⟩
abbrev main_v75 : Ref sig .tc := ⟨.hbm, 100, rfl⟩
abbrev main_cst_20 : Ref sig .tc := ⟨.hbm, 101, rfl⟩
abbrev main_v76 : Ref sig .tc := ⟨.hbm, 102, rfl⟩
abbrev main_v77 : Ref sig .tc := ⟨.hbm, 103, rfl⟩
abbrev main_v78 : Ref sig .tc := ⟨.hbm, 104, rfl⟩
abbrev main_v79 : Ref sig .tc := ⟨.hbm, 105, rfl⟩
abbrev main_cst_21 : Ref sig .tc := ⟨.hbm, 106, rfl⟩
abbrev main_v80 : Ref sig .tc := ⟨.hbm, 107, rfl⟩
abbrev main_v81 : Ref sig .tc := ⟨.hbm, 108, rfl⟩
abbrev main_v82 : Ref sig .tc := ⟨.hbm, 109, rfl⟩
abbrev main_cst_22 : Ref sig .tc := ⟨.hbm, 110, rfl⟩
abbrev main_v83 : Ref sig .tc := ⟨.hbm, 111, rfl⟩
abbrev main_v84 : Ref sig .tc := ⟨.hbm, 112, rfl⟩
abbrev main_v85 : Ref sig .tc := ⟨.hbm, 113, rfl⟩
abbrev main_cst_23 : Ref sig .tc := ⟨.hbm, 114, rfl⟩
abbrev main_v86 : Ref sig .tc := ⟨.hbm, 115, rfl⟩
abbrev main_v87 : Ref sig .tc := ⟨.hbm, 116, rfl⟩
abbrev main_v88 : Ref sig .tc := ⟨.hbm, 117, rfl⟩
abbrev main_cst_24 : Ref sig .tc := ⟨.hbm, 118, rfl⟩
abbrev main_v89 : Ref sig .tc := ⟨.hbm, 119, rfl⟩
abbrev main_v90 : Ref sig .tc := ⟨.hbm, 120, rfl⟩
abbrev main_v91 : Ref sig .tc := ⟨.hbm, 121, rfl⟩
abbrev main_v92 : Ref sig .tc := ⟨.hbm, 122, rfl⟩
abbrev main_v93 : Ref sig .tc := ⟨.hbm, 123, rfl⟩
abbrev main_c : Ref sig .tc := ⟨.hbm, 124, rfl⟩
abbrev main_call0_v0 : Ref sig .tc := ⟨.hbm, 125, rfl⟩
abbrev main_v94 : Ref sig .tc := ⟨.hbm, 126, rfl⟩
abbrev main_v95 : Ref sig .tc := ⟨.hbm, 127, rfl⟩
abbrev main_c_25 : Ref sig .tc := ⟨.hbm, 128, rfl⟩
abbrev main_call1_v0 : Ref sig .tc := ⟨.hbm, 129, rfl⟩
abbrev main_v96 : Ref sig .tc := ⟨.hbm, 130, rfl⟩
abbrev main_v97 : Ref sig .tc := ⟨.hbm, 131, rfl⟩
abbrev main_c_26 : Ref sig .tc := ⟨.hbm, 132, rfl⟩
abbrev main_call2_v0 : Ref sig .tc := ⟨.hbm, 133, rfl⟩
abbrev main_v98 : Ref sig .tc := ⟨.hbm, 134, rfl⟩
abbrev main_v99 : Ref sig .tc := ⟨.hbm, 135, rfl⟩
abbrev main_c_27 : Ref sig .tc := ⟨.hbm, 136, rfl⟩
abbrev main_call3_v0 : Ref sig .tc := ⟨.hbm, 137, rfl⟩
abbrev main_v100 : Ref sig .tc := ⟨.hbm, 138, rfl⟩
abbrev main_v101 : Ref sig .tc := ⟨.hbm, 139, rfl⟩
abbrev main_cst_28 : Ref sig .tc := ⟨.hbm, 140, rfl⟩
abbrev main_v102 : Ref sig .tc := ⟨.hbm, 141, rfl⟩
abbrev main_v103 : Ref sig .tc := ⟨.hbm, 142, rfl⟩
abbrev main_cst_29 : Ref sig .tc := ⟨.hbm, 143, rfl⟩
abbrev main_v104 : Ref sig .tc := ⟨.hbm, 144, rfl⟩
abbrev main_v105 : Ref sig .tc := ⟨.hbm, 145, rfl⟩
abbrev main_v106 : Ref sig .tc := ⟨.hbm, 146, rfl⟩
abbrev main_v107 : Ref sig .tc := ⟨.hbm, 147, rfl⟩
abbrev main_cst_30 : Ref sig .tc := ⟨.hbm, 148, rfl⟩
abbrev main_v108 : Ref sig .tc := ⟨.hbm, 149, rfl⟩
abbrev main_v109 : Ref sig .tc := ⟨.hbm, 150, rfl⟩
abbrev main_v110 : Ref sig .tc := ⟨.hbm, 151, rfl⟩
abbrev main_cst_31 : Ref sig .tc := ⟨.hbm, 152, rfl⟩
abbrev main_v111 : Ref sig .tc := ⟨.hbm, 153, rfl⟩
abbrev main_v112 : Ref sig .tc := ⟨.hbm, 154, rfl⟩
abbrev main_cst_32 : Ref sig .tc := ⟨.hbm, 155, rfl⟩
abbrev main_v113 : Ref sig .tc := ⟨.hbm, 156, rfl⟩
abbrev main_v114 : Ref sig .tc := ⟨.hbm, 157, rfl⟩
abbrev main_v115 : Ref sig .tc := ⟨.hbm, 158, rfl⟩
abbrev main_v116 : Ref sig .tc := ⟨.hbm, 159, rfl⟩
abbrev main_cst_33 : Ref sig .tc := ⟨.hbm, 160, rfl⟩
abbrev main_v117 : Ref sig .tc := ⟨.hbm, 161, rfl⟩
abbrev main_v118 : Ref sig .tc := ⟨.hbm, 162, rfl⟩
abbrev main_v119 : Ref sig .tc := ⟨.hbm, 163, rfl⟩
abbrev main_v120 : Ref sig .tc := ⟨.hbm, 164, rfl⟩
abbrev main_v121 : Ref sig .tc := ⟨.hbm, 165, rfl⟩
abbrev main_cst_34 : Ref sig .tc := ⟨.hbm, 166, rfl⟩
abbrev main_v122 : Ref sig .tc := ⟨.hbm, 167, rfl⟩
abbrev main_v123 : Ref sig .tc := ⟨.hbm, 168, rfl⟩
abbrev main_v124 : Ref sig .tc := ⟨.hbm, 169, rfl⟩
abbrev main_v125 : Ref sig .tc := ⟨.hbm, 170, rfl⟩
abbrev main_cst_35 : Ref sig .tc := ⟨.hbm, 171, rfl⟩
abbrev main_v126 : Ref sig .tc := ⟨.hbm, 172, rfl⟩
abbrev main_v127 : Ref sig .tc := ⟨.hbm, 173, rfl⟩
abbrev main_v128 : Ref sig .tc := ⟨.hbm, 174, rfl⟩
abbrev main_v129 : Ref sig .tc := ⟨.hbm, 175, rfl⟩
abbrev main_cst_36 : Ref sig .tc := ⟨.hbm, 176, rfl⟩
abbrev main_v130 : Ref sig .tc := ⟨.hbm, 177, rfl⟩
abbrev main_v131 : Ref sig .tc := ⟨.hbm, 178, rfl⟩
abbrev main_v132 : Ref sig .tc := ⟨.hbm, 179, rfl⟩
abbrev main_v133 : Ref sig .tc := ⟨.hbm, 180, rfl⟩
abbrev main_v134 : Ref sig .tc := ⟨.hbm, 181, rfl⟩
abbrev main_v135 : Ref sig .tc := ⟨.hbm, 182, rfl⟩
abbrev main_cst_37 : Ref sig .tc := ⟨.hbm, 183, rfl⟩
abbrev main_v136 : Ref sig .tc := ⟨.hbm, 184, rfl⟩
abbrev main_cst_38 : Ref sig .tc := ⟨.hbm, 185, rfl⟩
abbrev main_v137 : Ref sig .tc := ⟨.hbm, 186, rfl⟩
abbrev main_v138 : Ref sig .tc := ⟨.hbm, 187, rfl⟩
abbrev main_cst_39 : Ref sig .tc := ⟨.hbm, 188, rfl⟩
abbrev main_v139 : Ref sig .tc := ⟨.hbm, 189, rfl⟩
abbrev main_cst_40 : Ref sig .tc := ⟨.hbm, 190, rfl⟩
abbrev main_v140 : Ref sig .tc := ⟨.hbm, 191, rfl⟩
abbrev main_v141 : Ref sig .tc := ⟨.hbm, 192, rfl⟩
abbrev main_cst_41 : Ref sig .tc := ⟨.hbm, 193, rfl⟩
abbrev main_v142 : Ref sig .tc := ⟨.hbm, 194, rfl⟩
abbrev main_v143 : Ref sig .tc := ⟨.hbm, 195, rfl⟩
abbrev main_v144 : Ref sig .tc := ⟨.hbm, 196, rfl⟩
abbrev main_v145 : Ref sig .tc := ⟨.hbm, 197, rfl⟩
abbrev main_v146 : Ref sig .tc := ⟨.hbm, 198, rfl⟩
abbrev main_v147 : Ref sig .tc := ⟨.hbm, 199, rfl⟩
abbrev main_v148 : Ref sig .tc := ⟨.hbm, 200, rfl⟩
abbrev main_cst_42 : Ref sig .tc := ⟨.hbm, 201, rfl⟩
abbrev main_v149 : Ref sig .tc := ⟨.hbm, 202, rfl⟩
abbrev main_v150 : Ref sig .tc := ⟨.hbm, 203, rfl⟩
abbrev main_v151 : Ref sig .tc := ⟨.hbm, 204, rfl⟩
abbrev main_v152 : Ref sig .tc := ⟨.hbm, 205, rfl⟩
abbrev main_cst_43 : Ref sig .tc := ⟨.hbm, 206, rfl⟩
abbrev main_v153 : Ref sig .tc := ⟨.hbm, 207, rfl⟩
abbrev main_v154 : Ref sig .tc := ⟨.hbm, 208, rfl⟩

abbrev nD : Nat := 1
abbrev τ : Topo := Topo.v7x

variable {F : FTy → Type} [FloatOps F]

class Facts₀ : Prop where
  bcast_S2x8192x4_S2x8192x1x1x4_0_1_4 : S2x8192x4.BroadcastsInDim S2x8192x1x1x4 (![0, 1, 4] : Fin 3 → Fin S2x8192x1x1x4.rank)
  bcast_S_S2x8192x16x16x4 : S_.BroadcastsInDim S2x8192x16x16x4 (![] : Fin 0 → Fin S2x8192x16x16x4.rank)
  bcast_S_S2x8192x1x1x4 : S_.BroadcastsInDim S2x8192x1x1x4 (![] : Fin 0 → Fin S2x8192x1x1x4.rank)
  bcast_S2x8192x1x1x4_S2x8192x16x16x4_0_1_2_3_4 : S2x8192x1x1x4.BroadcastsInDim S2x8192x16x16x4 (![0, 1, 2, 3, 4] : Fin 5 → Fin S2x8192x16x16x4.rank)
  slices_S2x8192x16x16x4_S2x8192x16x16x1_0_0_0_0_0 : S2x8192x16x16x4.Slices ![0, 0, 0, 0, 0] S2x8192x16x16x1
  shapeCasts_S2x8192x16x16x1_S2x8192x16x16 : S2x8192x16x16x1.ShapeCasts S2x8192x16x16
  slices_S2x8192x16x16x4_S2x8192x16x16x1_0_0_0_0_1 : S2x8192x16x16x4.Slices ![0, 0, 0, 0, 1] S2x8192x16x16x1
  bcast_S_S2x8192x16x16 : S_.BroadcastsInDim S2x8192x16x16 (![] : Fin 0 → Fin S2x8192x16x16.rank)
  slices_S2x8192x16x16x4_S2x8192x16x16x1_0_0_0_0_2 : S2x8192x16x16x4.Slices ![0, 0, 0, 0, 2] S2x8192x16x16x1
  slices_S2x8192x16x16x4_S2x8192x16x16x1_0_0_0_0_3 : S2x8192x16x16x4.Slices ![0, 0, 0, 0, 3] S2x8192x16x16x1
  slices_S2x8192x16x16_S2x8192x15x16_0_0_1_0 : S2x8192x16x16.Slices ![0, 0, 1, 0] S2x8192x15x16
  pads_S2x8192x15x16_S2x8192x16x16_000_000_010_000 : S2x8192x15x16.Pads (![0, 0, 0, 0] : Fin 4 → Nat) ![0, 0, 1, 0] ![0, 0, 0, 0] S2x8192x16x16
  h_S_ : 0 < S_.numel
  slices_S2x8192x16x16_S2x8192x15x16_0_0_0_0 : S2x8192x16x16.Slices ![0, 0, 0, 0] S2x8192x15x16
  pads_S2x8192x15x16_S2x8192x16x16_000_000_100_000 : S2x8192x15x16.Pads (![0, 0, 1, 0] : Fin 4 → Nat) ![0, 0, 0, 0] ![0, 0, 0, 0] S2x8192x16x16
  slices_S2x8192x16x16_S2x8192x16x15_0_0_0_1 : S2x8192x16x16.Slices ![0, 0, 0, 1] S2x8192x16x15
  pads_S2x8192x16x15_S2x8192x16x16_000_000_000_010 : S2x8192x16x15.Pads (![0, 0, 0, 0] : Fin 4 → Nat) ![0, 0, 0, 1] ![0, 0, 0, 0] S2x8192x16x16
  slices_S2x8192x16x16_S2x8192x16x15_0_0_0_0 : S2x8192x16x16.Slices ![0, 0, 0, 0] S2x8192x16x15
  pads_S2x8192x16x15_S2x8192x16x16_000_000_000_100 : S2x8192x16x15.Pads (![0, 0, 0, 1] : Fin 4 → Nat) ![0, 0, 0, 0] ![0, 0, 0, 0] S2x8192x16x16
  bcast_S2x8192x16x16_S2x8192x16x16x1_0_1_2_3 : S2x8192x16x16.BroadcastsInDim S2x8192x16x16x1 (![0, 1, 2, 3] : Fin 4 → Fin S2x8192x16x16x1.rank)
  reducesTo_S2x8192x16x16_S2x8192_d2_3 : S2x8192x16x16.ReducesTo [2, 3] S2x8192
  bcast_S_S2x8192 : S_.BroadcastsInDim S2x8192 (![] : Fin 0 → Fin S2x8192.rank)
  reducesTo_S2x8192x16x16x1_S2x8192_d2_3_4 : S2x8192x16x16x1.ReducesTo [2, 3, 4] S2x8192
  bcast_S2x8192_S2x8192x1x1x1_0_1 : S2x8192.BroadcastsInDim S2x8192x1x1x1 (![0, 1] : Fin 2 → Fin S2x8192x1x1x1.rank)
  bcast_S2x8192x1x1x1_S2x8192x16x16x1_0_1_2_3_4 : S2x8192x1x1x1.BroadcastsInDim S2x8192x16x16x1 (![0, 1, 2, 3, 4] : Fin 5 → Fin S2x8192x16x16x1.rank)

variable [Facts₀]

class Facts : Prop extends Facts₀ where

variable [Facts]
-- ==== Proof.Spec.lean ====
/-
  The function both programs compute, written once over the extended reals.

  Every area (a 16×16 tile, one of 2·8192) is treated alone. A soft rounding
  `dr x = x − sin(τ·x)·ι` with τ the binary value 6.28318548… and ι = 1/τ is applied
  again and again: the four channels of the tile's mask are compared with the four
  channel identifiers by a soft equality, and the four answers are joined by a soft
  conjunction into one weight `M i j` per pixel. The weight is then eroded: a pixel
  keeps its weight only where its neighbours above/below and left/right agree, the
  neighbours outside the tile counting as the padding value. The first result is the
  eroded weight times the edge map; the second is, per area, the weighted variance of
  the image times the mean of the first result times 1000.

  One program divides by τ and the other multiplies by ι; on the extended reals the
  quotient by a nonzero real is the product with its reciprocal (`dr_div`), with no
  finiteness assumed. Sums are finite sums in a commutative monoid, so the order in
  which a tile's 256 entries are added does not matter.
-/
import Idealize.ShloMosaic.PureOps.Ideal
import Idealize.ShloMosaic.PureOps.Ideal.Laws

noncomputable section

namespace Cert.Soft

open Idealize.ShloMosaic

/-- τ: the binary value of 6.28318548…, the same word in both programs. -/
def twoPi : EReal := Ideal.ofBits .f32 0x40C90FDB#32
/-- ι = 1/τ exactly. -/
def invTwoPi : EReal := ((2097152 / 13176795 : ℝ) : EReal)
/-- 1.0 -/
def one : EReal := Ideal.ofBits .f32 0x3F800000#32
/-- The value a shifted tile is padded with: the integer 0 converted to a float. -/
def padZero : EReal := FloatOps.sitofp (F := Ideal) .f32 (0#32 : BitVec 32)
/-- 256.0, the number of pixels of a tile. -/
def c256 : EReal := Ideal.ofBits .f32 0x43800000#32
/-- The small number added to the weight's total before dividing by it. -/
def eps : EReal := Ideal.ofBits .f32 0x322BCC77#32
/-- 1000.0 -/
def c1000 : EReal := Ideal.ofBits .f32 0x447A0000#32

/-- τ is the real 13176795 / 2^21. -/
theorem twoPi_eq : twoPi = ((13176795 / 2097152 : ℝ) : EReal) := by
  unfold twoPi
  simp [Ideal.ofBits, Ideal.ieee, -EReal.coe_mul]; norm_num

/-- Soft rounding. -/
def dr (x : EReal) : EReal := x - Ideal.sin (twoPi * x) * invTwoPi

/-- Dividing by τ is multiplying by ι, on every extended real. -/
theorem dr_div (x : EReal) : x - Ideal.div (Ideal.sin (twoPi * x)) twoPi = dr x := by
  unfold dr
  generalize Ideal.sin (twoPi * x) = s
  have e : ((1 / (13176795 / 2097152) : ℝ)) = 2097152 / 13176795 := by norm_num
  rw [twoPi_eq, Ideal.div_coe (by norm_num), e]
  rfl

/-- Soft rounding twice. -/
def hdr (x : EReal) : EReal := dr (dr x)

/-- Soft equality of two numbers meant to be 0 or 1. -/
def softEq (a b : EReal) : EReal := hdr (hdr a * hdr b + (one - hdr a) * (one - hdr b))

/-- Soft conjunction. -/
def softAnd (a b : EReal) : EReal := dr a * dr b

/-- A pixel's weight from its four mask channels and the area's four identifiers. -/
def weight (mask mid : Fin 4 → EReal) : EReal :=
  softAnd (softAnd (softEq (mask 0) (mid 0)) (softEq (mask 1) (mid 1)))
          (softAnd (softEq (mask 2) (mid 2)) (softEq (mask 3) (mid 3)))

/-- The tile moved one row up (row i shows row i+1), the last row padded. -/
def rowNext (M : Fin 16 → Fin 16 → EReal) (i j : Fin 16) : EReal :=
  if h : i.val + 1 < 16 then M ⟨i.val + 1, h⟩ j else padZero
/-- The tile moved one row down (row i shows row i−1), the first row padded. -/
def rowPrev (M : Fin 16 → Fin 16 → EReal) (i j : Fin 16) : EReal :=
  if h : 0 < i.val then M ⟨i.val - 1, by omega⟩ j else padZero
/-- The tile moved one column left (column j shows column j+1), the last column padded. -/
def colNext (M : Fin 16 → Fin 16 → EReal) (i j : Fin 16) : EReal :=
  if h : j.val + 1 < 16 then M i ⟨j.val + 1, h⟩ else padZero
/-- The tile moved one column right (column j shows column j−1), the first column padded. -/
def colPrev (M : Fin 16 → Fin 16 → EReal) (i j : Fin 16) : EReal :=
  if h : 0 < j.val then M i ⟨j.val - 1, by omega⟩ else padZero

/-- 1 − (soft equality without rounding): how much two neighbours differ. -/
def differ (a b : EReal) : EReal := one - (a * b + (one - a) * (one - b))

/-- The eroded weight of a pixel. -/
def eroded (M : Fin 16 → Fin 16 → EReal) (i j : Fin 16) : EReal :=
  (one - ((differ (rowNext M i j) (rowPrev M i j) * M i j) * (differ (colNext M i j) (colPrev M i j) * M i j)
          + (one - differ (rowNext M i j) (rowPrev M i j) * M i j) * (differ (rowNext M i j) (rowPrev M i j) * M i j)
          + (one - differ (colNext M i j) (colPrev M i j) * M i j) * (differ (rowNext M i j) (rowPrev M i j) * M i j)))
    * M i j

/-- First result: the eroded weight times the edge map. -/
def edges (M E : Fin 16 → Fin 16 → EReal) (i j : Fin 16) : EReal := eroded M i j * E i j

/-- The sum of a tile's 256 entries. -/
def total (f : Fin 16 → Fin 16 → EReal) : EReal := ∑ i : Fin 16, ∑ j : Fin 16, f i j

/-- Second result, per area: variance · mean edge · 1000, from the weight `M`, the image `I` and the edge map `E`. -/
def stat (M I E : Fin 16 → Fin 16 → EReal) : EReal :=
  (Ideal.div (total fun i j => ((M i j * I i j - Ideal.div (total fun i j => M i j * I i j) (total M + eps)) * M i j)
                              * ((M i j * I i j - Ideal.div (total fun i j => M i j * I i j) (total M + eps)) * M i j))
             (total M + eps)
    * Ideal.div (total (edges M E)) c256)
  * c1000

end Cert.Soft

end
-- ==== Proof.Result.lean ====
/-
  The two results as functions of the four argument arrays, over the whole index sets.

  The first result at (b, a, i, j, ·) is the eroded weight of pixel (i, j) of area (b, a) times
  the edge map there; the second at (b, a) is that area's number. An area's weights depend on
  the area's slice of the mask and on its four identifiers only.
-/
import proofs.«139546_j7627861917769_2_alg».proof.Proof.Spec
import Idealize.ShloMosaic.Lib.ValueIdx

noncomputable section

namespace Cert.Soft

open Idealize.ShloMosaic Idealize.ShloMosaic.ValueIdx

/-- The weights of area (b, a), from the mask array and the identifier array. -/
def areaWeight (x1 : (⟨5, ![2, 8192, 16, 16, 4]⟩ : Shape).Idx → EReal) (x2 : (⟨3, ![2, 8192, 4]⟩ : Shape).Idx → EReal)
    (b : Fin 2) (a : Fin 8192) : Fin 16 → Fin 16 → EReal :=
  fun i j => weight (fun ch => x1 (ix5 b a i j ch)) (fun ch => x2 (ix3 b a ch))

/-- The first result, index by index. -/
def result0 (x1 : (⟨5, ![2, 8192, 16, 16, 4]⟩ : Shape).Idx → EReal) (x2 : (⟨3, ![2, 8192, 4]⟩ : Shape).Idx → EReal)
    (x3 : (⟨4, ![2, 8192, 16, 16]⟩ : Shape).Idx → EReal) : (⟨5, ![2, 8192, 16, 16, 1]⟩ : Shape).Idx → EReal :=
  fun idx => edges (areaWeight x1 x2 ⟨(idx 0).val, (idx 0).isLt⟩ ⟨(idx 1).val, (idx 1).isLt⟩)
    (fun i j => x3 (ix4 (⟨(idx 0).val, (idx 0).isLt⟩ : Fin 2) (⟨(idx 1).val, (idx 1).isLt⟩ : Fin 8192) i j))
    ⟨(idx 2).val, (idx 2).isLt⟩ ⟨(idx 3).val, (idx 3).isLt⟩

/-- The second result, index by index. -/
def result1 (x0 : (⟨5, ![2, 8192, 16, 16, 1]⟩ : Shape).Idx → EReal) (x1 : (⟨5, ![2, 8192, 16, 16, 4]⟩ : Shape).Idx → EReal)
    (x2 : (⟨3, ![2, 8192, 4]⟩ : Shape).Idx → EReal) (x3 : (⟨4, ![2, 8192, 16, 16]⟩ : Shape).Idx → EReal) :
    (⟨2, ![2, 8192]⟩ : Shape).Idx → EReal :=
  fun idx => stat (areaWeight x1 x2 ⟨(idx 0).val, (idx 0).isLt⟩ ⟨(idx 1).val, (idx 1).isLt⟩)
    (fun i j => x0 (ix5 (⟨(idx 0).val, (idx 0).isLt⟩ : Fin 2) (⟨(idx 1).val, (idx 1).isLt⟩ : Fin 8192) i j (0 : Fin 1)))
    (fun i j => x3 (ix4 (⟨(idx 0).val, (idx 0).isLt⟩ : Fin 2) (⟨(idx 1).val, (idx 1).isLt⟩ : Fin 8192) i j))

theorem result0_apply (x1 : (⟨5, ![2, 8192, 16, 16, 4]⟩ : Shape).Idx → EReal) (x2 : (⟨3, ![2, 8192, 4]⟩ : Shape).Idx → EReal)
    (x3 : (⟨4, ![2, 8192, 16, 16]⟩ : Shape).Idx → EReal) (b : Fin 2) (a : Fin 8192) (i j : Fin 16) (u : Fin 1) :
    result0 x1 x2 x3 (ix5 b a i j u) = edges (areaWeight x1 x2 b a) (fun i j => x3 (ix4 b a i j)) i j := rfl

theorem result1_apply (x0 : (⟨5, ![2, 8192, 16, 16, 1]⟩ : Shape).Idx → EReal) (x1 : (⟨5, ![2, 8192, 16, 16, 4]⟩ : Shape).Idx → EReal)
    (x2 : (⟨3, ![2, 8192, 4]⟩ : Shape).Idx → EReal) (x3 : (⟨4, ![2, 8192, 16, 16]⟩ : Shape).Idx → EReal) (b : Fin 2) (a : Fin 8192) :
    result1 x0 x1 x2 x3 (ix2 b a) = stat (areaWeight x1 x2 b a) (fun i j => x0 (ix5 b a i j (0 : Fin 1))) (fun i j => x3 (ix4 b a i j)) := rfl

end Cert.Soft

end
-- ==== Proof.KerWeight.lean ====
/-
  The idealized kernel's body, first half: the weight of every pixel of a block.

  A block holds 256 areas. From the block's mask `x1` (area, channel, row, column) and
  the block's identifiers `x2` (area, channel) the body computes, pixel by pixel, the
  soft comparison of each channel with its identifier and the soft conjunction of the
  four answers: `Cert.Soft.weight`. Nothing here mixes different pixels or areas.
-/
import proofs.«139546_j7627861917769_2_alg».proof.Proof.Gen.KernelIdeal.Skeleton
import proofs.«139546_j7627861917769_2_alg».proof.Proof.Spec
import Idealize.ShloMosaic.Lib.ValueIdx
import Idealize.ShloMosaic.Lib.Pipeline.Value

noncomputable section

namespace Cert.KernelIdeal.Body

open Idealize.ShloMosaic Idealize.ShloMosaic.ValueIdx Cert.KernelIdeal Cert.KernelIdeal.Gen

/-- The kernel's named reciprocal is ι = 1/τ at the extended reals, by the certificate's table. -/
theorem named_invTwoPi :
    Named.named (F := Ideal) Cert.KernelIdeal.κ "inv_two_pi" (φ := .f32) 0x3E22F983#32 = Cert.Soft.invTwoPi :=
  IdealRules.named_const.ideal_named_scalar _ _ _ _ rfl

/-- The weights of area `n` of a block, from the block's mask and identifiers. -/
def blockWeight (x1 : Vec Ideal S256x4x16x16 .f32) (x2 : Vec Ideal S256x4 .f32) (n : Fin 256) : Fin 16 → Fin 16 → EReal :=
  fun i j => Cert.Soft.weight (fun ch => x1 (ix4 n ch i j)) (fun ch => x2 (ix2 n ch))

/-! ### Soft rounding of a whole vector -/

/-- One soft rounding of a whole vector, as the body spells it: `v − sin(τ·v)·ι`, entry by entry. -/
private abbrev drV {s : Shape} (v : FVec Ideal s .f32) : FVec Ideal s .f32 :=
  subf v (mulf (sin (mulf (broadcast s (Scalar.ofBits (F := Ideal) .f32 0x40C90FDB#32)) v))
    (broadcast s (Named.named (F := Ideal) Cert.KernelIdeal.κ "inv_two_pi" (φ := .f32) 0x3E22F983#32)))

/-- The constant vector of ones. -/
private abbrev oneV (s : Shape) : FVec Ideal s .f32 := broadcast s (Scalar.ofBits (F := Ideal) .f32 0x3F800000#32)

/-- A vector's soft rounding read at an entry is the soft rounding of the entry. -/
private theorem drV_apply {s : Shape} (v : FVec Ideal s .f32) (i : s.Idx) : drV v i = Cert.Soft.dr (v i) := by
  show v i - Ideal.sin (Ideal.ofBits .f32 0x40C90FDB#32 * v i)
      * Named.named (F := Ideal) Cert.KernelIdeal.κ "inv_two_pi" (φ := .f32) 0x3E22F983#32 = _
  rw [named_invTwoPi]
  rfl

/-- Two soft roundings of a vector read at an entry. -/
private theorem hdrV_apply {s : Shape} (v : FVec Ideal s .f32) (i : s.Idx) : drV (drV v) i = Cert.Soft.hdr (v i) :=
  (drV_apply (drV v) i).trans (congrArg Cert.Soft.dr (drV_apply v i))

/-! ### The layout operations of the body, read at an entry -/

/-- The identifiers `[256, 4]` recast to `[256, 4, 1, 1]`: entry `(n, ch, 0, 0)` is entry `(n, ch)`. -/
private theorem cast_ids_apply (v : FVec Ideal S256x4 .f32) (n : Fin 256) (ch : Fin 4) (a b : Fin 1) :
    shapeCast S256x4x1x1 v shapeCasts_S256x4_S256x4x1x1 (ix4 n ch a b) = v (ix2 n ch) :=
  shapeCast_apply v shapeCasts_S256x4_S256x4x1x1 (ix4 n ch a b) (ix2 n ch) (by
    have ha : a.val = 0 := by omega
    have hb : b.val = 0 := by omega
    rw [Shape.rowMajor_val_two, Shape.rowMajor_val_four]
    show n.val * 4 + ch.val = ((n.val * 4 + ch.val) * 1 + a.val) * 1 + b.val
    omega)

/-- `[256, 4, 1, 1]` spread over `[256, 4, 16, 16]`: every pixel of a channel of an area reads the one entry. -/
private theorem bcast_apply (v : FVec Ideal S256x4x1x1 .f32) (n : Fin 256) (ch : Fin 4) (i j : Fin 16) :
    broadcastTo S256x4x16x16 v broadcasts_S256x4x1x1_S256x4x16x16 (ix4 n ch i j) = v (ix4 n ch (0 : Fin 1) (0 : Fin 1)) :=
  broadcastTo_apply v broadcasts_S256x4x1x1_S256x4x16x16 (ix4 n ch i j) (ix4 n ch (0 : Fin 1) (0 : Fin 1)) (fun a => match a with
    | ⟨0, _⟩ => by show n.val = if (256 : Nat) = 1 then 0 else n.val; rw [if_neg (by decide)]
    | ⟨1, _⟩ => by show ch.val = if (4 : Nat) = 1 then 0 else ch.val; rw [if_neg (by decide)]
    | ⟨2, _⟩ => by show (0 : Nat) = if (1 : Nat) = 1 then 0 else i.val; rw [if_pos rfl]
    | ⟨3, _⟩ => by show (0 : Nat) = if (1 : Nat) = 1 then 0 else j.val; rw [if_pos rfl])

/-- Channel `c` of a `[256, 4, 16, 16]` vector, cut out and recast to `[256, 16, 16]`. -/
private abbrev chanV (c : Nat) (hs : S256x4x16x16.Slices ![0, c, 0, 0] S256x1x16x16) (w : FVec Ideal S256x4x16x16 .f32) :
    FVec Ideal S256x16x16 .f32 :=
  shapeCast S256x16x16 (extractStridedSlice S256x1x16x16 ![0, c, 0, 0] w hs) shapeCasts_S256x1x16x16_S256x16x16

/-- Pixel `(i, j)` of area `n` of the cut-out channel is entry `(n, c, i, j)`. -/
private theorem chanV_apply (c : Nat) (hc : c < 4) (hs : S256x4x16x16.Slices ![0, c, 0, 0] S256x1x16x16)
    (w : FVec Ideal S256x4x16x16 .f32) (n : Fin 256) (i j : Fin 16) :
    chanV c hs w (ix3 n i j) = w (ix4 n (⟨c, hc⟩ : Fin 4) i j) := by
  refine (shapeCast_apply (extractStridedSlice S256x1x16x16 ![0, c, 0, 0] w hs) shapeCasts_S256x1x16x16_S256x16x16
    (ix3 n i j) (ix4 n (0 : Fin 1) i j) ?_).trans ?_
  · rw [Shape.rowMajor_val_four, Shape.rowMajor_val_three]
    show ((n.val * 1 + 0) * 16 + i.val) * 16 + j.val = (n.val * 16 + i.val) * 16 + j.val
    omega
  · exact extractStridedSlice_apply ![0, c, 0, 0] w hs (ix4 n (0 : Fin 1) i j) (ix4 n (⟨c, hc⟩ : Fin 4) i j) (fun a => match a with
      | ⟨0, _⟩ => by show n.val = 0 + n.val; omega
      | ⟨1, _⟩ => by show c = c + 0; omega
      | ⟨2, _⟩ => by show i.val = 0 + i.val; omega
      | ⟨3, _⟩ => by show j.val = 0 + j.val; omega)

/-! ### The body's payloads, read at an entry -/

/-- The mask, softly rounded twice. -/
private theorem pay3_apply (x1 : Vec Ideal S256x4x16x16 .f32) (idx : S256x4x16x16.Idx) :
    k0_pay3 (F := Ideal) x1 idx = Cert.Soft.hdr (x1 idx) := by
  have e : k0_pay3 (F := Ideal) x1
      = drV (drV (shapeCast S256x4x16x16 x1 shapeCasts_S256x4x16x16_S256x4x16x16)) := rfl
  refine (congrFun e idx).trans ?_
  rw [hdrV_apply, shapeCast_self]

/-- The identifiers, spread over the pixels and softly rounded twice. -/
private theorem pay4_apply (x2 : Vec Ideal S256x4 .f32) (n : Fin 256) (ch : Fin 4) (i j : Fin 16) :
    k0_pay4 (F := Ideal) x2 (ix4 n ch i j) = Cert.Soft.hdr (x2 (ix2 n ch)) := by
  have e : k0_pay4 (F := Ideal) x2
      = drV (drV (broadcastTo S256x4x16x16
          (shapeCast S256x4x1x1
            (shapeCast S256x4x1x1 (shapeCast S256x4 x2 shapeCasts_S256x4_S256x4) shapeCasts_S256x4_S256x4x1x1)
            shapeCasts_S256x4x1x1_S256x4x1x1)
          broadcasts_S256x4x1x1_S256x4x16x16)) := rfl
  refine (congrFun e (ix4 n ch i j)).trans ?_
  rw [hdrV_apply, bcast_apply, shapeCast_self, cast_ids_apply, shapeCast_self]

/-- The soft equality, over any three vectors standing for the rounded identifiers, the product and the complement. -/
private theorem pay7_apply (v34 v35 v37 : FVec Ideal S256x4x16x16 .f32) (idx : S256x4x16x16.Idx) :
    k0_pay7 (F := Ideal) v34 v35 v37 idx
      = Cert.Soft.hdr (v35 idx + v37 idx * (Cert.Soft.one - v34 idx)) := by
  have e : k0_pay7 (F := Ideal) v34 v35 v37
      = drV (drV (addf v35 (mulf v37 (subf (oneV S256x4x16x16) v34)))) := rfl
  refine (congrFun e idx).trans ?_
  rw [hdrV_apply]
  rfl

/-- The soft equality of a mask entry with its area's identifier of the same channel. -/
private theorem softEq_apply (x1 : Vec Ideal S256x4x16x16 .f32) (x2 : Vec Ideal S256x4 .f32)
    (n : Fin 256) (ch : Fin 4) (i j : Fin 16) :
    k0_pay7 (F := Ideal) (k0_pay4 x2) (k0_pay5 x1 x2) (k0_pay6 x1) (ix4 n ch i j)
      = Cert.Soft.softEq (x1 (ix4 n ch i j)) (x2 (ix2 n ch)) := by
  rw [pay7_apply]
  show Cert.Soft.hdr (k0_pay3 (F := Ideal) x1 (ix4 n ch i j) * k0_pay4 (F := Ideal) x2 (ix4 n ch i j)
      + (Cert.Soft.one - k0_pay3 (F := Ideal) x1 (ix4 n ch i j))
        * (Cert.Soft.one - k0_pay4 (F := Ideal) x2 (ix4 n ch i j))) = _
  rw [pay3_apply, pay4_apply]
  rfl

/-- The soft conjunction of the four channels of any `[256, 4, 16, 16]` vector, as the body spells it. -/
private theorem conj_apply (w : FVec Ideal S256x4x16x16 .f32) (n : Fin 256) (i j : Fin 16) :
    mulf (drV (mulf (drV (chanV 0 slices_S256x4x16x16_o0_0_0_0_S256x1x16x16 w))
                    (drV (chanV 1 slices_S256x4x16x16_o0_1_0_0_S256x1x16x16 w))))
         (drV (mulf (drV (chanV 2 slices_S256x4x16x16_o0_2_0_0_S256x1x16x16 w))
                    (drV (chanV 3 slices_S256x4x16x16_o0_3_0_0_S256x1x16x16 w)))) (ix3 n i j)
      = Cert.Soft.softAnd (Cert.Soft.softAnd (w (ix4 n (0 : Fin 4) i j)) (w (ix4 n (1 : Fin 4) i j)))
          (Cert.Soft.softAnd (w (ix4 n (2 : Fin 4) i j)) (w (ix4 n (3 : Fin 4) i j))) := by
  show drV (mulf (drV (chanV 0 slices_S256x4x16x16_o0_0_0_0_S256x1x16x16 w))
                 (drV (chanV 1 slices_S256x4x16x16_o0_1_0_0_S256x1x16x16 w))) (ix3 n i j)
     * drV (mulf (drV (chanV 2 slices_S256x4x16x16_o0_2_0_0_S256x1x16x16 w))
                 (drV (chanV 3 slices_S256x4x16x16_o0_3_0_0_S256x1x16x16 w))) (ix3 n i j) = _
  rw [drV_apply, drV_apply]
  show Cert.Soft.dr (drV (chanV 0 slices_S256x4x16x16_o0_0_0_0_S256x1x16x16 w) (ix3 n i j)
                     * drV (chanV 1 slices_S256x4x16x16_o0_1_0_0_S256x1x16x16 w) (ix3 n i j))
     * Cert.Soft.dr (drV (chanV 2 slices_S256x4x16x16_o0_2_0_0_S256x1x16x16 w) (ix3 n i j)
                     * drV (chanV 3 slices_S256x4x16x16_o0_3_0_0_S256x1x16x16 w) (ix3 n i j)) = _
  rw [drV_apply, drV_apply, drV_apply, drV_apply,
    chanV_apply 0 (by decide), chanV_apply 1 (by decide), chanV_apply 2 (by decide), chanV_apply 3 (by decide)]
  rfl

/-- The body's weight vector (its value %100) at pixel (i, j) of area n, from the loaded blocks. -/
theorem weight_apply (x1 : Vec Ideal S256x4x16x16 .f32) (x2 : Vec Ideal S256x4 .f32) (n : Fin 256) (i j : Fin 16) :
    k0_pay13 (F := Ideal)
      (k0_pay8 (k0_pay4 x2) (k0_pay5 x1 x2) (k0_pay6 x1))
      (k0_pay9 (k0_pay4 x2) (k0_pay5 x1 x2) (k0_pay6 x1))
      (k0_pay10 (k0_pay4 x2) (k0_pay5 x1 x2) (k0_pay6 x1))
      (k0_pay11 (k0_pay4 x2) (k0_pay5 x1 x2) (k0_pay6 x1))
      (k0_pay12 (F := Ideal)) (ix3 n i j)
    = blockWeight x1 x2 n i j := by
  have e : k0_pay13 (F := Ideal)
      (k0_pay8 (k0_pay4 x2) (k0_pay5 x1 x2) (k0_pay6 x1))
      (k0_pay9 (k0_pay4 x2) (k0_pay5 x1 x2) (k0_pay6 x1))
      (k0_pay10 (k0_pay4 x2) (k0_pay5 x1 x2) (k0_pay6 x1))
      (k0_pay11 (k0_pay4 x2) (k0_pay5 x1 x2) (k0_pay6 x1))
      (k0_pay12 (F := Ideal))
      = mulf (drV (mulf (drV (chanV 0 slices_S256x4x16x16_o0_0_0_0_S256x1x16x16 (k0_pay7 (F := Ideal) (k0_pay4 x2) (k0_pay5 x1 x2) (k0_pay6 x1))))
                        (drV (chanV 1 slices_S256x4x16x16_o0_1_0_0_S256x1x16x16 (k0_pay7 (F := Ideal) (k0_pay4 x2) (k0_pay5 x1 x2) (k0_pay6 x1))))))
             (drV (mulf (drV (chanV 2 slices_S256x4x16x16_o0_2_0_0_S256x1x16x16 (k0_pay7 (F := Ideal) (k0_pay4 x2) (k0_pay5 x1 x2) (k0_pay6 x1))))
                        (drV (chanV 3 slices_S256x4x16x16_o0_3_0_0_S256x1x16x16 (k0_pay7 (F := Ideal) (k0_pay4 x2) (k0_pay5 x1 x2) (k0_pay6 x1)))))) := rfl
  refine (congrFun e (ix3 n i j)).trans ?_
  rw [conj_apply, softEq_apply, softEq_apply, softEq_apply, softEq_apply]
  rfl

end Cert.KernelIdeal.Body

end
-- ==== Proof.KerErode.lean ====
/-
  The idealized kernel's body, second half: from the weight vector to the two results of a block.

  The weight vector `W` (256 areas of 16×16 pixels) is moved by one row and by one column
  in both directions, each time cut by one line and padded by one line of the padding value;
  pixel by pixel the four moved copies and `W` give the eroded weight, and its product with
  the edge map is the first result. The second result adds up, area by area, three 16×16
  tables — first along a row, then the row totals — and combines the three totals.
  A sum over a row followed by a sum of the row totals is the sum over the tile; the
  accumulators start from the zero word, which is 0.
-/
import proofs.«139546_j7627861917769_2_alg».proof.Proof.Gen.KernelIdeal.Skeleton
import proofs.«139546_j7627861917769_2_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Body

open Idealize.ShloMosaic Idealize.ShloMosaic.ValueIdx Cert.KernelIdeal Cert.KernelIdeal.Gen

/-! ## The four moved copies of the weight vector, read at a pixel -/

/-- Cut off row 0 and pad below: row `i` shows row `i + 1`, the last row the padding value. -/
private theorem rowNext_read (W : FVec Ideal S256x16x16 .f32)
    (hs : S256x16x16.Slices ![0, 1, 0] S256x15x16)
    (hc : Shape.Concatenates [S256x15x16, S256x1x16] S256x16x16 1) (n : Fin 256) (i j : Fin 16) :
    concatenate S256x16x16 1 [⟨S256x15x16, extractStridedSlice S256x15x16 ![0, 1, 0] W hs⟩,
        ⟨S256x1x16, broadcast S256x1x16 (Scalar.sitofp (F := Ideal) .f32 0#32)⟩] hc (ix3 n i j)
      = Cert.Soft.rowNext (fun i j => W (ix3 n i j)) i j := by
  have hi := i.isLt
  unfold Cert.Soft.rowNext
  by_cases h : i.val + 1 < 16
  · rw [dif_pos h]
    refine (concatenate_pair_apply_left _ _ _ hc (ix3 n i j) rfl (ix3 n (⟨i.val, by omega⟩ : Fin 15) j)
      (fun b => match b with
        | ⟨0, _⟩ => rfl
        | ⟨1, _⟩ => rfl
        | ⟨2, _⟩ => rfl)).trans ?_
    exact extractStridedSlice_apply _ W hs _ (ix3 n (⟨i.val + 1, h⟩ : Fin 16) j) (fun a => match a with
      | ⟨0, _⟩ => by show n.val = 0 + n.val; omega
      | ⟨1, _⟩ => by show i.val + 1 = 1 + i.val; omega
      | ⟨2, _⟩ => by show j.val = 0 + j.val; omega)
  · rw [dif_neg h]
    refine (concatenate_pair_apply_right _ _ _ hc (ix3 n i j) rfl rfl (ix3 n (0 : Fin 1) j)
      (fun b => match b with
        | ⟨0, _⟩ => fun _ => rfl
        | ⟨1, _⟩ => fun hb => absurd (Fin.ext rfl) hb
        | ⟨2, _⟩ => fun _ => rfl)
      (by show 0 + 15 = i.val; omega)).trans ?_
    rfl

/-- Pad above and cut off the last row: row `i` shows row `i − 1`, row 0 the padding value. -/
private theorem rowPrev_read (W : FVec Ideal S256x16x16 .f32)
    (hs : S256x16x16.Slices ![0, 0, 0] S256x15x16)
    (hc : Shape.Concatenates [S256x1x16, S256x15x16] S256x16x16 1) (n : Fin 256) (i j : Fin 16) :
    concatenate S256x16x16 1 [⟨S256x1x16, broadcast S256x1x16 (Scalar.sitofp (F := Ideal) .f32 0#32)⟩,
        ⟨S256x15x16, extractStridedSlice S256x15x16 ![0, 0, 0] W hs⟩] hc (ix3 n i j)
      = Cert.Soft.rowPrev (fun i j => W (ix3 n i j)) i j := by
  have hi := i.isLt
  unfold Cert.Soft.rowPrev
  by_cases h : 0 < i.val
  · rw [dif_pos h]
    refine (concatenate_pair_apply_right _ _ _ hc (ix3 n i j) rfl rfl (ix3 n (⟨i.val - 1, by omega⟩ : Fin 15) j)
      (fun b => match b with
        | ⟨0, _⟩ => fun _ => rfl
        | ⟨1, _⟩ => fun hb => absurd (Fin.ext rfl) hb
        | ⟨2, _⟩ => fun _ => rfl)
      (by show i.val - 1 + 1 = i.val; omega)).trans ?_
    exact extractStridedSlice_apply _ W hs _ (ix3 n (⟨i.val - 1, by omega⟩ : Fin 16) j) (fun a => match a with
      | ⟨0, _⟩ => by show n.val = 0 + n.val; omega
      | ⟨1, _⟩ => by show i.val - 1 = 0 + (i.val - 1); omega
      | ⟨2, _⟩ => by show j.val = 0 + j.val; omega)
  · rw [dif_neg h]
    refine (concatenate_pair_apply_left _ _ _ hc (ix3 n i j) rfl (ix3 n (0 : Fin 1) j)
      (fun b => match b with
        | ⟨0, _⟩ => rfl
        | ⟨1, _⟩ => by show 0 = i.val; omega
        | ⟨2, _⟩ => rfl)).trans ?_
    rfl

/-- Cut off column 0 and pad on the right: column `j` shows column `j + 1`, the last column the padding value. -/
private theorem colNext_read (W : FVec Ideal S256x16x16 .f32)
    (hs : S256x16x16.Slices ![0, 0, 1] S256x16x15)
    (hc : Shape.Concatenates [S256x16x15, S256x16x1] S256x16x16 2) (n : Fin 256) (i j : Fin 16) :
    concatenate S256x16x16 2 [⟨S256x16x15, extractStridedSlice S256x16x15 ![0, 0, 1] W hs⟩,
        ⟨S256x16x1, broadcast S256x16x1 (Scalar.sitofp (F := Ideal) .f32 0#32)⟩] hc (ix3 n i j)
      = Cert.Soft.colNext (fun i j => W (ix3 n i j)) i j := by
  have hj := j.isLt
  unfold Cert.Soft.colNext
  by_cases h : j.val + 1 < 16
  · rw [dif_pos h]
    refine (concatenate_pair_apply_left _ _ _ hc (ix3 n i j) rfl (ix3 n i (⟨j.val, by omega⟩ : Fin 15))
      (fun b => match b with
        | ⟨0, _⟩ => rfl
        | ⟨1, _⟩ => rfl
        | ⟨2, _⟩ => rfl)).trans ?_
    exact extractStridedSlice_apply _ W hs _ (ix3 n i (⟨j.val + 1, h⟩ : Fin 16)) (fun a => match a with
      | ⟨0, _⟩ => by show n.val = 0 + n.val; omega
      | ⟨1, _⟩ => by show i.val = 0 + i.val; omega
      | ⟨2, _⟩ => by show j.val + 1 = 1 + j.val; omega)
  · rw [dif_neg h]
    refine (concatenate_pair_apply_right _ _ _ hc (ix3 n i j) rfl rfl (ix3 n i (0 : Fin 1))
      (fun b => match b with
        | ⟨0, _⟩ => fun _ => rfl
        | ⟨1, _⟩ => fun _ => rfl
        | ⟨2, _⟩ => fun hb => absurd (Fin.ext rfl) hb)
      (by show 0 + 15 = j.val; omega)).trans ?_
    rfl

/-- Pad on the left and cut off the last column: column `j` shows column `j − 1`, column 0 the padding value. -/
private theorem colPrev_read (W : FVec Ideal S256x16x16 .f32)
    (hs : S256x16x16.Slices ![0, 0, 0] S256x16x15)
    (hc : Shape.Concatenates [S256x16x1, S256x16x15] S256x16x16 2) (n : Fin 256) (i j : Fin 16) :
    concatenate S256x16x16 2 [⟨S256x16x1, broadcast S256x16x1 (Scalar.sitofp (F := Ideal) .f32 0#32)⟩,
        ⟨S256x16x15, extractStridedSlice S256x16x15 ![0, 0, 0] W hs⟩] hc (ix3 n i j)
      = Cert.Soft.colPrev (fun i j => W (ix3 n i j)) i j := by
  have hj := j.isLt
  unfold Cert.Soft.colPrev
  by_cases h : 0 < j.val
  · rw [dif_pos h]
    refine (concatenate_pair_apply_right _ _ _ hc (ix3 n i j) rfl rfl (ix3 n i (⟨j.val - 1, by omega⟩ : Fin 15))
      (fun b => match b with
        | ⟨0, _⟩ => fun _ => rfl
        | ⟨1, _⟩ => fun _ => rfl
        | ⟨2, _⟩ => fun hb => absurd (Fin.ext rfl) hb)
      (by show j.val - 1 + 1 = j.val; omega)).trans ?_
    exact extractStridedSlice_apply _ W hs _ (ix3 n i (⟨j.val - 1, by omega⟩ : Fin 16)) (fun a => match a with
      | ⟨0, _⟩ => by show n.val = 0 + n.val; omega
      | ⟨1, _⟩ => by show i.val = 0 + i.val; omega
      | ⟨2, _⟩ => by show j.val - 1 = 0 + (j.val - 1); omega)
  · rw [dif_neg h]
    refine (concatenate_pair_apply_left _ _ _ hc (ix3 n i j) rfl (ix3 n i (0 : Fin 1))
      (fun b => match b with
        | ⟨0, _⟩ => rfl
        | ⟨1, _⟩ => rfl
        | ⟨2, _⟩ => by show 0 = j.val; omega)).trans ?_
    rfl

/-! ## The payloads between the weight vector and the first result, read at a pixel -/

private theorem pay14_read (a b c d e : FVec Ideal S256x16x16 .f32) (n : Fin 256) (i j : Fin 16) :
    k0_pay14 (F := Ideal) a b c d e (ix3 n i j)
      = Cert.Soft.colNext (fun i j => k0_pay13 (F := Ideal) a b c d e (ix3 n i j)) i j := by
  unfold k0_pay14
  exact colNext_read (k0_pay13 (F := Ideal) a b c d e) _ _ n i j

private theorem pay15_read (a b c d e : FVec Ideal S256x16x16 .f32) (n : Fin 256) (i j : Fin 16) :
    k0_pay15 (F := Ideal) a b c d e (ix3 n i j)
      = Cert.Soft.colPrev (fun i j => k0_pay13 (F := Ideal) a b c d e (ix3 n i j)) i j := by
  unfold k0_pay15
  exact colPrev_read (k0_pay13 (F := Ideal) a b c d e) _ _ n i j

/-- How much the neighbours above and below differ. -/
private theorem pay16_read (a b c d e : FVec Ideal S256x16x16 .f32) (n : Fin 256) (i j : Fin 16) :
    k0_pay16 (F := Ideal) a b c d e (ix3 n i j)
      = Cert.Soft.differ (Cert.Soft.rowNext (fun i j => k0_pay13 (F := Ideal) a b c d e (ix3 n i j)) i j)
          (Cert.Soft.rowPrev (fun i j => k0_pay13 (F := Ideal) a b c d e (ix3 n i j)) i j) := by
  unfold k0_pay16
  exact congrArg₂ Cert.Soft.differ (rowNext_read (k0_pay13 (F := Ideal) a b c d e) _ _ n i j)
    (rowPrev_read (k0_pay13 (F := Ideal) a b c d e) _ _ n i j)

private theorem pay17_read (a b c d e : FVec Ideal S256x16x16 .f32) (x : S256x16x16.Idx) :
    k0_pay17 (F := Ideal) a b c d e x = k0_pay14 (F := Ideal) a b c d e x * k0_pay15 (F := Ideal) a b c d e x := rfl

private theorem pay18_read (a b c d e : FVec Ideal S256x16x16 .f32) (x : S256x16x16.Idx) :
    k0_pay18 (F := Ideal) a b c d e x
      = (Cert.Soft.one - k0_pay14 (F := Ideal) a b c d e x) * (Cert.Soft.one - k0_pay15 (F := Ideal) a b c d e x) := rfl

/-- The first result from the weight, the two halves of the row and column comparisons and the edge map, pixel by pixel. -/
private theorem pay19_read (v7 W Q R S : FVec Ideal S256x16x16 .f32) (x : S256x16x16.Idx) :
    k0_pay19 (F := Ideal) v7 W Q R S x
      = ((Cert.Soft.one - ((Q x * W x) * ((Cert.Soft.one - (R x + S x)) * W x)
            + (Cert.Soft.one - Q x * W x) * (Q x * W x)
            + (Cert.Soft.one - (Cert.Soft.one - (R x + S x)) * W x) * (Q x * W x))) * W x) * v7 x := rfl

/-- The first result of a block at pixel (i, j) of area n: the eroded weight times the edge map `v7`.
    `a … e` are the five vectors the weight vector `k0_pay13 a b c d e` is computed from. -/
theorem edges_apply (v7 a b c d e : FVec Ideal S256x16x16 .f32) (n : Fin 256) (i j : Fin 16) :
    k0_pay19 (F := Ideal) v7 (k0_pay13 a b c d e) (k0_pay16 a b c d e) (k0_pay17 a b c d e) (k0_pay18 a b c d e) (ix3 n i j)
    = Cert.Soft.edges (fun i j => k0_pay13 (F := Ideal) a b c d e (ix3 n i j)) (fun i j => v7 (ix3 n i j)) i j := by
  rw [pay19_read, pay16_read, pay17_read, pay18_read, pay14_read, pay15_read]
  rfl

/-! ## The second result: three totals of a tile -/

/-- A sum along the rows of a tile, then the sum of the row totals, both from the zero word, is the total of the tile. -/
private theorem total_read (X : FVec Ideal S256x16x16 .f32) (h2 : S256x16x16.Reduces [2] S256x16)
    (h1 : S256x16.Reduces [1] S256) (hφ : FKind.Formats .f32)
    (hacc : (0x00000000#32 : BitVec 32) = 0x00000000#32) (n : Fin 256) :
    multiReduction .add [1] S256 (multiReduction .add [2] S256x16 X 0x00000000#32 h2 hφ hacc) 0x00000000#32 h1 hφ hacc (ix1 n)
      = Cert.Soft.total (fun i j => X (ix3 n i j)) := by
  refine (Ideal.multiReduction_add_single _ _ h1 hφ hacc (ix1 n)).trans ?_
  unfold Cert.Soft.total
  refine Finset.sum_congr rfl (fun i _ => ?_)
  refine (Ideal.multiReduction_add_single X _ h2 hφ hacc _).trans ?_
  refine Finset.sum_congr rfl (fun j _ => congrArg X ?_)
  funext c
  match c with
  | ⟨0, _⟩ => exact Fin.ext rfl
  | ⟨1, _⟩ => exact Fin.ext rfl
  | ⟨2, _⟩ => exact Fin.ext rfl

/-- A value per area, reshaped to one pixel per area and spread over the tile, reads at every pixel the area's value. -/
private theorem spread_read (m : FVec Ideal S256 .f32) (hsc : S256.ShapeCasts S256x1x1)
    (hb : S256x1x1.Broadcasts S256x16x16) (n : Fin 256) (i j : Fin 16) :
    broadcastTo S256x16x16 (shapeCast S256x1x1 m hsc) hb (ix3 n i j) = m (ix1 n) := by
  refine (broadcastTo_apply _ hb (ix3 n i j) (ix3 n (0 : Fin 1) (0 : Fin 1)) (fun a => match a with
    | ⟨0, _⟩ => by show n.val = if (256 : Nat) = 1 then 0 else n.val; rw [if_neg (by decide)]
    | ⟨1, _⟩ => by show 0 = if (1 : Nat) = 1 then 0 else i.val; rw [if_pos rfl]
    | ⟨2, _⟩ => by show 0 = if (1 : Nat) = 1 then 0 else j.val; rw [if_pos rfl])).trans ?_
  exact shapeCast_apply m hsc _ (ix1 n) (by
    rw [Shape.rowMajor_val_one, Shape.rowMajor_val_three]
    show n.val = (n.val * 1 + 0) * 1 + 0
    omega)

/-- The second result from the three totals of a tile: the same combination as the specification's, with the table whose
    mean is taken left open. -/
private def statCore (M I P : Fin 16 → Fin 16 → EReal) : EReal :=
  (Ideal.div (Cert.Soft.total fun i j => ((M i j * I i j - Ideal.div (Cert.Soft.total fun i j => M i j * I i j) (Cert.Soft.total M + Cert.Soft.eps)) * M i j)
                              * ((M i j * I i j - Ideal.div (Cert.Soft.total fun i j => M i j * I i j) (Cert.Soft.total M + Cert.Soft.eps)) * M i j))
             (Cert.Soft.total M + Cert.Soft.eps)
    * Ideal.div (Cert.Soft.total P) Cert.Soft.c256)
  * Cert.Soft.c1000

/-- The last payload at an area, for any weight vector `W`: the three totals combined. -/
private theorem pay20_read (v1 v7 W Q R S : FVec Ideal S256x16x16 .f32) (n : Fin 256) :
    k0_pay20 (F := Ideal) v1 v7 W Q R S (ix1 n)
      = statCore (fun i j => W (ix3 n i j)) (fun i j => v1 (ix3 n i j))
          (fun i j => k0_pay19 (F := Ideal) v7 W Q R S (ix3 n i j)) := by
  unfold k0_pay20 statCore
  simp only [mulf_apply, divf_apply, addf_apply, broadcast_apply]
  rw [total_read, total_read, total_read]
  simp only [mulf_apply, subf_apply, divf_apply, addf_apply, broadcast_apply, spread_read]
  rw [total_read, total_read]
  simp only [mulf_apply]
  rfl

/-- The second result of a block at area n, from the weight vector, the image `v1` and the edge map `v7`. -/
theorem stat_apply (v1 v7 a b c d e : FVec Ideal S256x16x16 .f32) (n : Fin 256) :
    k0_pay20 (F := Ideal) v1 v7 (k0_pay13 a b c d e) (k0_pay16 a b c d e) (k0_pay17 a b c d e) (k0_pay18 a b c d e) (ix1 n)
    = Cert.Soft.stat (fun i j => k0_pay13 (F := Ideal) a b c d e (ix3 n i j)) (fun i j => v1 (ix3 n i j)) (fun i j => v7 (ix3 n i j)) := by
  refine (pay20_read v1 v7 _ _ _ _ n).trans ?_
  have hE : (fun i j => k0_pay19 (F := Ideal) v7 (k0_pay13 a b c d e) (k0_pay16 a b c d e) (k0_pay17 a b c d e) (k0_pay18 a b c d e) (ix3 n i j))
      = Cert.Soft.edges (fun i j => k0_pay13 (F := Ideal) a b c d e (ix3 n i j)) (fun i j => v7 (ix3 n i j)) :=
    funext fun i => funext fun j => edges_apply v7 a b c d e n i j
  rw [hE]
  rfl

end Cert.KernelIdeal.Body

end
-- ==== Proof.KerHost.lean ====
/-
  The host side of the idealized kernel's program.

  Before the kernel runs, the four arguments are flattened: the two leading axes (2 × 8192
  areas) become one axis of 16384 areas, area (b, a) getting the number 8192·b + a, and the
  image loses its trailing axis of length one; the mask is moreover transposed so that the
  channel axis comes second. A reshape keeps every entry's row-major position, and the
  transpose moves coordinates, so each flat array read at an index is the argument read at
  the matching index.

  The kernel's grid has 64 points; point t handles the 256 areas 256·t … 256·t + 255 of every
  array, whole in the other axes. After the kernel, the two flat results are reshaped back to
  2 × 8192 areas (the first one gaining a trailing axis of length one).
-/
import proofs.«139546_j7627861917769_2_alg».proof.Proof.Gen.KernelIdeal.Frame
import Idealize.ShloMosaic.Lib.StableHlo.Run
import Idealize.ShloMosaic.Lib.ValueIdx
import Idealize.ShloMosaic.Lib.Pipeline.Value

set_option maxRecDepth 16384

noncomputable section

namespace Cert.KernelIdeal.Host

open Idealize.ShloMosaic Idealize.ShloMosaic.TcCoe Idealize.SL.Sem Idealize.ShloMosaic.StableHlo
open Idealize.ShloMosaic.ValueIdx Cert.KernelIdeal Cert.KernelIdeal.Gen
open Idealize.ShloMosaic.Pipeline (Dat Cfg Window)

variable (m : (ℓ : Loc nD τ sig) → Buf (Elt Ideal) ℓ)

/-! ## Numbering the areas -/

/-- The leading coordinate b of area number N = 8192·b + a. -/
def areaB (N : Fin 16384) : Fin 2 := ⟨N.val / 8192, by have := N.isLt; omega⟩
/-- The second coordinate a of area number N = 8192·b + a. -/
def areaA (N : Fin 16384) : Fin 8192 := ⟨N.val % 8192, by have := N.isLt; omega⟩
/-- The number 8192·b + a of area (b, a). -/
def areaNo (b : Fin 2) (a : Fin 8192) : Fin 16384 := ⟨b.val * 8192 + a.val, by have := b.isLt; have := a.isLt; omega⟩

theorem areaB_areaNo (b : Fin 2) (a : Fin 8192) : areaB (areaNo b a) = b := by
  apply Fin.ext; show (b.val * 8192 + a.val) / 8192 = b.val; have := a.isLt; omega
theorem areaA_areaNo (b : Fin 2) (a : Fin 8192) : areaA (areaNo b a) = a := by
  apply Fin.ext; show (b.val * 8192 + a.val) % 8192 = a.val; have := a.isLt; omega

/-! ## The arrays the kernel finds -/

theorem img_eq (c : Dev nD) : (V m c main_v0 : S16384x16x16.Idx → EReal)
    = shapeCast S16384x16x16 (m ((c : Thread nD τ).loc main_arg0)) shapeCasts_S2x8192x16x16x1_S16384x16x16 := by
  show StableHlo.after hostOps0 (fun b => m (c, b)) (Proc.devRef .tc main_v0) = _
  after_results
  rfl

theorem mask_eq (c : Dev nD) : (V m c main_v2 : S16384x4x16x16.Idx → EReal)
    = transpose S16384x4x16x16 [0, 3, 1, 2]
        (shapeCast S16384x16x16x4 (m ((c : Thread nD τ).loc main_arg1)) shapeCasts_S2x8192x16x16x4_S16384x16x16x4)
        transposes_S16384x16x16x4_S16384x4x16x16_0_3_1_2 := by
  show StableHlo.after hostOps0 (fun b => m (c, b)) (Proc.devRef .tc main_v2) = _
  after_results
  rfl

theorem mid_eq (c : Dev nD) : (V m c main_v3 : S16384x4.Idx → EReal)
    = shapeCast S16384x4 (m ((c : Thread nD τ).loc main_arg2)) shapeCasts_S2x8192x4_S16384x4 := by
  show StableHlo.after hostOps0 (fun b => m (c, b)) (Proc.devRef .tc main_v3) = _
  after_results
  rfl

theorem edge_eq (c : Dev nD) : (V m c main_v4 : S16384x16x16.Idx → EReal)
    = shapeCast S16384x16x16 (m ((c : Thread nD τ).loc main_arg3)) shapeCasts_S2x8192x16x16_S16384x16x16 := by
  show StableHlo.after hostOps0 (fun b => m (c, b)) (Proc.devRef .tc main_v4) = _
  after_results
  rfl

/-- The flat image at pixel (i, j) of area number N is the image argument at area (b, a). -/
theorem img_apply (c : Dev nD) (N : Fin 16384) (i j : Fin 16) :
    (V m c main_v0 : S16384x16x16.Idx → EReal) (ix3 N i j)
      = m ((c : Thread nD τ).loc main_arg0) (ix5 (areaB N) (areaA N) i j (0 : Fin 1)) := by
  rw [img_eq]
  refine shapeCast_apply _ _ (ix3 N i j) (ix5 (areaB N) (areaA N) i j (0 : Fin 1)) ?_
  rewrite [Shape.rowMajor_val_five, Shape.rowMajor_val_three]
  have hN := N.isLt
  show ((((N.val / 8192) * 8192 + N.val % 8192) * 16 + i.val) * 16 + j.val) * 1 + 0 = (N.val * 16 + i.val) * 16 + j.val
  omega

/-- The flat, transposed mask at channel ch, pixel (i, j) of area number N is the mask argument at area (b, a). -/
theorem mask_apply (c : Dev nD) (N : Fin 16384) (ch : Fin 4) (i j : Fin 16) :
    (V m c main_v2 : S16384x4x16x16.Idx → EReal) (ix4 N ch i j)
      = m ((c : Thread nD τ).loc main_arg1) (ix5 (areaB N) (areaA N) i j ch) := by
  rw [mask_eq]
  refine (transpose_apply _ _ _ (ix4 N ch i j) (ix4 N i j ch) ?_).trans ?_
  · intro b
    match b with
    | ⟨0, _⟩ => rfl
    | ⟨1, _⟩ => rfl
    | ⟨2, _⟩ => rfl
    | ⟨3, _⟩ => rfl
  · refine shapeCast_apply _ _ (ix4 N i j ch) (ix5 (areaB N) (areaA N) i j ch) ?_
    rewrite [Shape.rowMajor_val_five, Shape.rowMajor_val_four]
    have hN := N.isLt
    show ((((N.val / 8192) * 8192 + N.val % 8192) * 16 + i.val) * 16 + j.val) * 4 + ch.val = ((N.val * 16 + i.val) * 16 + j.val) * 4 + ch.val
    omega

/-- The flat identifiers at channel ch of area number N. -/
theorem mid_apply (c : Dev nD) (N : Fin 16384) (ch : Fin 4) :
    (V m c main_v3 : S16384x4.Idx → EReal) (ix2 N ch)
      = m ((c : Thread nD τ).loc main_arg2) (ix3 (areaB N) (areaA N) ch) := by
  rw [mid_eq]
  refine shapeCast_apply _ _ (ix2 N ch) (ix3 (areaB N) (areaA N) ch) ?_
  rewrite [Shape.rowMajor_val_three, Shape.rowMajor_val_two]
  have hN := N.isLt
  show ((N.val / 8192) * 8192 + N.val % 8192) * 4 + ch.val = N.val * 4 + ch.val
  omega

/-- The flat edge map at pixel (i, j) of area number N. -/
theorem edge_apply (c : Dev nD) (N : Fin 16384) (i j : Fin 16) :
    (V m c main_v4 : S16384x16x16.Idx → EReal) (ix3 N i j)
      = m ((c : Thread nD τ).loc main_arg3) (ix4 (areaB N) (areaA N) i j) := by
  rw [edge_eq]
  refine shapeCast_apply _ _ (ix3 N i j) (ix4 (areaB N) (areaA N) i j) ?_
  rewrite [Shape.rowMajor_val_four, Shape.rowMajor_val_three]
  have hN := N.isLt
  show (((N.val / 8192) * 8192 + N.val % 8192) * 16 + i.val) * 16 + j.val = (N.val * 16 + i.val) * 16 + j.val
  omega

/-! ## The grid's blocks -/

theorem point_lt (t : Fin cfg0.N) : t.val < 64 := lt_of_lt_of_eq t.isLt N_0

/-- The number of area n of point t's block. -/
def blockArea (t : Fin cfg0.N) (n : Fin 256) : Fin 16384 :=
  ⟨t.val * 256 + n.val, by have := point_lt t; have := n.isLt; omega⟩

/-- Every window's block index is the point's number on the area axis and zero on the others. -/
theorem index_facts : ∀ t : Fin cfg0.N,
    (win0_0.index t (0 : Fin 3) = t.val ∧ win0_0.index t (1 : Fin 3) = 0 ∧ win0_0.index t (2 : Fin 3) = 0)
    ∧ (win0_1.index t (0 : Fin 4) = t.val ∧ win0_1.index t (1 : Fin 4) = 0 ∧ win0_1.index t (2 : Fin 4) = 0 ∧ win0_1.index t (3 : Fin 4) = 0)
    ∧ (win0_2.index t (0 : Fin 2) = t.val ∧ win0_2.index t (1 : Fin 2) = 0)
    ∧ (win0_3.index t (0 : Fin 3) = t.val ∧ win0_3.index t (1 : Fin 3) = 0 ∧ win0_3.index t (2 : Fin 3) = 0)
    ∧ (win0_4.index t (0 : Fin 3) = t.val ∧ win0_4.index t (1 : Fin 3) = 0 ∧ win0_4.index t (2 : Fin 3) = 0)
    ∧ (win0_5.index t (0 : Fin 1) = t.val) :=
  (by decide +kernel : ∀ t : Fin grid0.N, _)

theorem emb0 (t : Fin cfg0.N) (n : Fin 256) (i j : Fin 16) :
    ((cfg0.win 0).blk t).view.emb (ix3 n i j) = ix3 (blockArea t n) i j := by
  obtain ⟨⟨e0, e1, e2⟩, -⟩ := index_facts t
  funext a; apply Fin.ext
  match a with
  | ⟨0, _⟩ => show win0_0.index t (0 : Fin 3) * 256 + 1 * n.val = t.val * 256 + n.val; omega
  | ⟨1, _⟩ => show win0_0.index t (1 : Fin 3) * 16 + 1 * i.val = i.val; omega
  | ⟨2, _⟩ => show win0_0.index t (2 : Fin 3) * 16 + 1 * j.val = j.val; omega

theorem emb1 (t : Fin cfg0.N) (n : Fin 256) (ch : Fin 4) (i j : Fin 16) :
    ((cfg0.win 1).blk t).view.emb (ix4 n ch i j) = ix4 (blockArea t n) ch i j := by
  obtain ⟨-, ⟨e0, e1, e2, e3⟩, -⟩ := index_facts t
  funext a; apply Fin.ext
  match a with
  | ⟨0, _⟩ => show win0_1.index t (0 : Fin 4) * 256 + 1 * n.val = t.val * 256 + n.val; omega
  | ⟨1, _⟩ => show win0_1.index t (1 : Fin 4) * 4 + 1 * ch.val = ch.val; omega
  | ⟨2, _⟩ => show win0_1.index t (2 : Fin 4) * 16 + 1 * i.val = i.val; omega
  | ⟨3, _⟩ => show win0_1.index t (3 : Fin 4) * 16 + 1 * j.val = j.val; omega

theorem emb2 (t : Fin cfg0.N) (n : Fin 256) (ch : Fin 4) :
    ((cfg0.win 2).blk t).view.emb (ix2 n ch) = ix2 (blockArea t n) ch := by
  obtain ⟨-, -, ⟨e0, e1⟩, -⟩ := index_facts t
  funext a; apply Fin.ext
  match a with
  | ⟨0, _⟩ => show win0_2.index t (0 : Fin 2) * 256 + 1 * n.val = t.val * 256 + n.val; omega
  | ⟨1, _⟩ => show win0_2.index t (1 : Fin 2) * 4 + 1 * ch.val = ch.val; omega

theorem emb3 (t : Fin cfg0.N) (n : Fin 256) (i j : Fin 16) :
    ((cfg0.win 3).blk t).view.emb (ix3 n i j) = ix3 (blockArea t n) i j := by
  obtain ⟨-, -, -, ⟨e0, e1, e2⟩, -⟩ := index_facts t
  funext a; apply Fin.ext
  match a with
  | ⟨0, _⟩ => show win0_3.index t (0 : Fin 3) * 256 + 1 * n.val = t.val * 256 + n.val; omega
  | ⟨1, _⟩ => show win0_3.index t (1 : Fin 3) * 16 + 1 * i.val = i.val; omega
  | ⟨2, _⟩ => show win0_3.index t (2 : Fin 3) * 16 + 1 * j.val = j.val; omega

theorem emb4 (t : Fin cfg0.N) (n : Fin 256) (i j : Fin 16) :
    ((cfg0.win 4).blk t).view.emb (ix3 n i j) = ix3 (blockArea t n) i j := by
  obtain ⟨-, -, -, -, ⟨e0, e1, e2⟩, -⟩ := index_facts t
  funext a; apply Fin.ext
  match a with
  | ⟨0, _⟩ => show win0_4.index t (0 : Fin 3) * 256 + 1 * n.val = t.val * 256 + n.val; omega
  | ⟨1, _⟩ => show win0_4.index t (1 : Fin 3) * 16 + 1 * i.val = i.val; omega
  | ⟨2, _⟩ => show win0_4.index t (2 : Fin 3) * 16 + 1 * j.val = j.val; omega

theorem emb5 (t : Fin cfg0.N) (n : Fin 256) :
    ((cfg0.win 5).blk t).view.emb (ix1 n) = ix1 (blockArea t n) := by
  obtain ⟨-, -, -, -, -, e0⟩ := index_facts t
  funext a; apply Fin.ext
  match a with
  | ⟨0, _⟩ => show win0_5.index t (0 : Fin 1) * 256 + 1 * n.val = t.val * 256 + n.val; omega

/-- Point t's block of the image, the mask, the identifiers and the edge map, read at an index. -/
theorem iblk0_apply (c : Dev nD) (t : Fin cfg0.N) (n : Fin 256) (i j : Fin 16) :
    iblk m c 0 t (ix3 n i j) = (V m c main_v0 : S16384x16x16.Idx → EReal) (ix3 (blockArea t n) i j) := by
  show (V m c main_v0 : S16384x16x16.Idx → EReal) (((cfg0.win 0).blk t).view.emb (ix3 n i j)) = _
  rw [emb0]
theorem iblk1_apply (c : Dev nD) (t : Fin cfg0.N) (n : Fin 256) (ch : Fin 4) (i j : Fin 16) :
    iblk m c 1 t (ix4 n ch i j) = (V m c main_v2 : S16384x4x16x16.Idx → EReal) (ix4 (blockArea t n) ch i j) := by
  show (V m c main_v2 : S16384x4x16x16.Idx → EReal) (((cfg0.win 1).blk t).view.emb (ix4 n ch i j)) = _
  rw [emb1]
theorem iblk2_apply (c : Dev nD) (t : Fin cfg0.N) (n : Fin 256) (ch : Fin 4) :
    iblk m c 2 t (ix2 n ch) = (V m c main_v3 : S16384x4.Idx → EReal) (ix2 (blockArea t n) ch) := by
  show (V m c main_v3 : S16384x4.Idx → EReal) (((cfg0.win 2).blk t).view.emb (ix2 n ch)) = _
  rw [emb2]
theorem iblk3_apply (c : Dev nD) (t : Fin cfg0.N) (n : Fin 256) (i j : Fin 16) :
    iblk m c 3 t (ix3 n i j) = (V m c main_v4 : S16384x16x16.Idx → EReal) (ix3 (blockArea t n) i j) := by
  show (V m c main_v4 : S16384x16x16.Idx → EReal) (((cfg0.win 3).blk t).view.emb (ix3 n i j)) = _
  rw [emb3]

/-! ## The two reshapes after the kernel -/

/-- The first result is the first flat output array, reshaped. -/
theorem tail6_eq (c : Dev nD) :
    (Pipeline.afterTail₀ cfgs (dats m) 0 (V0 m) [hostOps1] c main_v6 : S2x8192x16x16x1.Idx → EReal)
      = shapeCast S2x8192x16x16x1 ((dats m 0 c).arrAt 4 cfg0.N : S16384x16x16.Idx → EReal) shapeCasts_S16384x16x16_S2x8192x16x16x1 := by
  unfold Pipeline.afterTail₀
  show StableHlo.after hostOps1 _ (Proc.devRef .tc main_v6) = _
  after_results
  rw [show Pipeline.withArrays (cfgs 0).spec c (V0 m c) (fun w => (dats m 0 c).arrAt w (cfgs 0).N) (Proc.devRef .tc main_v5_0)
        = (dats m 0 c).arrAt 4 cfg0.N from Pipeline.withArrays_arr spec0 launch0.win.arr_inj c _ _ 4]
  rfl

/-- The second result is the second flat output array, reshaped. -/
theorem tail7_eq (c : Dev nD) :
    (Pipeline.afterTail₀ cfgs (dats m) 0 (V0 m) [hostOps1] c main_v7 : S2x8192.Idx → EReal)
      = shapeCast S2x8192 ((dats m 0 c).arrAt 5 cfg0.N : S16384.Idx → EReal) shapeCasts_S16384_S2x8192 := by
  unfold Pipeline.afterTail₀
  show StableHlo.after hostOps1 _ (Proc.devRef .tc main_v7) = _
  after_results
  rw [show Pipeline.withArrays (cfgs 0).spec c (V0 m c) (fun w => (dats m 0 c).arrAt w (cfgs 0).N) (Proc.devRef .tc main_v5_1)
        = (dats m 0 c).arrAt 5 cfg0.N from Pipeline.withArrays_arr spec0 launch0.win.arr_inj c _ _ 5]
  rfl

/-- A reshape back to 2 × 8192 areas with a trailing unit axis, read at an index. -/
theorem unflat3_apply (X : S16384x16x16.Idx → EReal) (b : Fin 2) (a : Fin 8192) (i j : Fin 16) (u : Fin 1) :
    shapeCast S2x8192x16x16x1 X shapeCasts_S16384x16x16_S2x8192x16x16x1 (ix5 b a i j u) = X (ix3 (areaNo b a) i j) := by
  refine shapeCast_apply _ _ (ix5 b a i j u) (ix3 (areaNo b a) i j) ?_
  rewrite [Shape.rowMajor_val_five, Shape.rowMajor_val_three]
  have hu := u.isLt
  show ((b.val * 8192 + a.val) * 16 + i.val) * 16 + j.val = (((b.val * 8192 + a.val) * 16 + i.val) * 16 + j.val) * 1 + u.val
  omega

/-- A reshape of one number per area back to 2 × 8192 areas, read at an index. -/
theorem unflat1_apply (X : S16384.Idx → EReal) (b : Fin 2) (a : Fin 8192) :
    shapeCast S2x8192 X shapeCasts_S16384_S2x8192 (ix2 b a) = X (ix1 (areaNo b a)) := by
  refine shapeCast_apply _ _ (ix2 b a) (ix1 (areaNo b a)) ?_
  rewrite [Shape.rowMajor_val_two, Shape.rowMajor_val_one]
  show b.val * 8192 + a.val = b.val * 8192 + a.val
  rfl

end Cert.KernelIdeal.Host

end
-- ==== Proof.KerArrays.lean ====
/-
  The idealized kernel's run, read as values.

  At grid point t the body turns the blocks of the four flat arrays into a block of each flat
  output: pixel by pixel the first output is the eroded weight times the edge map, and area by
  area the second is the area's number (`Cert.Soft.edges`, `Cert.Soft.stat`), both computed from
  the block's own areas only. Area n of point t's block is area number 256·t + n, so what point
  t writes back is block t of one function of the flat arrays. The 64 blocks cover the 16384
  areas (area number N lies in block N / 256), hence each flat output array ends as that function.
  Undoing the flattening on both sides gives the two results as the functions `Cert.Soft.result0`
  and `Cert.Soft.result1` of the four arguments.
-/
import proofs.«139546_j7627861917769_2_alg».proof.Proof.Gen.KernelIdeal.Frame
import proofs.«139546_j7627861917769_2_alg».proof.Proof.Spec
import proofs.«139546_j7627861917769_2_alg».proof.Proof.Result
import proofs.«139546_j7627861917769_2_alg».proof.Proof.KerWeight
import proofs.«139546_j7627861917769_2_alg».proof.Proof.KerErode
import proofs.«139546_j7627861917769_2_alg».proof.Proof.KerHost
import Idealize.ShloMosaic.Lib.StableHlo.Run
import Idealize.ShloMosaic.Lib.ValueIdx
import Idealize.ShloMosaic.Lib.Pipeline.Value

set_option maxRecDepth 16384

noncomputable section

namespace Cert.KernelIdeal.Arrays

open Idealize.ShloMosaic Idealize.ShloMosaic.TcCoe Idealize.SL.Sem Idealize.ShloMosaic.StableHlo
open Idealize.ShloMosaic.ValueIdx Cert.KernelIdeal Cert.KernelIdeal.Gen Cert.KernelIdeal.Host
open Idealize.ShloMosaic.Pipeline (Dat Cfg Window)

variable (m : (ℓ : Loc nD τ sig) → Buf (Elt Ideal) ℓ) (ρ : Dev nD → PrngReg)

theorem zero1 : (![0] : Fin 1 → Nat) = fun _ => 0 := funext fun a => by fin_cases a <;> rfl
theorem zero2 : (![0, 0] : Fin 2 → Nat) = fun _ => 0 := funext fun a => by fin_cases a <;> rfl
theorem zero3 : (![0, 0, 0] : Fin 3 → Nat) = fun _ => 0 := funext fun a => by fin_cases a <;> rfl
theorem zero4 : (![0, 0, 0, 0] : Fin 4 → Nat) = fun _ => 0 := funext fun a => by fin_cases a <;> rfl

/-! ## What the body leaves in a block of each output -/

theorem pay1_apply (x : Vec Ideal S256x16x16 .f32) : k0_pay1 (F := Ideal) x = x := by
  unfold k0_pay1; exact shapeCast_self _ _
theorem pay2_apply (x : Vec Ideal S256x16x16 .f32) : k0_pay2 (F := Ideal) x = x := by
  unfold k0_pay2; exact shapeCast_self _ _

/-- The first output's block at pixel (i, j) of its area n. -/
theorem out0_4_apply (x0 : Vec Ideal S256x16x16 .f32) (x1 : Vec Ideal S256x4x16x16 .f32) (x2 : Vec Ideal S256x4 .f32)
    (x3 : Vec Ideal S256x16x16 .f32) (n : Fin 256) (i j : Fin 16) :
    out0_4 (F := Ideal) x0 x1 x2 x3 (ix3 n i j)
      = Cert.Soft.edges (Body.blockWeight x1 x2 n) (fun i j => x3 (ix3 n i j)) i j := by
  unfold out0_4
  rw [View.canon_unit_zero zero3]
  simp only [View.ld_unit_zero (S := S256x16x16) zero3, View.ld_unit_zero (S := S256x4x16x16) zero4,
    View.ld_unit_zero (S := S256x4) zero2]
  refine (Body.edges_apply _ _ _ _ _ _ n i j).trans ?_
  simp only [Body.weight_apply, pay2_apply]

/-- The second output's block at its area n. -/
theorem out0_5_apply (x0 : Vec Ideal S256x16x16 .f32) (x1 : Vec Ideal S256x4x16x16 .f32) (x2 : Vec Ideal S256x4 .f32)
    (x3 : Vec Ideal S256x16x16 .f32) (n : Fin 256) :
    out0_5 (F := Ideal) x0 x1 x2 x3 (ix1 n)
      = Cert.Soft.stat (Body.blockWeight x1 x2 n) (fun i j => x0 (ix3 n i j)) (fun i j => x3 (ix3 n i j)) := by
  unfold out0_5
  rw [View.canon_unit_zero zero1]
  simp only [View.ld_unit_zero (S := S256x16x16) zero3, View.ld_unit_zero (S := S256x4x16x16) zero4,
    View.ld_unit_zero (S := S256x4) zero2]
  refine (Body.stat_apply _ _ _ _ _ _ _ n).trans ?_
  simp only [Body.weight_apply, pay1_apply, pay2_apply]

/-! ## The flat output arrays as functions of the flat input arrays -/

/-- The weights of area number N, from the flat mask and the flat identifiers. -/
def flatWeight (c : Dev nD) (N : Fin 16384) : Fin 16 → Fin 16 → EReal :=
  fun i j => Cert.Soft.weight (fun ch => (V m c main_v2 : S16384x4x16x16.Idx → EReal) (ix4 N ch i j))
    (fun ch => (V m c main_v3 : S16384x4.Idx → EReal) (ix2 N ch))

/-- The first flat output, index by index. -/
def flatEdges (c : Dev nD) : S16384x16x16.Idx → EReal := fun idx =>
  Cert.Soft.edges (flatWeight m c ⟨(idx 0).val, (idx 0).isLt⟩)
    (fun i j => (V m c main_v4 : S16384x16x16.Idx → EReal) (ix3 (⟨(idx 0).val, (idx 0).isLt⟩ : Fin 16384) i j))
    ⟨(idx 1).val, (idx 1).isLt⟩ ⟨(idx 2).val, (idx 2).isLt⟩

/-- The second flat output, index by index. -/
def flatStat (c : Dev nD) : S16384.Idx → EReal := fun idx =>
  Cert.Soft.stat (flatWeight m c ⟨(idx 0).val, (idx 0).isLt⟩)
    (fun i j => (V m c main_v0 : S16384x16x16.Idx → EReal) (ix3 (⟨(idx 0).val, (idx 0).isLt⟩ : Fin 16384) i j))
    (fun i j => (V m c main_v4 : S16384x16x16.Idx → EReal) (ix3 (⟨(idx 0).val, (idx 0).isLt⟩ : Fin 16384) i j))

theorem flatEdges_apply (c : Dev nD) (N : Fin 16384) (i j : Fin 16) :
    flatEdges m c (ix3 N i j) = Cert.Soft.edges (flatWeight m c N)
      (fun i j => (V m c main_v4 : S16384x16x16.Idx → EReal) (ix3 N i j)) i j := rfl

theorem flatStat_apply (c : Dev nD) (N : Fin 16384) :
    flatStat m c (ix1 N) = Cert.Soft.stat (flatWeight m c N)
      (fun i j => (V m c main_v0 : S16384x16x16.Idx → EReal) (ix3 N i j))
      (fun i j => (V m c main_v4 : S16384x16x16.Idx → EReal) (ix3 N i j)) := rfl

/-- The weights of area n of point t's block are the weights of area number 256·t + n. -/
theorem blockWeight_eq (c : Dev nD) (t : Fin cfg0.N) (n : Fin 256) :
    Body.blockWeight (iblk m c 1 t) (iblk m c 2 t) n = flatWeight m c (blockArea t n) := by
  funext i j
  unfold Body.blockWeight flatWeight
  simp only [iblk1_apply, iblk2_apply]

/-- What point t writes back to the first output is block t of `flatEdges`. -/
theorem flushed4_eq (c : Dev nD) (t : Fin cfg0.N) :
    (dats m 0 c).flushed 4 t = ((cfg0.win 4).blk t).view.read (Elt Ideal) (flatEdges m c) := by
  show (cfg0.win 4).cut (grid0.coords t) ((dats m 0 c).after 4 t) = _
  rw [after0_4]
  funext (y : S256x16x16.Idx)
  obtain ⟨n, i, j, rfl⟩ : ∃ (n : Fin 256) (i j : Fin 16), y = ix3 n i j := ⟨y 0, y 1, y 2, eq_ix3 y⟩
  show out0_4 (F := Ideal) (iblk m c 0 t) (iblk m c 1 t) (iblk m c 2 t) (iblk m c 3 t) (ix3 n i j)
      = flatEdges m c (((cfg0.win 4).blk t).view.emb (ix3 n i j))
  rw [emb4, flatEdges_apply]
  refine (out0_4_apply _ _ _ _ n i j).trans ?_
  rw [blockWeight_eq]
  simp only [iblk3_apply]

/-- What point t writes back to the second output is block t of `flatStat`. -/
theorem flushed5_eq (c : Dev nD) (t : Fin cfg0.N) :
    (dats m 0 c).flushed 5 t = ((cfg0.win 5).blk t).view.read (Elt Ideal) (flatStat m c) := by
  show (cfg0.win 5).cut (grid0.coords t) ((dats m 0 c).after 5 t) = _
  rw [after0_5]
  funext (y : S256.Idx)
  obtain ⟨n, rfl⟩ : ∃ (n : Fin 256), y = ix1 n := ⟨y 0, eq_ix1 y⟩
  show out0_5 (F := Ideal) (iblk m c 0 t) (iblk m c 1 t) (iblk m c 2 t) (iblk m c 3 t) (ix1 n)
      = flatStat m c (((cfg0.win 5).blk t).view.emb (ix1 n))
  rw [emb5, flatStat_apply]
  refine (out0_5_apply _ _ _ _ n).trans ?_
  rw [blockWeight_eq]
  simp only [iblk0_apply, iblk3_apply]

/-! ## The 64 blocks cover the arrays -/

theorem mem_blk4 (t : Fin cfg0.N) (idx : S16384x16x16.Idx) :
    idx ∈ ((cfg0.win 4).blk t).view.set ↔ ∀ a : Fin 3, win0_4.index t a * S256x16x16.size a ≤ (idx a).val
      ∧ (idx a).val < win0_4.index t a * S256x16x16.size a + S256x16x16.size a := by
  show idx ∈ ((View.whole main_v5_0).slice (win0_4.rect t)).set ↔ _
  rw [View.set_slice_whole, Rect.mem_set_unit]
  exact Iff.rfl

theorem mem_blk5 (t : Fin cfg0.N) (idx : S16384.Idx) :
    idx ∈ ((cfg0.win 5).blk t).view.set ↔ ∀ a : Fin 1, win0_5.index t a * S256.size a ≤ (idx a).val
      ∧ (idx a).val < win0_5.index t a * S256.size a + S256.size a := by
  show idx ∈ ((View.whole main_v5_1).slice (win0_5.rect t)).set ↔ _
  rw [View.set_slice_whole, Rect.mem_set_unit]
  exact Iff.rfl

/-- Area number N lies in block N / 256. -/
theorem cover4 (idx : S16384x16x16.Idx) :
    ∃ t : Fin cfg0.N, (cfg0.win 4).flush t = true ∧ idx ∈ ((cfg0.win 4).blk t).view.set := by
  have h0 : (idx 0).val < 16384 := (idx 0).isLt
  have h1 : (idx 1).val < 16 := (idx 1).isLt
  have h2 : (idx 2).val < 16 := (idx 2).isLt
  have hq : (idx 0).val / 256 < grid0.N := lt_of_lt_of_eq (by omega : (idx 0).val / 256 < 64) N_0.symm
  refine ⟨⟨(idx 0).val / 256, hq⟩, flush0_4 _, ?_⟩
  obtain ⟨-, -, -, -, ⟨e0, e1, e2⟩, -⟩ := index_facts ⟨(idx 0).val / 256, hq⟩
  have e0' : win0_4.index ⟨(idx 0).val / 256, hq⟩ (0 : Fin 3) = (idx 0).val / 256 := e0
  rw [mem_blk4]
  intro a
  match a with
  | ⟨0, _⟩ =>
    show win0_4.index ⟨(idx 0).val / 256, hq⟩ (0 : Fin 3) * 256 ≤ (idx 0).val
      ∧ (idx 0).val < win0_4.index ⟨(idx 0).val / 256, hq⟩ (0 : Fin 3) * 256 + 256
    omega
  | ⟨1, _⟩ =>
    show win0_4.index ⟨(idx 0).val / 256, hq⟩ (1 : Fin 3) * 16 ≤ (idx 1).val
      ∧ (idx 1).val < win0_4.index ⟨(idx 0).val / 256, hq⟩ (1 : Fin 3) * 16 + 16
    omega
  | ⟨2, _⟩ =>
    show win0_4.index ⟨(idx 0).val / 256, hq⟩ (2 : Fin 3) * 16 ≤ (idx 2).val
      ∧ (idx 2).val < win0_4.index ⟨(idx 0).val / 256, hq⟩ (2 : Fin 3) * 16 + 16
    omega

theorem cover5 (idx : S16384.Idx) :
    ∃ t : Fin cfg0.N, (cfg0.win 5).flush t = true ∧ idx ∈ ((cfg0.win 5).blk t).view.set := by
  have h0 : (idx 0).val < 16384 := (idx 0).isLt
  have hq : (idx 0).val / 256 < grid0.N := lt_of_lt_of_eq (by omega : (idx 0).val / 256 < 64) N_0.symm
  refine ⟨⟨(idx 0).val / 256, hq⟩, flush0_5 _, ?_⟩
  obtain ⟨-, -, -, -, -, e0⟩ := index_facts ⟨(idx 0).val / 256, hq⟩
  have e0' : win0_5.index ⟨(idx 0).val / 256, hq⟩ (0 : Fin 1) = (idx 0).val / 256 := e0
  rw [mem_blk5]
  intro a
  match a with
  | ⟨0, _⟩ =>
    show win0_5.index ⟨(idx 0).val / 256, hq⟩ (0 : Fin 1) * 256 ≤ (idx 0).val
      ∧ (idx 0).val < win0_5.index ⟨(idx 0).val / 256, hq⟩ (0 : Fin 1) * 256 + 256
    omega

/-- The flat output arrays after the run. -/
theorem final4 (c : Dev nD) : (dats m 0 c).arrAt 4 cfg0.N = flatEdges m c :=
  (dats m 0 c).arrAt_eq_of_cover 4 (flatEdges m c) (fun t _ => flushed4_eq m c t) (cover4)

theorem final5 (c : Dev nD) : (dats m 0 c).arrAt 5 cfg0.N = flatStat m c :=
  (dats m 0 c).arrAt_eq_of_cover 5 (flatStat m c) (fun t _ => flushed5_eq m c t) (cover5)

/-! ## The results as functions of the arguments -/

/-- The weights of area number 8192·b + a are the weights of area (b, a) of the arguments. -/
theorem flatWeight_eq (c : Dev nD) (b : Fin 2) (a : Fin 8192) :
    flatWeight m c (areaNo b a)
      = Cert.Soft.areaWeight (m ((c : Thread nD τ).loc main_arg1)) (m ((c : Thread nD τ).loc main_arg2)) b a := by
  funext i j
  have h1 : (fun ch => (V m c main_v2 : S16384x4x16x16.Idx → EReal) (ix4 (areaNo b a) ch i j))
      = fun ch => m ((c : Thread nD τ).loc main_arg1) (ix5 b a i j ch) :=
    funext fun ch => by rw [mask_apply, areaB_areaNo, areaA_areaNo]
  have h2 : (fun ch => (V m c main_v3 : S16384x4.Idx → EReal) (ix2 (areaNo b a) ch))
      = fun ch => m ((c : Thread nD τ).loc main_arg2) (ix3 b a ch) :=
    funext fun ch => by rw [mid_apply, areaB_areaNo, areaA_areaNo]
  exact congrArg₂ Cert.Soft.weight h1 h2

theorem res6 (c : Dev nD) :
    (Pipeline.afterTail₀ cfgs (dats m) 0 (V0 m) [hostOps1] c main_v6 : S2x8192x16x16x1.Idx → EReal)
      = Cert.Soft.result0 (m ((c : Thread nD τ).loc main_arg1)) (m ((c : Thread nD τ).loc main_arg2))
          (m ((c : Thread nD τ).loc main_arg3)) := by
  rw [tail6_eq, final4]
  funext (idx : S2x8192x16x16x1.Idx)
  obtain ⟨b, a, i, j, u, rfl⟩ : ∃ (b : Fin 2) (a : Fin 8192) (i j : Fin 16) (u : Fin 1), idx = ix5 b a i j u :=
    ⟨idx 0, idx 1, idx 2, idx 3, idx 4, eq_ix5 idx⟩
  rw [unflat3_apply, flatEdges_apply, Cert.Soft.result0_apply, flatWeight_eq]
  have h3 : (fun i j => (V m c main_v4 : S16384x16x16.Idx → EReal) (ix3 (areaNo b a) i j))
      = fun i j => m ((c : Thread nD τ).loc main_arg3) (ix4 b a i j) :=
    funext fun i => funext fun j => by rw [edge_apply, areaB_areaNo, areaA_areaNo]
  exact congrArg (fun E => Cert.Soft.edges _ E i j) h3

theorem res7 (c : Dev nD) :
    (Pipeline.afterTail₀ cfgs (dats m) 0 (V0 m) [hostOps1] c main_v7 : S2x8192.Idx → EReal)
      = Cert.Soft.result1 (m ((c : Thread nD τ).loc main_arg0)) (m ((c : Thread nD τ).loc main_arg1))
          (m ((c : Thread nD τ).loc main_arg2)) (m ((c : Thread nD τ).loc main_arg3)) := by
  rw [tail7_eq, final5]
  funext (idx : S2x8192.Idx)
  obtain ⟨b, a, rfl⟩ : ∃ (b : Fin 2) (a : Fin 8192), idx = ix2 b a := ⟨idx 0, idx 1, eq_ix2 idx⟩
  rw [unflat1_apply, flatStat_apply, Cert.Soft.result1_apply, flatWeight_eq]
  have h0 : (fun i j => (V m c main_v0 : S16384x16x16.Idx → EReal) (ix3 (areaNo b a) i j))
      = fun i j => m ((c : Thread nD τ).loc main_arg0) (ix5 b a i j (0 : Fin 1)) :=
    funext fun i => funext fun j => by rw [img_apply, areaB_areaNo, areaA_areaNo]
  have h3 : (fun i j => (V m c main_v4 : S16384x16x16.Idx → EReal) (ix3 (areaNo b a) i j))
      = fun i j => m ((c : Thread nD τ).loc main_arg3) (ix4 b a i j) :=
    funext fun i => funext fun j => by rw [edge_apply, areaB_areaNo, areaA_areaNo]
  exact congrArg₂ (Cert.Soft.stat _) h0 h3

/-- Every weakly fair execution of the idealized kernel's program terminates with the two results at
    `result0` and `result1` of the arguments, the arguments unchanged. -/
theorem run : θ_run defs (onTc (τ := τ) (main (F := Ideal))) ⟨m, fun _ => 0, ρ⟩ fun r => ∀ c : Dev nD,
      r.2.mem ((c.tc : Thread nD τ).loc main_v6)
        = Cert.Soft.result0 (m ((c : Thread nD τ).loc main_arg1)) (m ((c : Thread nD τ).loc main_arg2)) (m ((c : Thread nD τ).loc main_arg3))
      ∧ r.2.mem ((c.tc : Thread nD τ).loc main_v7)
        = Cert.Soft.result1 (m ((c : Thread nD τ).loc main_arg0)) (m ((c : Thread nD τ).loc main_arg1)) (m ((c : Thread nD τ).loc main_arg2)) (m ((c : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c =>
    ⟨((h c).2 main_v6 (Pipeline.mem_restRefs_of main_v6 (by decide) (by decide))).trans (res6 m c),
     ((h c).2 main_v7 (Pipeline.mem_restRefs_of main_v7 (by decide) (by decide))).trans (res7 m c),
     ((h c).2 main_arg0 (Pipeline.mem_restRefs_of main_arg0 (by decide) (by decide))).trans (W_main_arg0 m (dats m) c),
     ((h c).2 main_arg1 (Pipeline.mem_restRefs_of main_arg1 (by decide) (by decide))).trans (W_main_arg1 m (dats m) c),
     ((h c).2 main_arg2 (Pipeline.mem_restRefs_of main_arg2 (by decide) (by decide))).trans (W_main_arg2 m (dats m) c),
     ((h c).2 main_arg3 (Pipeline.mem_restRefs_of main_arg3 (by decide) (by decide))).trans (W_main_arg3 m (dats m) c)⟩)
    (run_main m ρ)

end Cert.KernelIdeal.Arrays

end
-- ==== Proof.RefRun.lean ====
/-
  The reference's run, read as values.

  The reference is a straight line of 205 host operations; after them every buffer holds the
  fold of the operations' results over the launch contents. Many values are used again and
  again (each pixel's weight enters its area's erosion about thirty times), so the fold is
  never written out as one expression: the line is cut into four stretches — up to the soft
  equality of the four channels, up to the weight, up to the masked edges, and the rest — and
  each stretch is read for an ARBITRARY state of the buffers before it: what it writes is the
  named stage of what it reads, and what it does not write it keeps. Chaining the four
  stretches gives the two results as the stages `val_main_v151` and `val_main_v154` of the
  four arguments, and the arguments unchanged.
-/
import proofs.«139546_j7627861917769_2_alg».proof.Proof.RefRead
import Idealize.ShloMosaic.Lib.StableHlo.Run

noncomputable section

namespace Cert.ReferenceIdeal.Line

open Cert.ReferenceIdeal Cert.ReferenceIdeal.Gen Idealize.ShloMosaic Idealize.ShloMosaic.TcCoe Idealize.SL.Sem Idealize.ShloMosaic.StableHlo
open Cert.ReferenceIdeal.ReadP

variable {F : FTy → Type} [FloatOps F]

/-- @main's 205 operations, in order. -/
abbrev ops : List (HloOp τ sig (Elt F)) :=
  [
    unary main_arg2 main_v0 (broadcastInDim S2x8192x1x1x4 ![0, 1, 4] bcast_S2x8192x4_S2x8192x1x1x4_0_1_4 : (⟨S2x8192x4, .f32⟩ : BufTy).Contents (Elt F) → (⟨S2x8192x1x1x4, .f32⟩ : BufTy).Contents (Elt F)),
    nullary main_cst (constant S_ .f32 0x40C90FDB#32),
    unary main_cst main_v1 (broadcastInDim S2x8192x16x16x4 ![] bcast_S_S2x8192x16x16x4 : (⟨S_, .f32⟩ : BufTy).Contents (Elt F) → (⟨S2x8192x16x16x4, .f32⟩ : BufTy).Contents (Elt F)),
    binary main_v1 main_arg1 main_v2 (mulf : (⟨S2x8192x16x16x4, .f32⟩ : BufTy).Contents (Elt F) → (⟨S2x8192x16x16x4, .f32⟩ : BufTy).Contents (Elt F) → (⟨S2x8192x16x16x4, .f32⟩ : BufTy).Contents (Elt F)),
    unary main_v2 main_v3 (Host.sin : (⟨S2x8192x16x16x4, .f32⟩ : BufTy).Contents (Elt F) → (⟨S2x8192x16x16x4, .f32⟩ : BufTy).Contents (Elt F)),
    nullary main_cst_0 (constant S_ .f32 0x40C90FDB#32),
    unary main_cst_0 main_v4 (broadcastInDim S2x8192x16x16x4 ![] bcast_S_S2x8192x16x16x4 : (⟨S_, .f32⟩ : BufTy).Contents (Elt F) → (⟨S2x8192x16x16x4, .f32⟩ : BufTy).Contents (Elt F)),
    binary main_v3 main_v4 main_v5 (Host.divf : (⟨S2x8192x16x16x4, .f32⟩ : BufTy).Contents (Elt F) → (⟨S2x8192x16x16x4, .f32⟩ : BufTy).Contents (Elt F) → (⟨S2x8192x16x16x4, .f32⟩ : BufTy).Contents (Elt F)),
    binary main_arg1 main_v5 main_v6 (subf : (⟨S2x8192x16x16x4, .f32⟩ : BufTy).Contents (Elt F) → (⟨S2x8192x16x16x4, .f32⟩ : BufTy).Contents (Elt F) → (⟨S2x8192x16x16x4, .f32⟩ : BufTy).Contents (Elt F)),
    nullary main_cst_1 (constant S_ .f32 0x40C90FDB#32),
    unary main_cst_1 main_v7 (broadcastInDim S2x8192x16x16x4 ![] bcast_S_S2x8192x16x16x4 : (⟨S_, .f32⟩ : BufTy).Contents (Elt F) → (⟨S2x8192x16x16x4, .f32⟩ : BufTy).Contents (Elt F)),
    binary main_v7 main_v6 main_v8 (mulf : (⟨S2x8192x16x16x4, .f32⟩ : BufTy).Contents (Elt F) → (⟨S2x8192x16x16x4, .f32⟩ : BufTy).Contents (Elt F) → (⟨S2x8192x16x16x4, .f32⟩ : BufTy).Contents (Elt F)),
    unary main_v8 main_v9 (Host.sin : (⟨S2x8192x16x16x4, .f32⟩ : BufTy).Contents (Elt F) → (⟨S2x8192x16x16x4, .f32⟩ : BufTy).Contents (Elt F)),
    nullary main_cst_2 (constant S_ .f32 0x40C90FDB#32),
    unary main_cst_2 main_v10 (broadcastInDim S2x8192x16x16x4 ![] bcast_S_S2x8192x16x16x4 : (⟨S_, .f32⟩ : BufTy).Contents (Elt F) → (⟨S2x8192x16x16x4, .f32⟩ : BufTy).Contents (Elt F)),
    binary main_v9 main_v10 main_v11 (Host.divf : (⟨S2x8192x16x16x4, .f32⟩ : BufTy).Contents (Elt F) → (⟨S2x8192x16x16x4, .f32⟩ : BufTy).Contents (Elt F) → (⟨S2x8192x16x16x4, .f32⟩ : BufTy).Contents (Elt F)),
    binary main_v6 main_v11 main_v12 (subf : (⟨S2x8192x16x16x4, .f32⟩ : BufTy).Contents (Elt F) → (⟨S2x8192x16x16x4, .f32⟩ : BufTy).Contents (Elt F) → (⟨S2x8192x16x16x4, .f32⟩ : BufTy).Contents (Elt F)),
    nullary main_cst_3 (constant S_ .f32 0x40C90FDB#32),
    unary main_cst_3 main_v13 (broadcastInDim S2x8192x1x1x4 ![] bcast_S_S2x8192x1x1x4 : (⟨S_, .f32⟩ : BufTy).Contents (Elt F) → (⟨S2x8192x1x1x4, .f32⟩ : BufTy).Contents (Elt F)),
    binary main_v13 main_v0 main_v14 (mulf : (⟨S2x8192x1x1x4, .f32⟩ : BufTy).Contents (Elt F) → (⟨S2x8192x1x1x4, .f32⟩ : BufTy).Contents (Elt F) → (⟨S2x8192x1x1x4, .f32⟩ : BufTy).Contents (Elt F)),
    unary main_v14 main_v15 (Host.sin : (⟨S2x8192x1x1x4, .f32⟩ : BufTy).Contents (Elt F) → (⟨S2x8192x1x1x4, .f32⟩ : BufTy).Contents (Elt F)),
    nullary main_cst_4 (constant S_ .f32 0x40C90FDB#32),
    unary main_cst_4 main_v16 (broadcastInDim S2x8192x1x1x4 ![] bcast_S_S2x8192x1x1x4 : (⟨S_, .f32⟩ : BufTy).Contents (Elt F) → (⟨S2x8192x1x1x4, .f32⟩ : BufTy).Contents (Elt F)),
    binary main_v15 main_v16 main_v17 (Host.divf : (⟨S2x8192x1x1x4, .f32⟩ : BufTy).Contents (Elt F) → (⟨S2x8192x1x1x4, .f32⟩ : BufTy).Contents (Elt F) → (⟨S2x8192x1x1x4, .f32⟩ : BufTy).Contents (Elt F)),
    binary main_v0 main_v17 main_v18 (subf : (⟨S2x8192x1x1x4, .f32⟩ : BufTy).Contents (Elt F) → (⟨S2x8192x1x1x4, .f32⟩ : BufTy).Contents (Elt F) → (⟨S2x8192x1x1x4, .f32⟩ : BufTy).Contents (Elt F)),
    nullary main_cst_5 (constant S_ .f32 0x40C90FDB#32),
    unary main_cst_5 main_v19 (broadcastInDim S2x8192x1x1x4 ![] bcast_S_S2x8192x1x1x4 : (⟨S_, .f32⟩ : BufTy).Contents (Elt F) → (⟨S2x8192x1x1x4, .f32⟩ : BufTy).Contents (Elt F)),
    binary main_v19 main_v18 main_v20 (mulf : (⟨S2x8192x1x1x4, .f32⟩ : BufTy).Contents (Elt F) → (⟨S2x8192x1x1x4, .f32⟩ : BufTy).Contents (Elt F) → (⟨S2x8192x1x1x4, .f32⟩ : BufTy).Contents (Elt F)),
    unary main_v20 main_v21 (Host.sin : (⟨S2x8192x1x1x4, .f32⟩ : BufTy).Contents (Elt F) → (⟨S2x8192x1x1x4, .f32⟩ : BufTy).Contents (Elt F)),
    nullary main_cst_6 (constant S_ .f32 0x40C90FDB#32),
    unary main_cst_6 main_v22 (broadcastInDim S2x8192x1x1x4 ![] bcast_S_S2x8192x1x1x4 : (⟨S_, .f32⟩ : BufTy).Contents (Elt F) → (⟨S2x8192x1x1x4, .f32⟩ : BufTy).Contents (Elt F)),
    binary main_v21 main_v22 main_v23 (Host.divf : (⟨S2x8192x1x1x4, .f32⟩ : BufTy).Contents (Elt F) → (⟨S2x8192x1x1x4, .f32⟩ : BufTy).Contents (Elt F) → (⟨S2x8192x1x1x4, .f32⟩ : BufTy).Contents (Elt F)),
    binary main_v18 main_v23 main_v24 (subf : (⟨S2x8192x1x1x4, .f32⟩ : BufTy).Contents (Elt F) → (⟨S2x8192x1x1x4, .f32⟩ : BufTy).Contents (Elt F) → (⟨S2x8192x1x1x4, .f32⟩ : BufTy).Contents (Elt F)),
    unary main_v24 main_v25 (broadcastInDim S2x8192x16x16x4 ![0, 1, 2, 3, 4] bcast_S2x8192x1x1x4_S2x8192x16x16x4_0_1_2_3_4 : (⟨S2x8192x1x1x4, .f32⟩ : BufTy).Contents (Elt F) → (⟨S2x8192x16x16x4, .f32⟩ : BufTy).Contents (Elt F)),
    binary main_v12 main_v25 main_v26 (mulf : (⟨S2x8192x16x16x4, .f32⟩ : BufTy).Contents (Elt F) → (⟨S2x8192x16x16x4, .f32⟩ : BufTy).Contents (Elt F) → (⟨S2x8192x16x16x4, .f32⟩ : BufTy).Contents (Elt F)),
    nullary main_cst_7 (constant S_ .f32 0x3F800000#32),
    unary main_cst_7 main_v27 (broadcastInDim S2x8192x16x16x4 ![] bcast_S_S2x8192x16x16x4 : (⟨S_, .f32⟩ : BufTy).Contents (Elt F) → (⟨S2x8192x16x16x4, .f32⟩ : BufTy).Contents (Elt F)),
    binary main_v27 main_v12 main_v28 (subf : (⟨S2x8192x16x16x4, .f32⟩ : BufTy).Contents (Elt F) → (⟨S2x8192x16x16x4, .f32⟩ : BufTy).Contents (Elt F) → (⟨S2x8192x16x16x4, .f32⟩ : BufTy).Contents (Elt F)),
    nullary main_cst_8 (constant S_ .f32 0x3F800000#32),
    unary main_cst_8 main_v29 (broadcastInDim S2x8192x1x1x4 ![] bcast_S_S2x8192x1x1x4 : (⟨S_, .f32⟩ : BufTy).Contents (Elt F) → (⟨S2x8192x1x1x4, .f32⟩ : BufTy).Contents (Elt F)),
    binary main_v29 main_v24 main_v30 (subf : (⟨S2x8192x1x1x4, .f32⟩ : BufTy).Contents (Elt F) → (⟨S2x8192x1x1x4, .f32⟩ : BufTy).Contents (Elt F) → (⟨S2x8192x1x1x4, .f32⟩ : BufTy).Contents (Elt F)),
    unary main_v30 main_v31 (broadcastInDim S2x8192x16x16x4 ![0, 1, 2, 3, 4] bcast_S2x8192x1x1x4_S2x8192x16x16x4_0_1_2_3_4 : (⟨S2x8192x1x1x4, .f32⟩ : BufTy).Contents (Elt F) → (⟨S2x8192x16x16x4, .f32⟩ : BufTy).Contents (Elt F)),
    binary main_v28 main_v31 main_v32 (mulf : (⟨S2x8192x16x16x4, .f32⟩ : BufTy).Contents (Elt F) → (⟨S2x8192x16x16x4, .f32⟩ : BufTy).Contents (Elt F) → (⟨S2x8192x16x16x4, .f32⟩ : BufTy).Contents (Elt F)),
    binary main_v26 main_v32 main_v33 (addf : (⟨S2x8192x16x16x4, .f32⟩ : BufTy).Contents (Elt F) → (⟨S2x8192x16x16x4, .f32⟩ : BufTy).Contents (Elt F) → (⟨S2x8192x16x16x4, .f32⟩ : BufTy).Contents (Elt F)),
    nullary main_cst_9 (constant S_ .f32 0x40C90FDB#32),
    unary main_cst_9 main_v34 (broadcastInDim S2x8192x16x16x4 ![] bcast_S_S2x8192x16x16x4 : (⟨S_, .f32⟩ : BufTy).Contents (Elt F) → (⟨S2x8192x16x16x4, .f32⟩ : BufTy).Contents (Elt F)),
    binary main_v34 main_v33 main_v35 (mulf : (⟨S2x8192x16x16x4, .f32⟩ : BufTy).Contents (Elt F) → (⟨S2x8192x16x16x4, .f32⟩ : BufTy).Contents (Elt F) → (⟨S2x8192x16x16x4, .f32⟩ : BufTy).Contents (Elt F)),
    unary main_v35 main_v36 (Host.sin : (⟨S2x8192x16x16x4, .f32⟩ : BufTy).Contents (Elt F) → (⟨S2x8192x16x16x4, .f32⟩ : BufTy).Contents (Elt F)),
    nullary main_cst_10 (constant S_ .f32 0x40C90FDB#32),
    unary main_cst_10 main_v37 (broadcastInDim S2x8192x16x16x4 ![] bcast_S_S2x8192x16x16x4 : (⟨S_, .f32⟩ : BufTy).Contents (Elt F) → (⟨S2x8192x16x16x4, .f32⟩ : BufTy).Contents (Elt F)),
    binary main_v36 main_v37 main_v38 (Host.divf : (⟨S2x8192x16x16x4, .f32⟩ : BufTy).Contents (Elt F) → (⟨S2x8192x16x16x4, .f32⟩ : BufTy).Contents (Elt F) → (⟨S2x8192x16x16x4, .f32⟩ : BufTy).Contents (Elt F)),
    binary main_v33 main_v38 main_v39 (subf : (⟨S2x8192x16x16x4, .f32⟩ : BufTy).Contents (Elt F) → (⟨S2x8192x16x16x4, .f32⟩ : BufTy).Contents (Elt F) → (⟨S2x8192x16x16x4, .f32⟩ : BufTy).Contents (Elt F)),
    nullary main_cst_11 (constant S_ .f32 0x40C90FDB#32),
    unary main_cst_11 main_v40 (broadcastInDim S2x8192x16x16x4 ![] bcast_S_S2x8192x16x16x4 : (⟨S_, .f32⟩ : BufTy).Contents (Elt F) → (⟨S2x8192x16x16x4, .f32⟩ : BufTy).Contents (Elt F)),
    binary main_v40 main_v39 main_v41 (mulf : (⟨S2x8192x16x16x4, .f32⟩ : BufTy).Contents (Elt F) → (⟨S2x8192x16x16x4, .f32⟩ : BufTy).Contents (Elt F) → (⟨S2x8192x16x16x4, .f32⟩ : BufTy).Contents (Elt F)),
    unary main_v41 main_v42 (Host.sin : (⟨S2x8192x16x16x4, .f32⟩ : BufTy).Contents (Elt F) → (⟨S2x8192x16x16x4, .f32⟩ : BufTy).Contents (Elt F)),
    nullary main_cst_12 (constant S_ .f32 0x40C90FDB#32),
    unary main_cst_12 main_v43 (broadcastInDim S2x8192x16x16x4 ![] bcast_S_S2x8192x16x16x4 : (⟨S_, .f32⟩ : BufTy).Contents (Elt F) → (⟨S2x8192x16x16x4, .f32⟩ : BufTy).Contents (Elt F)),
    binary main_v42 main_v43 main_v44 (Host.divf : (⟨S2x8192x16x16x4, .f32⟩ : BufTy).Contents (Elt F) → (⟨S2x8192x16x16x4, .f32⟩ : BufTy).Contents (Elt F) → (⟨S2x8192x16x16x4, .f32⟩ : BufTy).Contents (Elt F)),
    binary main_v39 main_v44 main_v45 (subf : (⟨S2x8192x16x16x4, .f32⟩ : BufTy).Contents (Elt F) → (⟨S2x8192x16x16x4, .f32⟩ : BufTy).Contents (Elt F) → (⟨S2x8192x16x16x4, .f32⟩ : BufTy).Contents (Elt F)),
    unary main_v45 main_v46 ((extractStridedSlice S2x8192x16x16x1 ![0, 0, 0, 0, 0] · slices_S2x8192x16x16x4_S2x8192x16x16x1_0_0_0_0_0) : (⟨S2x8192x16x16x4, .f32⟩ : BufTy).Contents (Elt F) → (⟨S2x8192x16x16x1, .f32⟩ : BufTy).Contents (Elt F)),
    reshape main_v46 main_v47 rfl shapeCasts_S2x8192x16x16x1_S2x8192x16x16,
    unary main_v45 main_v48 ((extractStridedSlice S2x8192x16x16x1 ![0, 0, 0, 0, 1] · slices_S2x8192x16x16x4_S2x8192x16x16x1_0_0_0_0_1) : (⟨S2x8192x16x16x4, .f32⟩ : BufTy).Contents (Elt F) → (⟨S2x8192x16x16x1, .f32⟩ : BufTy).Contents (Elt F)),
    reshape main_v48 main_v49 rfl shapeCasts_S2x8192x16x16x1_S2x8192x16x16,
    nullary main_cst_13 (constant S_ .f32 0x40C90FDB#32),
    unary main_cst_13 main_v50 (broadcastInDim S2x8192x16x16 ![] bcast_S_S2x8192x16x16 : (⟨S_, .f32⟩ : BufTy).Contents (Elt F) → (⟨S2x8192x16x16, .f32⟩ : BufTy).Contents (Elt F)),
    binary main_v50 main_v47 main_v51 (mulf : (⟨S2x8192x16x16, .f32⟩ : BufTy).Contents (Elt F) → (⟨S2x8192x16x16, .f32⟩ : BufTy).Contents (Elt F) → (⟨S2x8192x16x16, .f32⟩ : BufTy).Contents (Elt F)),
    unary main_v51 main_v52 (Host.sin : (⟨S2x8192x16x16, .f32⟩ : BufTy).Contents (Elt F) → (⟨S2x8192x16x16, .f32⟩ : BufTy).Contents (Elt F)),
    nullary main_cst_14 (constant S_ .f32 0x40C90FDB#32),
    unary main_cst_14 main_v53 (broadcastInDim S2x8192x16x16 ![] bcast_S_S2x8192x16x16 : (⟨S_, .f32⟩ : BufTy).Contents (Elt F) → (⟨S2x8192x16x16, .f32⟩ : BufTy).Contents (Elt F)),
    binary main_v52 main_v53 main_v54 (Host.divf : (⟨S2x8192x16x16, .f32⟩ : BufTy).Contents (Elt F) → (⟨S2x8192x16x16, .f32⟩ : BufTy).Contents (Elt F) → (⟨S2x8192x16x16, .f32⟩ : BufTy).Contents (Elt F)),
    binary main_v47 main_v54 main_v55 (subf : (⟨S2x8192x16x16, .f32⟩ : BufTy).Contents (Elt F) → (⟨S2x8192x16x16, .f32⟩ : BufTy).Contents (Elt F) → (⟨S2x8192x16x16, .f32⟩ : BufTy).Contents (Elt F)),
    nullary main_cst_15 (constant S_ .f32 0x40C90FDB#32),
    unary main_cst_15 main_v56 (broadcastInDim S2x8192x16x16 ![] bcast_S_S2x8192x16x16 : (⟨S_, .f32⟩ : BufTy).Contents (Elt F) → (⟨S2x8192x16x16, .f32⟩ : BufTy).Contents (Elt F)),
    binary main_v56 main_v49 main_v57 (mulf : (⟨S2x8192x16x16, .f32⟩ : BufTy).Contents (Elt F) → (⟨S2x8192x16x16, .f32⟩ : BufTy).Contents (Elt F) → (⟨S2x8192x16x16, .f32⟩ : BufTy).Contents (Elt F)),
    unary main_v57 main_v58 (Host.sin : (⟨S2x8192x16x16, .f32⟩ : BufTy).Contents (Elt F) → (⟨S2x8192x16x16, .f32⟩ : BufTy).Contents (Elt F)),
    nullary main_cst_16 (constant S_ .f32 0x40C90FDB#32),
    unary main_cst_16 main_v59 (broadcastInDim S2x8192x16x16 ![] bcast_S_S2x8192x16x16 : (⟨S_, .f32⟩ : BufTy).Contents (Elt F) → (⟨S2x8192x16x16, .f32⟩ : BufTy).Contents (Elt F)),
    binary main_v58 main_v59 main_v60 (Host.divf : (⟨S2x8192x16x16, .f32⟩ : BufTy).Contents (Elt F) → (⟨S2x8192x16x16, .f32⟩ : BufTy).Contents (Elt F) → (⟨S2x8192x16x16, .f32⟩ : BufTy).Contents (Elt F)),
    binary main_v49 main_v60 main_v61 (subf : (⟨S2x8192x16x16, .f32⟩ : BufTy).Contents (Elt F) → (⟨S2x8192x16x16, .f32⟩ : BufTy).Contents (Elt F) → (⟨S2x8192x16x16, .f32⟩ : BufTy).Contents (Elt F)),
    binary main_v55 main_v61 main_v62 (mulf : (⟨S2x8192x16x16, .f32⟩ : BufTy).Contents (Elt F) → (⟨S2x8192x16x16, .f32⟩ : BufTy).Contents (Elt F) → (⟨S2x8192x16x16, .f32⟩ : BufTy).Contents (Elt F)),
    unary main_v45 main_v63 ((extractStridedSlice S2x8192x16x16x1 ![0, 0, 0, 0, 2] · slices_S2x8192x16x16x4_S2x8192x16x16x1_0_0_0_0_2) : (⟨S2x8192x16x16x4, .f32⟩ : BufTy).Contents (Elt F) → (⟨S2x8192x16x16x1, .f32⟩ : BufTy).Contents (Elt F)),
    reshape main_v63 main_v64 rfl shapeCasts_S2x8192x16x16x1_S2x8192x16x16,
    unary main_v45 main_v65 ((extractStridedSlice S2x8192x16x16x1 ![0, 0, 0, 0, 3] · slices_S2x8192x16x16x4_S2x8192x16x16x1_0_0_0_0_3) : (⟨S2x8192x16x16x4, .f32⟩ : BufTy).Contents (Elt F) → (⟨S2x8192x16x16x1, .f32⟩ : BufTy).Contents (Elt F)),
    reshape main_v65 main_v66 rfl shapeCasts_S2x8192x16x16x1_S2x8192x16x16,
    nullary main_cst_17 (constant S_ .f32 0x40C90FDB#32),
    unary main_cst_17 main_v67 (broadcastInDim S2x8192x16x16 ![] bcast_S_S2x8192x16x16 : (⟨S_, .f32⟩ : BufTy).Contents (Elt F) → (⟨S2x8192x16x16, .f32⟩ : BufTy).Contents (Elt F)),
    binary main_v67 main_v64 main_v68 (mulf : (⟨S2x8192x16x16, .f32⟩ : BufTy).Contents (Elt F) → (⟨S2x8192x16x16, .f32⟩ : BufTy).Contents (Elt F) → (⟨S2x8192x16x16, .f32⟩ : BufTy).Contents (Elt F)),
    unary main_v68 main_v69 (Host.sin : (⟨S2x8192x16x16, .f32⟩ : BufTy).Contents (Elt F) → (⟨S2x8192x16x16, .f32⟩ : BufTy).Contents (Elt F)),
    nullary main_cst_18 (constant S_ .f32 0x40C90FDB#32),
    unary main_cst_18 main_v70 (broadcastInDim S2x8192x16x16 ![] bcast_S_S2x8192x16x16 : (⟨S_, .f32⟩ : BufTy).Contents (Elt F) → (⟨S2x8192x16x16, .f32⟩ : BufTy).Contents (Elt F)),
    binary main_v69 main_v70 main_v71 (Host.divf : (⟨S2x8192x16x16, .f32⟩ : BufTy).Contents (Elt F) → (⟨S2x8192x16x16, .f32⟩ : BufTy).Contents (Elt F) → (⟨S2x8192x16x16, .f32⟩ : BufTy).Contents (Elt F)),
    binary main_v64 main_v71 main_v72 (subf : (⟨S2x8192x16x16, .f32⟩ : BufTy).Contents (Elt F) → (⟨S2x8192x16x16, .f32⟩ : BufTy).Contents (Elt F) → (⟨S2x8192x16x16, .f32⟩ : BufTy).Contents (Elt F)),
    nullary main_cst_19 (constant S_ .f32 0x40C90FDB#32),
    unary main_cst_19 main_v73 (broadcastInDim S2x8192x16x16 ![] bcast_S_S2x8192x16x16 : (⟨S_, .f32⟩ : BufTy).Contents (Elt F) → (⟨S2x8192x16x16, .f32⟩ : BufTy).Contents (Elt F)),
    binary main_v73 main_v66 main_v74 (mulf : (⟨S2x8192x16x16, .f32⟩ : BufTy).Contents (Elt F) → (⟨S2x8192x16x16, .f32⟩ : BufTy).Contents (Elt F) → (⟨S2x8192x16x16, .f32⟩ : BufTy).Contents (Elt F)),
    unary main_v74 main_v75 (Host.sin : (⟨S2x8192x16x16, .f32⟩ : BufTy).Contents (Elt F) → (⟨S2x8192x16x16, .f32⟩ : BufTy).Contents (Elt F)),
    nullary main_cst_20 (constant S_ .f32 0x40C90FDB#32),
    unary main_cst_20 main_v76 (broadcastInDim S2x8192x16x16 ![] bcast_S_S2x8192x16x16 : (⟨S_, .f32⟩ : BufTy).Contents (Elt F) → (⟨S2x8192x16x16, .f32⟩ : BufTy).Contents (Elt F)),
    binary main_v75 main_v76 main_v77 (Host.divf : (⟨S2x8192x16x16, .f32⟩ : BufTy).Contents (Elt F) → (⟨S2x8192x16x16, .f32⟩ : BufTy).Contents (Elt F) → (⟨S2x8192x16x16, .f32⟩ : BufTy).Contents (Elt F)),
    binary main_v66 main_v77 main_v78 (subf : (⟨S2x8192x16x16, .f32⟩ : BufTy).Contents (Elt F) → (⟨S2x8192x16x16, .f32⟩ : BufTy).Contents (Elt F) → (⟨S2x8192x16x16, .f32⟩ : BufTy).Contents (Elt F)),
    binary main_v72 main_v78 main_v79 (mulf : (⟨S2x8192x16x16, .f32⟩ : BufTy).Contents (Elt F) → (⟨S2x8192x16x16, .f32⟩ : BufTy).Contents (Elt F) → (⟨S2x8192x16x16, .f32⟩ : BufTy).Contents (Elt F)),
    nullary main_cst_21 (constant S_ .f32 0x40C90FDB#32),
    unary main_cst_21 main_v80 (broadcastInDim S2x8192x16x16 ![] bcast_S_S2x8192x16x16 : (⟨S_, .f32⟩ : BufTy).Contents (Elt F) → (⟨S2x8192x16x16, .f32⟩ : BufTy).Contents (Elt F)),
    binary main_v80 main_v62 main_v81 (mulf : (⟨S2x8192x16x16, .f32⟩ : BufTy).Contents (Elt F) → (⟨S2x8192x16x16, .f32⟩ : BufTy).Contents (Elt F) → (⟨S2x8192x16x16, .f32⟩ : BufTy).Contents (Elt F)),
    unary main_v81 main_v82 (Host.sin : (⟨S2x8192x16x16, .f32⟩ : BufTy).Contents (Elt F) → (⟨S2x8192x16x16, .f32⟩ : BufTy).Contents (Elt F)),
    nullary main_cst_22 (constant S_ .f32 0x40C90FDB#32),
    unary main_cst_22 main_v83 (broadcastInDim S2x8192x16x16 ![] bcast_S_S2x8192x16x16 : (⟨S_, .f32⟩ : BufTy).Contents (Elt F) → (⟨S2x8192x16x16, .f32⟩ : BufTy).Contents (Elt F)),
    binary main_v82 main_v83 main_v84 (Host.divf : (⟨S2x8192x16x16, .f32⟩ : BufTy).Contents (Elt F) → (⟨S2x8192x16x16, .f32⟩ : BufTy).Contents (Elt F) → (⟨S2x8192x16x16, .f32⟩ : BufTy).Contents (Elt F)),
    binary main_v62 main_v84 main_v85 (subf : (⟨S2x8192x16x16, .f32⟩ : BufTy).Contents (Elt F) → (⟨S2x8192x16x16, .f32⟩ : BufTy).Contents (Elt F) → (⟨S2x8192x16x16, .f32⟩ : BufTy).Contents (Elt F)),
    nullary main_cst_23 (constant S_ .f32 0x40C90FDB#32),
    unary main_cst_23 main_v86 (broadcastInDim S2x8192x16x16 ![] bcast_S_S2x8192x16x16 : (⟨S_, .f32⟩ : BufTy).Contents (Elt F) → (⟨S2x8192x16x16, .f32⟩ : BufTy).Contents (Elt F)),
    binary main_v86 main_v79 main_v87 (mulf : (⟨S2x8192x16x16, .f32⟩ : BufTy).Contents (Elt F) → (⟨S2x8192x16x16, .f32⟩ : BufTy).Contents (Elt F) → (⟨S2x8192x16x16, .f32⟩ : BufTy).Contents (Elt F)),
    unary main_v87 main_v88 (Host.sin : (⟨S2x8192x16x16, .f32⟩ : BufTy).Contents (Elt F) → (⟨S2x8192x16x16, .f32⟩ : BufTy).Contents (Elt F)),
    nullary main_cst_24 (constant S_ .f32 0x40C90FDB#32),
    unary main_cst_24 main_v89 (broadcastInDim S2x8192x16x16 ![] bcast_S_S2x8192x16x16 : (⟨S_, .f32⟩ : BufTy).Contents (Elt F) → (⟨S2x8192x16x16, .f32⟩ : BufTy).Contents (Elt F)),
    binary main_v88 main_v89 main_v90 (Host.divf : (⟨S2x8192x16x16, .f32⟩ : BufTy).Contents (Elt F) → (⟨S2x8192x16x16, .f32⟩ : BufTy).Contents (Elt F) → (⟨S2x8192x16x16, .f32⟩ : BufTy).Contents (Elt F)),
    binary main_v79 main_v90 main_v91 (subf : (⟨S2x8192x16x16, .f32⟩ : BufTy).Contents (Elt F) → (⟨S2x8192x16x16, .f32⟩ : BufTy).Contents (Elt F) → (⟨S2x8192x16x16, .f32⟩ : BufTy).Contents (Elt F)),
    binary main_v85 main_v91 main_v92 (mulf : (⟨S2x8192x16x16, .f32⟩ : BufTy).Contents (Elt F) → (⟨S2x8192x16x16, .f32⟩ : BufTy).Contents (Elt F) → (⟨S2x8192x16x16, .f32⟩ : BufTy).Contents (Elt F)),
    unary main_v92 main_v93 ((extractStridedSlice S2x8192x15x16 ![0, 0, 1, 0] · slices_S2x8192x16x16_S2x8192x15x16_0_0_1_0) : (⟨S2x8192x16x16, .f32⟩ : BufTy).Contents (Elt F) → (⟨S2x8192x15x16, .f32⟩ : BufTy).Contents (Elt F)),
    nullary main_c (constantI S_ 32 0#32),
    TRef.unary (TRef.of (T := ⟨S_, .i32⟩) main_c) (TRef.of (T := ⟨S_, .f32⟩) main_call0_v0) (sitofp .f32),
    TRef.binary (TRef.of (T := ⟨S2x8192x15x16, .f32⟩) main_v93) (TRef.of (T := ⟨S_, .f32⟩) main_call0_v0) (TRef.of (T := ⟨S2x8192x16x16, .f32⟩) main_v94) (fun x v => pad S2x8192x16x16 ![0, 0, 0, 0] ![0, 0, 1, 0] ![0, 0, 0, 0] x v pads_S2x8192x15x16_S2x8192x16x16_000_000_010_000 h_S_),
    unary main_v92 main_v95 ((extractStridedSlice S2x8192x15x16 ![0, 0, 0, 0] · slices_S2x8192x16x16_S2x8192x15x16_0_0_0_0) : (⟨S2x8192x16x16, .f32⟩ : BufTy).Contents (Elt F) → (⟨S2x8192x15x16, .f32⟩ : BufTy).Contents (Elt F)),
    nullary main_c_25 (constantI S_ 32 0#32),
    TRef.unary (TRef.of (T := ⟨S_, .i32⟩) main_c_25) (TRef.of (T := ⟨S_, .f32⟩) main_call1_v0) (sitofp .f32),
    TRef.binary (TRef.of (T := ⟨S2x8192x15x16, .f32⟩) main_v95) (TRef.of (T := ⟨S_, .f32⟩) main_call1_v0) (TRef.of (T := ⟨S2x8192x16x16, .f32⟩) main_v96) (fun x v => pad S2x8192x16x16 ![0, 0, 1, 0] ![0, 0, 0, 0] ![0, 0, 0, 0] x v pads_S2x8192x15x16_S2x8192x16x16_000_000_100_000 h_S_),
    unary main_v92 main_v97 ((extractStridedSlice S2x8192x16x15 ![0, 0, 0, 1] · slices_S2x8192x16x16_S2x8192x16x15_0_0_0_1) : (⟨S2x8192x16x16, .f32⟩ : BufTy).Contents (Elt F) → (⟨S2x8192x16x15, .f32⟩ : BufTy).Contents (Elt F)),
    nullary main_c_26 (constantI S_ 32 0#32),
    TRef.unary (TRef.of (T := ⟨S_, .i32⟩) main_c_26) (TRef.of (T := ⟨S_, .f32⟩) main_call2_v0) (sitofp .f32),
    TRef.binary (TRef.of (T := ⟨S2x8192x16x15, .f32⟩) main_v97) (TRef.of (T := ⟨S_, .f32⟩) main_call2_v0) (TRef.of (T := ⟨S2x8192x16x16, .f32⟩) main_v98) (fun x v => pad S2x8192x16x16 ![0, 0, 0, 0] ![0, 0, 0, 1] ![0, 0, 0, 0] x v pads_S2x8192x16x15_S2x8192x16x16_000_000_000_010 h_S_),
    unary main_v92 main_v99 ((extractStridedSlice S2x8192x16x15 ![0, 0, 0, 0] · slices_S2x8192x16x16_S2x8192x16x15_0_0_0_0) : (⟨S2x8192x16x16, .f32⟩ : BufTy).Contents (Elt F) → (⟨S2x8192x16x15, .f32⟩ : BufTy).Contents (Elt F)),
    nullary main_c_27 (constantI S_ 32 0#32),
    TRef.unary (TRef.of (T := ⟨S_, .i32⟩) main_c_27) (TRef.of (T := ⟨S_, .f32⟩) main_call3_v0) (sitofp .f32),
    TRef.binary (TRef.of (T := ⟨S2x8192x16x15, .f32⟩) main_v99) (TRef.of (T := ⟨S_, .f32⟩) main_call3_v0) (TRef.of (T := ⟨S2x8192x16x16, .f32⟩) main_v100) (fun x v => pad S2x8192x16x16 ![0, 0, 0, 1] ![0, 0, 0, 0] ![0, 0, 0, 0] x v pads_S2x8192x16x15_S2x8192x16x16_000_000_000_100 h_S_),
    binary main_v94 main_v96 main_v101 (mulf : (⟨S2x8192x16x16, .f32⟩ : BufTy).Contents (Elt F) → (⟨S2x8192x16x16, .f32⟩ : BufTy).Contents (Elt F) → (⟨S2x8192x16x16, .f32⟩ : BufTy).Contents (Elt F)),
    nullary main_cst_28 (constant S_ .f32 0x3F800000#32),
    unary main_cst_28 main_v102 (broadcastInDim S2x8192x16x16 ![] bcast_S_S2x8192x16x16 : (⟨S_, .f32⟩ : BufTy).Contents (Elt F) → (⟨S2x8192x16x16, .f32⟩ : BufTy).Contents (Elt F)),
    binary main_v102 main_v94 main_v103 (subf : (⟨S2x8192x16x16, .f32⟩ : BufTy).Contents (Elt F) → (⟨S2x8192x16x16, .f32⟩ : BufTy).Contents (Elt F) → (⟨S2x8192x16x16, .f32⟩ : BufTy).Contents (Elt F)),
    nullary main_cst_29 (constant S_ .f32 0x3F800000#32),
    unary main_cst_29 main_v104 (broadcastInDim S2x8192x16x16 ![] bcast_S_S2x8192x16x16 : (⟨S_, .f32⟩ : BufTy).Contents (Elt F) → (⟨S2x8192x16x16, .f32⟩ : BufTy).Contents (Elt F)),
    binary main_v104 main_v96 main_v105 (subf : (⟨S2x8192x16x16, .f32⟩ : BufTy).Contents (Elt F) → (⟨S2x8192x16x16, .f32⟩ : BufTy).Contents (Elt F) → (⟨S2x8192x16x16, .f32⟩ : BufTy).Contents (Elt F)),
    binary main_v103 main_v105 main_v106 (mulf : (⟨S2x8192x16x16, .f32⟩ : BufTy).Contents (Elt F) → (⟨S2x8192x16x16, .f32⟩ : BufTy).Contents (Elt F) → (⟨S2x8192x16x16, .f32⟩ : BufTy).Contents (Elt F)),
    binary main_v101 main_v106 main_v107 (addf : (⟨S2x8192x16x16, .f32⟩ : BufTy).Contents (Elt F) → (⟨S2x8192x16x16, .f32⟩ : BufTy).Contents (Elt F) → (⟨S2x8192x16x16, .f32⟩ : BufTy).Contents (Elt F)),
    nullary main_cst_30 (constant S_ .f32 0x3F800000#32),
    unary main_cst_30 main_v108 (broadcastInDim S2x8192x16x16 ![] bcast_S_S2x8192x16x16 : (⟨S_, .f32⟩ : BufTy).Contents (Elt F) → (⟨S2x8192x16x16, .f32⟩ : BufTy).Contents (Elt F)),
    binary main_v108 main_v107 main_v109 (subf : (⟨S2x8192x16x16, .f32⟩ : BufTy).Contents (Elt F) → (⟨S2x8192x16x16, .f32⟩ : BufTy).Contents (Elt F) → (⟨S2x8192x16x16, .f32⟩ : BufTy).Contents (Elt F)),
    binary main_v98 main_v100 main_v110 (mulf : (⟨S2x8192x16x16, .f32⟩ : BufTy).Contents (Elt F) → (⟨S2x8192x16x16, .f32⟩ : BufTy).Contents (Elt F) → (⟨S2x8192x16x16, .f32⟩ : BufTy).Contents (Elt F)),
    nullary main_cst_31 (constant S_ .f32 0x3F800000#32),
    unary main_cst_31 main_v111 (broadcastInDim S2x8192x16x16 ![] bcast_S_S2x8192x16x16 : (⟨S_, .f32⟩ : BufTy).Contents (Elt F) → (⟨S2x8192x16x16, .f32⟩ : BufTy).Contents (Elt F)),
    binary main_v111 main_v98 main_v112 (subf : (⟨S2x8192x16x16, .f32⟩ : BufTy).Contents (Elt F) → (⟨S2x8192x16x16, .f32⟩ : BufTy).Contents (Elt F) → (⟨S2x8192x16x16, .f32⟩ : BufTy).Contents (Elt F)),
    nullary main_cst_32 (constant S_ .f32 0x3F800000#32),
    unary main_cst_32 main_v113 (broadcastInDim S2x8192x16x16 ![] bcast_S_S2x8192x16x16 : (⟨S_, .f32⟩ : BufTy).Contents (Elt F) → (⟨S2x8192x16x16, .f32⟩ : BufTy).Contents (Elt F)),
    binary main_v113 main_v100 main_v114 (subf : (⟨S2x8192x16x16, .f32⟩ : BufTy).Contents (Elt F) → (⟨S2x8192x16x16, .f32⟩ : BufTy).Contents (Elt F) → (⟨S2x8192x16x16, .f32⟩ : BufTy).Contents (Elt F)),
    binary main_v112 main_v114 main_v115 (mulf : (⟨S2x8192x16x16, .f32⟩ : BufTy).Contents (Elt F) → (⟨S2x8192x16x16, .f32⟩ : BufTy).Contents (Elt F) → (⟨S2x8192x16x16, .f32⟩ : BufTy).Contents (Elt F)),
    binary main_v110 main_v115 main_v116 (addf : (⟨S2x8192x16x16, .f32⟩ : BufTy).Contents (Elt F) → (⟨S2x8192x16x16, .f32⟩ : BufTy).Contents (Elt F) → (⟨S2x8192x16x16, .f32⟩ : BufTy).Contents (Elt F)),
    nullary main_cst_33 (constant S_ .f32 0x3F800000#32),
    unary main_cst_33 main_v117 (broadcastInDim S2x8192x16x16 ![] bcast_S_S2x8192x16x16 : (⟨S_, .f32⟩ : BufTy).Contents (Elt F) → (⟨S2x8192x16x16, .f32⟩ : BufTy).Contents (Elt F)),
    binary main_v117 main_v116 main_v118 (subf : (⟨S2x8192x16x16, .f32⟩ : BufTy).Contents (Elt F) → (⟨S2x8192x16x16, .f32⟩ : BufTy).Contents (Elt F) → (⟨S2x8192x16x16, .f32⟩ : BufTy).Contents (Elt F)),
    binary main_v109 main_v92 main_v119 (mulf : (⟨S2x8192x16x16, .f32⟩ : BufTy).Contents (Elt F) → (⟨S2x8192x16x16, .f32⟩ : BufTy).Contents (Elt F) → (⟨S2x8192x16x16, .f32⟩ : BufTy).Contents (Elt F)),
    binary main_v118 main_v92 main_v120 (mulf : (⟨S2x8192x16x16, .f32⟩ : BufTy).Contents (Elt F) → (⟨S2x8192x16x16, .f32⟩ : BufTy).Contents (Elt F) → (⟨S2x8192x16x16, .f32⟩ : BufTy).Contents (Elt F)),
    binary main_v119 main_v120 main_v121 (mulf : (⟨S2x8192x16x16, .f32⟩ : BufTy).Contents (Elt F) → (⟨S2x8192x16x16, .f32⟩ : BufTy).Contents (Elt F) → (⟨S2x8192x16x16, .f32⟩ : BufTy).Contents (Elt F)),
    nullary main_cst_34 (constant S_ .f32 0x3F800000#32),
    unary main_cst_34 main_v122 (broadcastInDim S2x8192x16x16 ![] bcast_S_S2x8192x16x16 : (⟨S_, .f32⟩ : BufTy).Contents (Elt F) → (⟨S2x8192x16x16, .f32⟩ : BufTy).Contents (Elt F)),
    binary main_v122 main_v119 main_v123 (subf : (⟨S2x8192x16x16, .f32⟩ : BufTy).Contents (Elt F) → (⟨S2x8192x16x16, .f32⟩ : BufTy).Contents (Elt F) → (⟨S2x8192x16x16, .f32⟩ : BufTy).Contents (Elt F)),
    binary main_v123 main_v119 main_v124 (mulf : (⟨S2x8192x16x16, .f32⟩ : BufTy).Contents (Elt F) → (⟨S2x8192x16x16, .f32⟩ : BufTy).Contents (Elt F) → (⟨S2x8192x16x16, .f32⟩ : BufTy).Contents (Elt F)),
    binary main_v121 main_v124 main_v125 (addf : (⟨S2x8192x16x16, .f32⟩ : BufTy).Contents (Elt F) → (⟨S2x8192x16x16, .f32⟩ : BufTy).Contents (Elt F) → (⟨S2x8192x16x16, .f32⟩ : BufTy).Contents (Elt F)),
    nullary main_cst_35 (constant S_ .f32 0x3F800000#32),
    unary main_cst_35 main_v126 (broadcastInDim S2x8192x16x16 ![] bcast_S_S2x8192x16x16 : (⟨S_, .f32⟩ : BufTy).Contents (Elt F) → (⟨S2x8192x16x16, .f32⟩ : BufTy).Contents (Elt F)),
    binary main_v126 main_v120 main_v127 (subf : (⟨S2x8192x16x16, .f32⟩ : BufTy).Contents (Elt F) → (⟨S2x8192x16x16, .f32⟩ : BufTy).Contents (Elt F) → (⟨S2x8192x16x16, .f32⟩ : BufTy).Contents (Elt F)),
    binary main_v127 main_v119 main_v128 (mulf : (⟨S2x8192x16x16, .f32⟩ : BufTy).Contents (Elt F) → (⟨S2x8192x16x16, .f32⟩ : BufTy).Contents (Elt F) → (⟨S2x8192x16x16, .f32⟩ : BufTy).Contents (Elt F)),
    binary main_v125 main_v128 main_v129 (addf : (⟨S2x8192x16x16, .f32⟩ : BufTy).Contents (Elt F) → (⟨S2x8192x16x16, .f32⟩ : BufTy).Contents (Elt F) → (⟨S2x8192x16x16, .f32⟩ : BufTy).Contents (Elt F)),
    nullary main_cst_36 (constant S_ .f32 0x3F800000#32),
    unary main_cst_36 main_v130 (broadcastInDim S2x8192x16x16 ![] bcast_S_S2x8192x16x16 : (⟨S_, .f32⟩ : BufTy).Contents (Elt F) → (⟨S2x8192x16x16, .f32⟩ : BufTy).Contents (Elt F)),
    binary main_v130 main_v129 main_v131 (subf : (⟨S2x8192x16x16, .f32⟩ : BufTy).Contents (Elt F) → (⟨S2x8192x16x16, .f32⟩ : BufTy).Contents (Elt F) → (⟨S2x8192x16x16, .f32⟩ : BufTy).Contents (Elt F)),
    binary main_v131 main_v92 main_v132 (mulf : (⟨S2x8192x16x16, .f32⟩ : BufTy).Contents (Elt F) → (⟨S2x8192x16x16, .f32⟩ : BufTy).Contents (Elt F) → (⟨S2x8192x16x16, .f32⟩ : BufTy).Contents (Elt F)),
    binary main_v132 main_arg3 main_v133 (mulf : (⟨S2x8192x16x16, .f32⟩ : BufTy).Contents (Elt F) → (⟨S2x8192x16x16, .f32⟩ : BufTy).Contents (Elt F) → (⟨S2x8192x16x16, .f32⟩ : BufTy).Contents (Elt F)),
    unary main_v92 main_v134 (broadcastInDim S2x8192x16x16x1 ![0, 1, 2, 3] bcast_S2x8192x16x16_S2x8192x16x16x1_0_1_2_3 : (⟨S2x8192x16x16, .f32⟩ : BufTy).Contents (Elt F) → (⟨S2x8192x16x16x1, .f32⟩ : BufTy).Contents (Elt F)),
    binary main_v134 main_arg0 main_v135 (mulf : (⟨S2x8192x16x16x1, .f32⟩ : BufTy).Contents (Elt F) → (⟨S2x8192x16x16x1, .f32⟩ : BufTy).Contents (Elt F) → (⟨S2x8192x16x16x1, .f32⟩ : BufTy).Contents (Elt F)),
    nullary main_cst_37 (constant S_ .f32 0x00000000#32),
    binary main_v133 main_cst_37 main_v136 ((fun x v => Host.reduceAdd x v reducesTo_S2x8192x16x16_S2x8192_d2_3 h_S_) : (⟨S2x8192x16x16, .f32⟩ : BufTy).Contents (Elt F) → (⟨S_, .f32⟩ : BufTy).Contents (Elt F) → (⟨S2x8192, .f32⟩ : BufTy).Contents (Elt F)),
    nullary main_cst_38 (constant S_ .f32 0x43800000#32),
    unary main_cst_38 main_v137 (broadcastInDim S2x8192 ![] bcast_S_S2x8192 : (⟨S_, .f32⟩ : BufTy).Contents (Elt F) → (⟨S2x8192, .f32⟩ : BufTy).Contents (Elt F)),
    binary main_v136 main_v137 main_v138 (Host.divf : (⟨S2x8192, .f32⟩ : BufTy).Contents (Elt F) → (⟨S2x8192, .f32⟩ : BufTy).Contents (Elt F) → (⟨S2x8192, .f32⟩ : BufTy).Contents (Elt F)),
    nullary main_cst_39 (constant S_ .f32 0x00000000#32),
    binary main_v134 main_cst_39 main_v139 ((fun x v => Host.reduceAdd x v reducesTo_S2x8192x16x16x1_S2x8192_d2_3_4 h_S_) : (⟨S2x8192x16x16x1, .f32⟩ : BufTy).Contents (Elt F) → (⟨S_, .f32⟩ : BufTy).Contents (Elt F) → (⟨S2x8192, .f32⟩ : BufTy).Contents (Elt F)),
    nullary main_cst_40 (constant S_ .f32 0x322BCC77#32),
    unary main_cst_40 main_v140 (broadcastInDim S2x8192 ![] bcast_S_S2x8192 : (⟨S_, .f32⟩ : BufTy).Contents (Elt F) → (⟨S2x8192, .f32⟩ : BufTy).Contents (Elt F)),
    binary main_v139 main_v140 main_v141 (addf : (⟨S2x8192, .f32⟩ : BufTy).Contents (Elt F) → (⟨S2x8192, .f32⟩ : BufTy).Contents (Elt F) → (⟨S2x8192, .f32⟩ : BufTy).Contents (Elt F)),
    nullary main_cst_41 (constant S_ .f32 0x00000000#32),
    binary main_v135 main_cst_41 main_v142 ((fun x v => Host.reduceAdd x v reducesTo_S2x8192x16x16x1_S2x8192_d2_3_4 h_S_) : (⟨S2x8192x16x16x1, .f32⟩ : BufTy).Contents (Elt F) → (⟨S_, .f32⟩ : BufTy).Contents (Elt F) → (⟨S2x8192, .f32⟩ : BufTy).Contents (Elt F)),
    binary main_v142 main_v141 main_v143 (Host.divf : (⟨S2x8192, .f32⟩ : BufTy).Contents (Elt F) → (⟨S2x8192, .f32⟩ : BufTy).Contents (Elt F) → (⟨S2x8192, .f32⟩ : BufTy).Contents (Elt F)),
    unary main_v143 main_v144 (broadcastInDim S2x8192x1x1x1 ![0, 1] bcast_S2x8192_S2x8192x1x1x1_0_1 : (⟨S2x8192, .f32⟩ : BufTy).Contents (Elt F) → (⟨S2x8192x1x1x1, .f32⟩ : BufTy).Contents (Elt F)),
    unary main_v144 main_v145 (broadcastInDim S2x8192x16x16x1 ![0, 1, 2, 3, 4] bcast_S2x8192x1x1x1_S2x8192x16x16x1_0_1_2_3_4 : (⟨S2x8192x1x1x1, .f32⟩ : BufTy).Contents (Elt F) → (⟨S2x8192x16x16x1, .f32⟩ : BufTy).Contents (Elt F)),
    binary main_v135 main_v145 main_v146 (subf : (⟨S2x8192x16x16x1, .f32⟩ : BufTy).Contents (Elt F) → (⟨S2x8192x16x16x1, .f32⟩ : BufTy).Contents (Elt F) → (⟨S2x8192x16x16x1, .f32⟩ : BufTy).Contents (Elt F)),
    binary main_v146 main_v134 main_v147 (mulf : (⟨S2x8192x16x16x1, .f32⟩ : BufTy).Contents (Elt F) → (⟨S2x8192x16x16x1, .f32⟩ : BufTy).Contents (Elt F) → (⟨S2x8192x16x16x1, .f32⟩ : BufTy).Contents (Elt F)),
    binary main_v147 main_v147 main_v148 (mulf : (⟨S2x8192x16x16x1, .f32⟩ : BufTy).Contents (Elt F) → (⟨S2x8192x16x16x1, .f32⟩ : BufTy).Contents (Elt F) → (⟨S2x8192x16x16x1, .f32⟩ : BufTy).Contents (Elt F)),
    nullary main_cst_42 (constant S_ .f32 0x00000000#32),
    binary main_v148 main_cst_42 main_v149 ((fun x v => Host.reduceAdd x v reducesTo_S2x8192x16x16x1_S2x8192_d2_3_4 h_S_) : (⟨S2x8192x16x16x1, .f32⟩ : BufTy).Contents (Elt F) → (⟨S_, .f32⟩ : BufTy).Contents (Elt F) → (⟨S2x8192, .f32⟩ : BufTy).Contents (Elt F)),
    binary main_v149 main_v141 main_v150 (Host.divf : (⟨S2x8192, .f32⟩ : BufTy).Contents (Elt F) → (⟨S2x8192, .f32⟩ : BufTy).Contents (Elt F) → (⟨S2x8192, .f32⟩ : BufTy).Contents (Elt F)),
    unary main_v133 main_v151 (broadcastInDim S2x8192x16x16x1 ![0, 1, 2, 3] bcast_S2x8192x16x16_S2x8192x16x16x1_0_1_2_3 : (⟨S2x8192x16x16, .f32⟩ : BufTy).Contents (Elt F) → (⟨S2x8192x16x16x1, .f32⟩ : BufTy).Contents (Elt F)),
    binary main_v150 main_v138 main_v152 (mulf : (⟨S2x8192, .f32⟩ : BufTy).Contents (Elt F) → (⟨S2x8192, .f32⟩ : BufTy).Contents (Elt F) → (⟨S2x8192, .f32⟩ : BufTy).Contents (Elt F)),
    nullary main_cst_43 (constant S_ .f32 0x447A0000#32),
    unary main_cst_43 main_v153 (broadcastInDim S2x8192 ![] bcast_S_S2x8192 : (⟨S_, .f32⟩ : BufTy).Contents (Elt F) → (⟨S2x8192, .f32⟩ : BufTy).Contents (Elt F)),
    binary main_v152 main_v153 main_v154 (mulf : (⟨S2x8192, .f32⟩ : BufTy).Contents (Elt F) → (⟨S2x8192, .f32⟩ : BufTy).Contents (Elt F) → (⟨S2x8192, .f32⟩ : BufTy).Contents (Elt F)) ]

/-- Operations 1–60: up to the soft equality of the four channels (%45). -/
abbrev opsA : List (HloOp τ sig (Elt F)) :=
  [
    unary main_arg2 main_v0 (broadcastInDim S2x8192x1x1x4 ![0, 1, 4] bcast_S2x8192x4_S2x8192x1x1x4_0_1_4 : (⟨S2x8192x4, .f32⟩ : BufTy).Contents (Elt F) → (⟨S2x8192x1x1x4, .f32⟩ : BufTy).Contents (Elt F)),
    nullary main_cst (constant S_ .f32 0x40C90FDB#32),
    unary main_cst main_v1 (broadcastInDim S2x8192x16x16x4 ![] bcast_S_S2x8192x16x16x4 : (⟨S_, .f32⟩ : BufTy).Contents (Elt F) → (⟨S2x8192x16x16x4, .f32⟩ : BufTy).Contents (Elt F)),
    binary main_v1 main_arg1 main_v2 (mulf : (⟨S2x8192x16x16x4, .f32⟩ : BufTy).Contents (Elt F) → (⟨S2x8192x16x16x4, .f32⟩ : BufTy).Contents (Elt F) → (⟨S2x8192x16x16x4, .f32⟩ : BufTy).Contents (Elt F)),
    unary main_v2 main_v3 (Host.sin : (⟨S2x8192x16x16x4, .f32⟩ : BufTy).Contents (Elt F) → (⟨S2x8192x16x16x4, .f32⟩ : BufTy).Contents (Elt F)),
    nullary main_cst_0 (constant S_ .f32 0x40C90FDB#32),
    unary main_cst_0 main_v4 (broadcastInDim S2x8192x16x16x4 ![] bcast_S_S2x8192x16x16x4 : (⟨S_, .f32⟩ : BufTy).Contents (Elt F) → (⟨S2x8192x16x16x4, .f32⟩ : BufTy).Contents (Elt F)),
    binary main_v3 main_v4 main_v5 (Host.divf : (⟨S2x8192x16x16x4, .f32⟩ : BufTy).Contents (Elt F) → (⟨S2x8192x16x16x4, .f32⟩ : BufTy).Contents (Elt F) → (⟨S2x8192x16x16x4, .f32⟩ : BufTy).Contents (Elt F)),
    binary main_arg1 main_v5 main_v6 (subf : (⟨S2x8192x16x16x4, .f32⟩ : BufTy).Contents (Elt F) → (⟨S2x8192x16x16x4, .f32⟩ : BufTy).Contents (Elt F) → (⟨S2x8192x16x16x4, .f32⟩ : BufTy).Contents (Elt F)),
    nullary main_cst_1 (constant S_ .f32 0x40C90FDB#32),
    unary main_cst_1 main_v7 (broadcastInDim S2x8192x16x16x4 ![] bcast_S_S2x8192x16x16x4 : (⟨S_, .f32⟩ : BufTy).Contents (Elt F) → (⟨S2x8192x16x16x4, .f32⟩ : BufTy).Contents (Elt F)),
    binary main_v7 main_v6 main_v8 (mulf : (⟨S2x8192x16x16x4, .f32⟩ : BufTy).Contents (Elt F) → (⟨S2x8192x16x16x4, .f32⟩ : BufTy).Contents (Elt F) → (⟨S2x8192x16x16x4, .f32⟩ : BufTy).Contents (Elt F)),
    unary main_v8 main_v9 (Host.sin : (⟨S2x8192x16x16x4, .f32⟩ : BufTy).Contents (Elt F) → (⟨S2x8192x16x16x4, .f32⟩ : BufTy).Contents (Elt F)),
    nullary main_cst_2 (constant S_ .f32 0x40C90FDB#32),
    unary main_cst_2 main_v10 (broadcastInDim S2x8192x16x16x4 ![] bcast_S_S2x8192x16x16x4 : (⟨S_, .f32⟩ : BufTy).Contents (Elt F) → (⟨S2x8192x16x16x4, .f32⟩ : BufTy).Contents (Elt F)),
    binary main_v9 main_v10 main_v11 (Host.divf : (⟨S2x8192x16x16x4, .f32⟩ : BufTy).Contents (Elt F) → (⟨S2x8192x16x16x4, .f32⟩ : BufTy).Contents (Elt F) → (⟨S2x8192x16x16x4, .f32⟩ : BufTy).Contents (Elt F)),
    binary main_v6 main_v11 main_v12 (subf : (⟨S2x8192x16x16x4, .f32⟩ : BufTy).Contents (Elt F) → (⟨S2x8192x16x16x4, .f32⟩ : BufTy).Contents (Elt F) → (⟨S2x8192x16x16x4, .f32⟩ : BufTy).Contents (Elt F)),
    nullary main_cst_3 (constant S_ .f32 0x40C90FDB#32),
    unary main_cst_3 main_v13 (broadcastInDim S2x8192x1x1x4 ![] bcast_S_S2x8192x1x1x4 : (⟨S_, .f32⟩ : BufTy).Contents (Elt F) → (⟨S2x8192x1x1x4, .f32⟩ : BufTy).Contents (Elt F)),
    binary main_v13 main_v0 main_v14 (mulf : (⟨S2x8192x1x1x4, .f32⟩ : BufTy).Contents (Elt F) → (⟨S2x8192x1x1x4, .f32⟩ : BufTy).Contents (Elt F) → (⟨S2x8192x1x1x4, .f32⟩ : BufTy).Contents (Elt F)),
    unary main_v14 main_v15 (Host.sin : (⟨S2x8192x1x1x4, .f32⟩ : BufTy).Contents (Elt F) → (⟨S2x8192x1x1x4, .f32⟩ : BufTy).Contents (Elt F)),
    nullary main_cst_4 (constant S_ .f32 0x40C90FDB#32),
    unary main_cst_4 main_v16 (broadcastInDim S2x8192x1x1x4 ![] bcast_S_S2x8192x1x1x4 : (⟨S_, .f32⟩ : BufTy).Contents (Elt F) → (⟨S2x8192x1x1x4, .f32⟩ : BufTy).Contents (Elt F)),
    binary main_v15 main_v16 main_v17 (Host.divf : (⟨S2x8192x1x1x4, .f32⟩ : BufTy).Contents (Elt F) → (⟨S2x8192x1x1x4, .f32⟩ : BufTy).Contents (Elt F) → (⟨S2x8192x1x1x4, .f32⟩ : BufTy).Contents (Elt F)),
    binary main_v0 main_v17 main_v18 (subf : (⟨S2x8192x1x1x4, .f32⟩ : BufTy).Contents (Elt F) → (⟨S2x8192x1x1x4, .f32⟩ : BufTy).Contents (Elt F) → (⟨S2x8192x1x1x4, .f32⟩ : BufTy).Contents (Elt F)),
    nullary main_cst_5 (constant S_ .f32 0x40C90FDB#32),
    unary main_cst_5 main_v19 (broadcastInDim S2x8192x1x1x4 ![] bcast_S_S2x8192x1x1x4 : (⟨S_, .f32⟩ : BufTy).Contents (Elt F) → (⟨S2x8192x1x1x4, .f32⟩ : BufTy).Contents (Elt F)),
    binary main_v19 main_v18 main_v20 (mulf : (⟨S2x8192x1x1x4, .f32⟩ : BufTy).Contents (Elt F) → (⟨S2x8192x1x1x4, .f32⟩ : BufTy).Contents (Elt F) → (⟨S2x8192x1x1x4, .f32⟩ : BufTy).Contents (Elt F)),
    unary main_v20 main_v21 (Host.sin : (⟨S2x8192x1x1x4, .f32⟩ : BufTy).Contents (Elt F) → (⟨S2x8192x1x1x4, .f32⟩ : BufTy).Contents (Elt F)),
    nullary main_cst_6 (constant S_ .f32 0x40C90FDB#32),
    unary main_cst_6 main_v22 (broadcastInDim S2x8192x1x1x4 ![] bcast_S_S2x8192x1x1x4 : (⟨S_, .f32⟩ : BufTy).Contents (Elt F) → (⟨S2x8192x1x1x4, .f32⟩ : BufTy).Contents (Elt F)),
    binary main_v21 main_v22 main_v23 (Host.divf : (⟨S2x8192x1x1x4, .f32⟩ : BufTy).Contents (Elt F) → (⟨S2x8192x1x1x4, .f32⟩ : BufTy).Contents (Elt F) → (⟨S2x8192x1x1x4, .f32⟩ : BufTy).Contents (Elt F)),
    binary main_v18 main_v23 main_v24 (subf : (⟨S2x8192x1x1x4, .f32⟩ : BufTy).Contents (Elt F) → (⟨S2x8192x1x1x4, .f32⟩ : BufTy).Contents (Elt F) → (⟨S2x8192x1x1x4, .f32⟩ : BufTy).Contents (Elt F)),
    unary main_v24 main_v25 (broadcastInDim S2x8192x16x16x4 ![0, 1, 2, 3, 4] bcast_S2x8192x1x1x4_S2x8192x16x16x4_0_1_2_3_4 : (⟨S2x8192x1x1x4, .f32⟩ : BufTy).Contents (Elt F) → (⟨S2x8192x16x16x4, .f32⟩ : BufTy).Contents (Elt F)),
    binary main_v12 main_v25 main_v26 (mulf : (⟨S2x8192x16x16x4, .f32⟩ : BufTy).Contents (Elt F) → (⟨S2x8192x16x16x4, .f32⟩ : BufTy).Contents (Elt F) → (⟨S2x8192x16x16x4, .f32⟩ : BufTy).Contents (Elt F)),
    nullary main_cst_7 (constant S_ .f32 0x3F800000#32),
    unary main_cst_7 main_v27 (broadcastInDim S2x8192x16x16x4 ![] bcast_S_S2x8192x16x16x4 : (⟨S_, .f32⟩ : BufTy).Contents (Elt F) → (⟨S2x8192x16x16x4, .f32⟩ : BufTy).Contents (Elt F)),
    binary main_v27 main_v12 main_v28 (subf : (⟨S2x8192x16x16x4, .f32⟩ : BufTy).Contents (Elt F) → (⟨S2x8192x16x16x4, .f32⟩ : BufTy).Contents (Elt F) → (⟨S2x8192x16x16x4, .f32⟩ : BufTy).Contents (Elt F)),
    nullary main_cst_8 (constant S_ .f32 0x3F800000#32),
    unary main_cst_8 main_v29 (broadcastInDim S2x8192x1x1x4 ![] bcast_S_S2x8192x1x1x4 : (⟨S_, .f32⟩ : BufTy).Contents (Elt F) → (⟨S2x8192x1x1x4, .f32⟩ : BufTy).Contents (Elt F)),
    binary main_v29 main_v24 main_v30 (subf : (⟨S2x8192x1x1x4, .f32⟩ : BufTy).Contents (Elt F) → (⟨S2x8192x1x1x4, .f32⟩ : BufTy).Contents (Elt F) → (⟨S2x8192x1x1x4, .f32⟩ : BufTy).Contents (Elt F)),
    unary main_v30 main_v31 (broadcastInDim S2x8192x16x16x4 ![0, 1, 2, 3, 4] bcast_S2x8192x1x1x4_S2x8192x16x16x4_0_1_2_3_4 : (⟨S2x8192x1x1x4, .f32⟩ : BufTy).Contents (Elt F) → (⟨S2x8192x16x16x4, .f32⟩ : BufTy).Contents (Elt F)),
    binary main_v28 main_v31 main_v32 (mulf : (⟨S2x8192x16x16x4, .f32⟩ : BufTy).Contents (Elt F) → (⟨S2x8192x16x16x4, .f32⟩ : BufTy).Contents (Elt F) → (⟨S2x8192x16x16x4, .f32⟩ : BufTy).Contents (Elt F)),
    binary main_v26 main_v32 main_v33 (addf : (⟨S2x8192x16x16x4, .f32⟩ : BufTy).Contents (Elt F) → (⟨S2x8192x16x16x4, .f32⟩ : BufTy).Contents (Elt F) → (⟨S2x8192x16x16x4, .f32⟩ : BufTy).Contents (Elt F)),
    nullary main_cst_9 (constant S_ .f32 0x40C90FDB#32),
    unary main_cst_9 main_v34 (broadcastInDim S2x8192x16x16x4 ![] bcast_S_S2x8192x16x16x4 : (⟨S_, .f32⟩ : BufTy).Contents (Elt F) → (⟨S2x8192x16x16x4, .f32⟩ : BufTy).Contents (Elt F)),
    binary main_v34 main_v33 main_v35 (mulf : (⟨S2x8192x16x16x4, .f32⟩ : BufTy).Contents (Elt F) → (⟨S2x8192x16x16x4, .f32⟩ : BufTy).Contents (Elt F) → (⟨S2x8192x16x16x4, .f32⟩ : BufTy).Contents (Elt F)),
    unary main_v35 main_v36 (Host.sin : (⟨S2x8192x16x16x4, .f32⟩ : BufTy).Contents (Elt F) → (⟨S2x8192x16x16x4, .f32⟩ : BufTy).Contents (Elt F)),
    nullary main_cst_10 (constant S_ .f32 0x40C90FDB#32),
    unary main_cst_10 main_v37 (broadcastInDim S2x8192x16x16x4 ![] bcast_S_S2x8192x16x16x4 : (⟨S_, .f32⟩ : BufTy).Contents (Elt F) → (⟨S2x8192x16x16x4, .f32⟩ : BufTy).Contents (Elt F)),
    binary main_v36 main_v37 main_v38 (Host.divf : (⟨S2x8192x16x16x4, .f32⟩ : BufTy).Contents (Elt F) → (⟨S2x8192x16x16x4, .f32⟩ : BufTy).Contents (Elt F) → (⟨S2x8192x16x16x4, .f32⟩ : BufTy).Contents (Elt F)),
    binary main_v33 main_v38 main_v39 (subf : (⟨S2x8192x16x16x4, .f32⟩ : BufTy).Contents (Elt F) → (⟨S2x8192x16x16x4, .f32⟩ : BufTy).Contents (Elt F) → (⟨S2x8192x16x16x4, .f32⟩ : BufTy).Contents (Elt F)),
    nullary main_cst_11 (constant S_ .f32 0x40C90FDB#32),
    unary main_cst_11 main_v40 (broadcastInDim S2x8192x16x16x4 ![] bcast_S_S2x8192x16x16x4 : (⟨S_, .f32⟩ : BufTy).Contents (Elt F) → (⟨S2x8192x16x16x4, .f32⟩ : BufTy).Contents (Elt F)),
    binary main_v40 main_v39 main_v41 (mulf : (⟨S2x8192x16x16x4, .f32⟩ : BufTy).Contents (Elt F) → (⟨S2x8192x16x16x4, .f32⟩ : BufTy).Contents (Elt F) → (⟨S2x8192x16x16x4, .f32⟩ : BufTy).Contents (Elt F)),
    unary main_v41 main_v42 (Host.sin : (⟨S2x8192x16x16x4, .f32⟩ : BufTy).Contents (Elt F) → (⟨S2x8192x16x16x4, .f32⟩ : BufTy).Contents (Elt F)),
    nullary main_cst_12 (constant S_ .f32 0x40C90FDB#32),
    unary main_cst_12 main_v43 (broadcastInDim S2x8192x16x16x4 ![] bcast_S_S2x8192x16x16x4 : (⟨S_, .f32⟩ : BufTy).Contents (Elt F) → (⟨S2x8192x16x16x4, .f32⟩ : BufTy).Contents (Elt F)),
    binary main_v42 main_v43 main_v44 (Host.divf : (⟨S2x8192x16x16x4, .f32⟩ : BufTy).Contents (Elt F) → (⟨S2x8192x16x16x4, .f32⟩ : BufTy).Contents (Elt F) → (⟨S2x8192x16x16x4, .f32⟩ : BufTy).Contents (Elt F)),
    binary main_v39 main_v44 main_v45 (subf : (⟨S2x8192x16x16x4, .f32⟩ : BufTy).Contents (Elt F) → (⟨S2x8192x16x16x4, .f32⟩ : BufTy).Contents (Elt F) → (⟨S2x8192x16x16x4, .f32⟩ : BufTy).Contents (Elt F)) ]
/-- Operations 61–119: up to the weight (%92). -/
abbrev opsB : List (HloOp τ sig (Elt F)) :=
  [
    unary main_v45 main_v46 ((extractStridedSlice S2x8192x16x16x1 ![0, 0, 0, 0, 0] · slices_S2x8192x16x16x4_S2x8192x16x16x1_0_0_0_0_0) : (⟨S2x8192x16x16x4, .f32⟩ : BufTy).Contents (Elt F) → (⟨S2x8192x16x16x1, .f32⟩ : BufTy).Contents (Elt F)),
    reshape main_v46 main_v47 rfl shapeCasts_S2x8192x16x16x1_S2x8192x16x16,
    unary main_v45 main_v48 ((extractStridedSlice S2x8192x16x16x1 ![0, 0, 0, 0, 1] · slices_S2x8192x16x16x4_S2x8192x16x16x1_0_0_0_0_1) : (⟨S2x8192x16x16x4, .f32⟩ : BufTy).Contents (Elt F) → (⟨S2x8192x16x16x1, .f32⟩ : BufTy).Contents (Elt F)),
    reshape main_v48 main_v49 rfl shapeCasts_S2x8192x16x16x1_S2x8192x16x16,
    nullary main_cst_13 (constant S_ .f32 0x40C90FDB#32),
    unary main_cst_13 main_v50 (broadcastInDim S2x8192x16x16 ![] bcast_S_S2x8192x16x16 : (⟨S_, .f32⟩ : BufTy).Contents (Elt F) → (⟨S2x8192x16x16, .f32⟩ : BufTy).Contents (Elt F)),
    binary main_v50 main_v47 main_v51 (mulf : (⟨S2x8192x16x16, .f32⟩ : BufTy).Contents (Elt F) → (⟨S2x8192x16x16, .f32⟩ : BufTy).Contents (Elt F) → (⟨S2x8192x16x16, .f32⟩ : BufTy).Contents (Elt F)),
    unary main_v51 main_v52 (Host.sin : (⟨S2x8192x16x16, .f32⟩ : BufTy).Contents (Elt F) → (⟨S2x8192x16x16, .f32⟩ : BufTy).Contents (Elt F)),
    nullary main_cst_14 (constant S_ .f32 0x40C90FDB#32),
    unary main_cst_14 main_v53 (broadcastInDim S2x8192x16x16 ![] bcast_S_S2x8192x16x16 : (⟨S_, .f32⟩ : BufTy).Contents (Elt F) → (⟨S2x8192x16x16, .f32⟩ : BufTy).Contents (Elt F)),
    binary main_v52 main_v53 main_v54 (Host.divf : (⟨S2x8192x16x16, .f32⟩ : BufTy).Contents (Elt F) → (⟨S2x8192x16x16, .f32⟩ : BufTy).Contents (Elt F) → (⟨S2x8192x16x16, .f32⟩ : BufTy).Contents (Elt F)),
    binary main_v47 main_v54 main_v55 (subf : (⟨S2x8192x16x16, .f32⟩ : BufTy).Contents (Elt F) → (⟨S2x8192x16x16, .f32⟩ : BufTy).Contents (Elt F) → (⟨S2x8192x16x16, .f32⟩ : BufTy).Contents (Elt F)),
    nullary main_cst_15 (constant S_ .f32 0x40C90FDB#32),
    unary main_cst_15 main_v56 (broadcastInDim S2x8192x16x16 ![] bcast_S_S2x8192x16x16 : (⟨S_, .f32⟩ : BufTy).Contents (Elt F) → (⟨S2x8192x16x16, .f32⟩ : BufTy).Contents (Elt F)),
    binary main_v56 main_v49 main_v57 (mulf : (⟨S2x8192x16x16, .f32⟩ : BufTy).Contents (Elt F) → (⟨S2x8192x16x16, .f32⟩ : BufTy).Contents (Elt F) → (⟨S2x8192x16x16, .f32⟩ : BufTy).Contents (Elt F)),
    unary main_v57 main_v58 (Host.sin : (⟨S2x8192x16x16, .f32⟩ : BufTy).Contents (Elt F) → (⟨S2x8192x16x16, .f32⟩ : BufTy).Contents (Elt F)),
    nullary main_cst_16 (constant S_ .f32 0x40C90FDB#32),
    unary main_cst_16 main_v59 (broadcastInDim S2x8192x16x16 ![] bcast_S_S2x8192x16x16 : (⟨S_, .f32⟩ : BufTy).Contents (Elt F) → (⟨S2x8192x16x16, .f32⟩ : BufTy).Contents (Elt F)),
    binary main_v58 main_v59 main_v60 (Host.divf : (⟨S2x8192x16x16, .f32⟩ : BufTy).Contents (Elt F) → (⟨S2x8192x16x16, .f32⟩ : BufTy).Contents (Elt F) → (⟨S2x8192x16x16, .f32⟩ : BufTy).Contents (Elt F)),
    binary main_v49 main_v60 main_v61 (subf : (⟨S2x8192x16x16, .f32⟩ : BufTy).Contents (Elt F) → (⟨S2x8192x16x16, .f32⟩ : BufTy).Contents (Elt F) → (⟨S2x8192x16x16, .f32⟩ : BufTy).Contents (Elt F)),
    binary main_v55 main_v61 main_v62 (mulf : (⟨S2x8192x16x16, .f32⟩ : BufTy).Contents (Elt F) → (⟨S2x8192x16x16, .f32⟩ : BufTy).Contents (Elt F) → (⟨S2x8192x16x16, .f32⟩ : BufTy).Contents (Elt F)),
    unary main_v45 main_v63 ((extractStridedSlice S2x8192x16x16x1 ![0, 0, 0, 0, 2] · slices_S2x8192x16x16x4_S2x8192x16x16x1_0_0_0_0_2) : (⟨S2x8192x16x16x4, .f32⟩ : BufTy).Contents (Elt F) → (⟨S2x8192x16x16x1, .f32⟩ : BufTy).Contents (Elt F)),
    reshape main_v63 main_v64 rfl shapeCasts_S2x8192x16x16x1_S2x8192x16x16,
    unary main_v45 main_v65 ((extractStridedSlice S2x8192x16x16x1 ![0, 0, 0, 0, 3] · slices_S2x8192x16x16x4_S2x8192x16x16x1_0_0_0_0_3) : (⟨S2x8192x16x16x4, .f32⟩ : BufTy).Contents (Elt F) → (⟨S2x8192x16x16x1, .f32⟩ : BufTy).Contents (Elt F)),
    reshape main_v65 main_v66 rfl shapeCasts_S2x8192x16x16x1_S2x8192x16x16,
    nullary main_cst_17 (constant S_ .f32 0x40C90FDB#32),
    unary main_cst_17 main_v67 (broadcastInDim S2x8192x16x16 ![] bcast_S_S2x8192x16x16 : (⟨S_, .f32⟩ : BufTy).Contents (Elt F) → (⟨S2x8192x16x16, .f32⟩ : BufTy).Contents (Elt F)),
    binary main_v67 main_v64 main_v68 (mulf : (⟨S2x8192x16x16, .f32⟩ : BufTy).Contents (Elt F) → (⟨S2x8192x16x16, .f32⟩ : BufTy).Contents (Elt F) → (⟨S2x8192x16x16, .f32⟩ : BufTy).Contents (Elt F)),
    unary main_v68 main_v69 (Host.sin : (⟨S2x8192x16x16, .f32⟩ : BufTy).Contents (Elt F) → (⟨S2x8192x16x16, .f32⟩ : BufTy).Contents (Elt F)),
    nullary main_cst_18 (constant S_ .f32 0x40C90FDB#32),
    unary main_cst_18 main_v70 (broadcastInDim S2x8192x16x16 ![] bcast_S_S2x8192x16x16 : (⟨S_, .f32⟩ : BufTy).Contents (Elt F) → (⟨S2x8192x16x16, .f32⟩ : BufTy).Contents (Elt F)),
    binary main_v69 main_v70 main_v71 (Host.divf : (⟨S2x8192x16x16, .f32⟩ : BufTy).Contents (Elt F) → (⟨S2x8192x16x16, .f32⟩ : BufTy).Contents (Elt F) → (⟨S2x8192x16x16, .f32⟩ : BufTy).Contents (Elt F)),
    binary main_v64 main_v71 main_v72 (subf : (⟨S2x8192x16x16, .f32⟩ : BufTy).Contents (Elt F) → (⟨S2x8192x16x16, .f32⟩ : BufTy).Contents (Elt F) → (⟨S2x8192x16x16, .f32⟩ : BufTy).Contents (Elt F)),
    nullary main_cst_19 (constant S_ .f32 0x40C90FDB#32),
    unary main_cst_19 main_v73 (broadcastInDim S2x8192x16x16 ![] bcast_S_S2x8192x16x16 : (⟨S_, .f32⟩ : BufTy).Contents (Elt F) → (⟨S2x8192x16x16, .f32⟩ : BufTy).Contents (Elt F)),
    binary main_v73 main_v66 main_v74 (mulf : (⟨S2x8192x16x16, .f32⟩ : BufTy).Contents (Elt F) → (⟨S2x8192x16x16, .f32⟩ : BufTy).Contents (Elt F) → (⟨S2x8192x16x16, .f32⟩ : BufTy).Contents (Elt F)),
    unary main_v74 main_v75 (Host.sin : (⟨S2x8192x16x16, .f32⟩ : BufTy).Contents (Elt F) → (⟨S2x8192x16x16, .f32⟩ : BufTy).Contents (Elt F)),
    nullary main_cst_20 (constant S_ .f32 0x40C90FDB#32),
    unary main_cst_20 main_v76 (broadcastInDim S2x8192x16x16 ![] bcast_S_S2x8192x16x16 : (⟨S_, .f32⟩ : BufTy).Contents (Elt F) → (⟨S2x8192x16x16, .f32⟩ : BufTy).Contents (Elt F)),
    binary main_v75 main_v76 main_v77 (Host.divf : (⟨S2x8192x16x16, .f32⟩ : BufTy).Contents (Elt F) → (⟨S2x8192x16x16, .f32⟩ : BufTy).Contents (Elt F) → (⟨S2x8192x16x16, .f32⟩ : BufTy).Contents (Elt F)),
    binary main_v66 main_v77 main_v78 (subf : (⟨S2x8192x16x16, .f32⟩ : BufTy).Contents (Elt F) → (⟨S2x8192x16x16, .f32⟩ : BufTy).Contents (Elt F) → (⟨S2x8192x16x16, .f32⟩ : BufTy).Contents (Elt F)),
    binary main_v72 main_v78 main_v79 (mulf : (⟨S2x8192x16x16, .f32⟩ : BufTy).Contents (Elt F) → (⟨S2x8192x16x16, .f32⟩ : BufTy).Contents (Elt F) → (⟨S2x8192x16x16, .f32⟩ : BufTy).Contents (Elt F)),
    nullary main_cst_21 (constant S_ .f32 0x40C90FDB#32),
    unary main_cst_21 main_v80 (broadcastInDim S2x8192x16x16 ![] bcast_S_S2x8192x16x16 : (⟨S_, .f32⟩ : BufTy).Contents (Elt F) → (⟨S2x8192x16x16, .f32⟩ : BufTy).Contents (Elt F)),
    binary main_v80 main_v62 main_v81 (mulf : (⟨S2x8192x16x16, .f32⟩ : BufTy).Contents (Elt F) → (⟨S2x8192x16x16, .f32⟩ : BufTy).Contents (Elt F) → (⟨S2x8192x16x16, .f32⟩ : BufTy).Contents (Elt F)),
    unary main_v81 main_v82 (Host.sin : (⟨S2x8192x16x16, .f32⟩ : BufTy).Contents (Elt F) → (⟨S2x8192x16x16, .f32⟩ : BufTy).Contents (Elt F)),
    nullary main_cst_22 (constant S_ .f32 0x40C90FDB#32),
    unary main_cst_22 main_v83 (broadcastInDim S2x8192x16x16 ![] bcast_S_S2x8192x16x16 : (⟨S_, .f32⟩ : BufTy).Contents (Elt F) → (⟨S2x8192x16x16, .f32⟩ : BufTy).Contents (Elt F)),
    binary main_v82 main_v83 main_v84 (Host.divf : (⟨S2x8192x16x16, .f32⟩ : BufTy).Contents (Elt F) → (⟨S2x8192x16x16, .f32⟩ : BufTy).Contents (Elt F) → (⟨S2x8192x16x16, .f32⟩ : BufTy).Contents (Elt F)),
    binary main_v62 main_v84 main_v85 (subf : (⟨S2x8192x16x16, .f32⟩ : BufTy).Contents (Elt F) → (⟨S2x8192x16x16, .f32⟩ : BufTy).Contents (Elt F) → (⟨S2x8192x16x16, .f32⟩ : BufTy).Contents (Elt F)),
    nullary main_cst_23 (constant S_ .f32 0x40C90FDB#32),
    unary main_cst_23 main_v86 (broadcastInDim S2x8192x16x16 ![] bcast_S_S2x8192x16x16 : (⟨S_, .f32⟩ : BufTy).Contents (Elt F) → (⟨S2x8192x16x16, .f32⟩ : BufTy).Contents (Elt F)),
    binary main_v86 main_v79 main_v87 (mulf : (⟨S2x8192x16x16, .f32⟩ : BufTy).Contents (Elt F) → (⟨S2x8192x16x16, .f32⟩ : BufTy).Contents (Elt F) → (⟨S2x8192x16x16, .f32⟩ : BufTy).Contents (Elt F)),
    unary main_v87 main_v88 (Host.sin : (⟨S2x8192x16x16, .f32⟩ : BufTy).Contents (Elt F) → (⟨S2x8192x16x16, .f32⟩ : BufTy).Contents (Elt F)),
    nullary main_cst_24 (constant S_ .f32 0x40C90FDB#32),
    unary main_cst_24 main_v89 (broadcastInDim S2x8192x16x16 ![] bcast_S_S2x8192x16x16 : (⟨S_, .f32⟩ : BufTy).Contents (Elt F) → (⟨S2x8192x16x16, .f32⟩ : BufTy).Contents (Elt F)),
    binary main_v88 main_v89 main_v90 (Host.divf : (⟨S2x8192x16x16, .f32⟩ : BufTy).Contents (Elt F) → (⟨S2x8192x16x16, .f32⟩ : BufTy).Contents (Elt F) → (⟨S2x8192x16x16, .f32⟩ : BufTy).Contents (Elt F)),
    binary main_v79 main_v90 main_v91 (subf : (⟨S2x8192x16x16, .f32⟩ : BufTy).Contents (Elt F) → (⟨S2x8192x16x16, .f32⟩ : BufTy).Contents (Elt F) → (⟨S2x8192x16x16, .f32⟩ : BufTy).Contents (Elt F)),
    binary main_v85 main_v91 main_v92 (mulf : (⟨S2x8192x16x16, .f32⟩ : BufTy).Contents (Elt F) → (⟨S2x8192x16x16, .f32⟩ : BufTy).Contents (Elt F) → (⟨S2x8192x16x16, .f32⟩ : BufTy).Contents (Elt F)) ]
/-- Operations 120–177: up to the masked edges (%133). -/
abbrev opsC : List (HloOp τ sig (Elt F)) :=
  [
    unary main_v92 main_v93 ((extractStridedSlice S2x8192x15x16 ![0, 0, 1, 0] · slices_S2x8192x16x16_S2x8192x15x16_0_0_1_0) : (⟨S2x8192x16x16, .f32⟩ : BufTy).Contents (Elt F) → (⟨S2x8192x15x16, .f32⟩ : BufTy).Contents (Elt F)),
    nullary main_c (constantI S_ 32 0#32),
    TRef.unary (TRef.of (T := ⟨S_, .i32⟩) main_c) (TRef.of (T := ⟨S_, .f32⟩) main_call0_v0) (sitofp .f32),
    TRef.binary (TRef.of (T := ⟨S2x8192x15x16, .f32⟩) main_v93) (TRef.of (T := ⟨S_, .f32⟩) main_call0_v0) (TRef.of (T := ⟨S2x8192x16x16, .f32⟩) main_v94) (fun x v => pad S2x8192x16x16 ![0, 0, 0, 0] ![0, 0, 1, 0] ![0, 0, 0, 0] x v pads_S2x8192x15x16_S2x8192x16x16_000_000_010_000 h_S_),
    unary main_v92 main_v95 ((extractStridedSlice S2x8192x15x16 ![0, 0, 0, 0] · slices_S2x8192x16x16_S2x8192x15x16_0_0_0_0) : (⟨S2x8192x16x16, .f32⟩ : BufTy).Contents (Elt F) → (⟨S2x8192x15x16, .f32⟩ : BufTy).Contents (Elt F)),
    nullary main_c_25 (constantI S_ 32 0#32),
    TRef.unary (TRef.of (T := ⟨S_, .i32⟩) main_c_25) (TRef.of (T := ⟨S_, .f32⟩) main_call1_v0) (sitofp .f32),
    TRef.binary (TRef.of (T := ⟨S2x8192x15x16, .f32⟩) main_v95) (TRef.of (T := ⟨S_, .f32⟩) main_call1_v0) (TRef.of (T := ⟨S2x8192x16x16, .f32⟩) main_v96) (fun x v => pad S2x8192x16x16 ![0, 0, 1, 0] ![0, 0, 0, 0] ![0, 0, 0, 0] x v pads_S2x8192x15x16_S2x8192x16x16_000_000_100_000 h_S_),
    unary main_v92 main_v97 ((extractStridedSlice S2x8192x16x15 ![0, 0, 0, 1] · slices_S2x8192x16x16_S2x8192x16x15_0_0_0_1) : (⟨S2x8192x16x16, .f32⟩ : BufTy).Contents (Elt F) → (⟨S2x8192x16x15, .f32⟩ : BufTy).Contents (Elt F)),
    nullary main_c_26 (constantI S_ 32 0#32),
    TRef.unary (TRef.of (T := ⟨S_, .i32⟩) main_c_26) (TRef.of (T := ⟨S_, .f32⟩) main_call2_v0) (sitofp .f32),
    TRef.binary (TRef.of (T := ⟨S2x8192x16x15, .f32⟩) main_v97) (TRef.of (T := ⟨S_, .f32⟩) main_call2_v0) (TRef.of (T := ⟨S2x8192x16x16, .f32⟩) main_v98) (fun x v => pad S2x8192x16x16 ![0, 0, 0, 0] ![0, 0, 0, 1] ![0, 0, 0, 0] x v pads_S2x8192x16x15_S2x8192x16x16_000_000_000_010 h_S_),
    unary main_v92 main_v99 ((extractStridedSlice S2x8192x16x15 ![0, 0, 0, 0] · slices_S2x8192x16x16_S2x8192x16x15_0_0_0_0) : (⟨S2x8192x16x16, .f32⟩ : BufTy).Contents (Elt F) → (⟨S2x8192x16x15, .f32⟩ : BufTy).Contents (Elt F)),
    nullary main_c_27 (constantI S_ 32 0#32),
    TRef.unary (TRef.of (T := ⟨S_, .i32⟩) main_c_27) (TRef.of (T := ⟨S_, .f32⟩) main_call3_v0) (sitofp .f32),
    TRef.binary (TRef.of (T := ⟨S2x8192x16x15, .f32⟩) main_v99) (TRef.of (T := ⟨S_, .f32⟩) main_call3_v0) (TRef.of (T := ⟨S2x8192x16x16, .f32⟩) main_v100) (fun x v => pad S2x8192x16x16 ![0, 0, 0, 1] ![0, 0, 0, 0] ![0, 0, 0, 0] x v pads_S2x8192x16x15_S2x8192x16x16_000_000_000_100 h_S_),
    binary main_v94 main_v96 main_v101 (mulf : (⟨S2x8192x16x16, .f32⟩ : BufTy).Contents (Elt F) → (⟨S2x8192x16x16, .f32⟩ : BufTy).Contents (Elt F) → (⟨S2x8192x16x16, .f32⟩ : BufTy).Contents (Elt F)),
    nullary main_cst_28 (constant S_ .f32 0x3F800000#32),
    unary main_cst_28 main_v102 (broadcastInDim S2x8192x16x16 ![] bcast_S_S2x8192x16x16 : (⟨S_, .f32⟩ : BufTy).Contents (Elt F) → (⟨S2x8192x16x16, .f32⟩ : BufTy).Contents (Elt F)),
    binary main_v102 main_v94 main_v103 (subf : (⟨S2x8192x16x16, .f32⟩ : BufTy).Contents (Elt F) → (⟨S2x8192x16x16, .f32⟩ : BufTy).Contents (Elt F) → (⟨S2x8192x16x16, .f32⟩ : BufTy).Contents (Elt F)),
    nullary main_cst_29 (constant S_ .f32 0x3F800000#32),
    unary main_cst_29 main_v104 (broadcastInDim S2x8192x16x16 ![] bcast_S_S2x8192x16x16 : (⟨S_, .f32⟩ : BufTy).Contents (Elt F) → (⟨S2x8192x16x16, .f32⟩ : BufTy).Contents (Elt F)),
    binary main_v104 main_v96 main_v105 (subf : (⟨S2x8192x16x16, .f32⟩ : BufTy).Contents (Elt F) → (⟨S2x8192x16x16, .f32⟩ : BufTy).Contents (Elt F) → (⟨S2x8192x16x16, .f32⟩ : BufTy).Contents (Elt F)),
    binary main_v103 main_v105 main_v106 (mulf : (⟨S2x8192x16x16, .f32⟩ : BufTy).Contents (Elt F) → (⟨S2x8192x16x16, .f32⟩ : BufTy).Contents (Elt F) → (⟨S2x8192x16x16, .f32⟩ : BufTy).Contents (Elt F)),
    binary main_v101 main_v106 main_v107 (addf : (⟨S2x8192x16x16, .f32⟩ : BufTy).Contents (Elt F) → (⟨S2x8192x16x16, .f32⟩ : BufTy).Contents (Elt F) → (⟨S2x8192x16x16, .f32⟩ : BufTy).Contents (Elt F)),
    nullary main_cst_30 (constant S_ .f32 0x3F800000#32),
    unary main_cst_30 main_v108 (broadcastInDim S2x8192x16x16 ![] bcast_S_S2x8192x16x16 : (⟨S_, .f32⟩ : BufTy).Contents (Elt F) → (⟨S2x8192x16x16, .f32⟩ : BufTy).Contents (Elt F)),
    binary main_v108 main_v107 main_v109 (subf : (⟨S2x8192x16x16, .f32⟩ : BufTy).Contents (Elt F) → (⟨S2x8192x16x16, .f32⟩ : BufTy).Contents (Elt F) → (⟨S2x8192x16x16, .f32⟩ : BufTy).Contents (Elt F)),
    binary main_v98 main_v100 main_v110 (mulf : (⟨S2x8192x16x16, .f32⟩ : BufTy).Contents (Elt F) → (⟨S2x8192x16x16, .f32⟩ : BufTy).Contents (Elt F) → (⟨S2x8192x16x16, .f32⟩ : BufTy).Contents (Elt F)),
    nullary main_cst_31 (constant S_ .f32 0x3F800000#32),
    unary main_cst_31 main_v111 (broadcastInDim S2x8192x16x16 ![] bcast_S_S2x8192x16x16 : (⟨S_, .f32⟩ : BufTy).Contents (Elt F) → (⟨S2x8192x16x16, .f32⟩ : BufTy).Contents (Elt F)),
    binary main_v111 main_v98 main_v112 (subf : (⟨S2x8192x16x16, .f32⟩ : BufTy).Contents (Elt F) → (⟨S2x8192x16x16, .f32⟩ : BufTy).Contents (Elt F) → (⟨S2x8192x16x16, .f32⟩ : BufTy).Contents (Elt F)),
    nullary main_cst_32 (constant S_ .f32 0x3F800000#32),
    unary main_cst_32 main_v113 (broadcastInDim S2x8192x16x16 ![] bcast_S_S2x8192x16x16 : (⟨S_, .f32⟩ : BufTy).Contents (Elt F) → (⟨S2x8192x16x16, .f32⟩ : BufTy).Contents (Elt F)),
    binary main_v113 main_v100 main_v114 (subf : (⟨S2x8192x16x16, .f32⟩ : BufTy).Contents (Elt F) → (⟨S2x8192x16x16, .f32⟩ : BufTy).Contents (Elt F) → (⟨S2x8192x16x16, .f32⟩ : BufTy).Contents (Elt F)),
    binary main_v112 main_v114 main_v115 (mulf : (⟨S2x8192x16x16, .f32⟩ : BufTy).Contents (Elt F) → (⟨S2x8192x16x16, .f32⟩ : BufTy).Contents (Elt F) → (⟨S2x8192x16x16, .f32⟩ : BufTy).Contents (Elt F)),
    binary main_v110 main_v115 main_v116 (addf : (⟨S2x8192x16x16, .f32⟩ : BufTy).Contents (Elt F) → (⟨S2x8192x16x16, .f32⟩ : BufTy).Contents (Elt F) → (⟨S2x8192x16x16, .f32⟩ : BufTy).Contents (Elt F)),
    nullary main_cst_33 (constant S_ .f32 0x3F800000#32),
    unary main_cst_33 main_v117 (broadcastInDim S2x8192x16x16 ![] bcast_S_S2x8192x16x16 : (⟨S_, .f32⟩ : BufTy).Contents (Elt F) → (⟨S2x8192x16x16, .f32⟩ : BufTy).Contents (Elt F)),
    binary main_v117 main_v116 main_v118 (subf : (⟨S2x8192x16x16, .f32⟩ : BufTy).Contents (Elt F) → (⟨S2x8192x16x16, .f32⟩ : BufTy).Contents (Elt F) → (⟨S2x8192x16x16, .f32⟩ : BufTy).Contents (Elt F)),
    binary main_v109 main_v92 main_v119 (mulf : (⟨S2x8192x16x16, .f32⟩ : BufTy).Contents (Elt F) → (⟨S2x8192x16x16, .f32⟩ : BufTy).Contents (Elt F) → (⟨S2x8192x16x16, .f32⟩ : BufTy).Contents (Elt F)),
    binary main_v118 main_v92 main_v120 (mulf : (⟨S2x8192x16x16, .f32⟩ : BufTy).Contents (Elt F) → (⟨S2x8192x16x16, .f32⟩ : BufTy).Contents (Elt F) → (⟨S2x8192x16x16, .f32⟩ : BufTy).Contents (Elt F)),
    binary main_v119 main_v120 main_v121 (mulf : (⟨S2x8192x16x16, .f32⟩ : BufTy).Contents (Elt F) → (⟨S2x8192x16x16, .f32⟩ : BufTy).Contents (Elt F) → (⟨S2x8192x16x16, .f32⟩ : BufTy).Contents (Elt F)),
    nullary main_cst_34 (constant S_ .f32 0x3F800000#32),
    unary main_cst_34 main_v122 (broadcastInDim S2x8192x16x16 ![] bcast_S_S2x8192x16x16 : (⟨S_, .f32⟩ : BufTy).Contents (Elt F) → (⟨S2x8192x16x16, .f32⟩ : BufTy).Contents (Elt F)),
    binary main_v122 main_v119 main_v123 (subf : (⟨S2x8192x16x16, .f32⟩ : BufTy).Contents (Elt F) → (⟨S2x8192x16x16, .f32⟩ : BufTy).Contents (Elt F) → (⟨S2x8192x16x16, .f32⟩ : BufTy).Contents (Elt F)),
    binary main_v123 main_v119 main_v124 (mulf : (⟨S2x8192x16x16, .f32⟩ : BufTy).Contents (Elt F) → (⟨S2x8192x16x16, .f32⟩ : BufTy).Contents (Elt F) → (⟨S2x8192x16x16, .f32⟩ : BufTy).Contents (Elt F)),
    binary main_v121 main_v124 main_v125 (addf : (⟨S2x8192x16x16, .f32⟩ : BufTy).Contents (Elt F) → (⟨S2x8192x16x16, .f32⟩ : BufTy).Contents (Elt F) → (⟨S2x8192x16x16, .f32⟩ : BufTy).Contents (Elt F)),
    nullary main_cst_35 (constant S_ .f32 0x3F800000#32),
    unary main_cst_35 main_v126 (broadcastInDim S2x8192x16x16 ![] bcast_S_S2x8192x16x16 : (⟨S_, .f32⟩ : BufTy).Contents (Elt F) → (⟨S2x8192x16x16, .f32⟩ : BufTy).Contents (Elt F)),
    binary main_v126 main_v120 main_v127 (subf : (⟨S2x8192x16x16, .f32⟩ : BufTy).Contents (Elt F) → (⟨S2x8192x16x16, .f32⟩ : BufTy).Contents (Elt F) → (⟨S2x8192x16x16, .f32⟩ : BufTy).Contents (Elt F)),
    binary main_v127 main_v119 main_v128 (mulf : (⟨S2x8192x16x16, .f32⟩ : BufTy).Contents (Elt F) → (⟨S2x8192x16x16, .f32⟩ : BufTy).Contents (Elt F) → (⟨S2x8192x16x16, .f32⟩ : BufTy).Contents (Elt F)),
    binary main_v125 main_v128 main_v129 (addf : (⟨S2x8192x16x16, .f32⟩ : BufTy).Contents (Elt F) → (⟨S2x8192x16x16, .f32⟩ : BufTy).Contents (Elt F) → (⟨S2x8192x16x16, .f32⟩ : BufTy).Contents (Elt F)),
    nullary main_cst_36 (constant S_ .f32 0x3F800000#32),
    unary main_cst_36 main_v130 (broadcastInDim S2x8192x16x16 ![] bcast_S_S2x8192x16x16 : (⟨S_, .f32⟩ : BufTy).Contents (Elt F) → (⟨S2x8192x16x16, .f32⟩ : BufTy).Contents (Elt F)),
    binary main_v130 main_v129 main_v131 (subf : (⟨S2x8192x16x16, .f32⟩ : BufTy).Contents (Elt F) → (⟨S2x8192x16x16, .f32⟩ : BufTy).Contents (Elt F) → (⟨S2x8192x16x16, .f32⟩ : BufTy).Contents (Elt F)),
    binary main_v131 main_v92 main_v132 (mulf : (⟨S2x8192x16x16, .f32⟩ : BufTy).Contents (Elt F) → (⟨S2x8192x16x16, .f32⟩ : BufTy).Contents (Elt F) → (⟨S2x8192x16x16, .f32⟩ : BufTy).Contents (Elt F)),
    binary main_v132 main_arg3 main_v133 (mulf : (⟨S2x8192x16x16, .f32⟩ : BufTy).Contents (Elt F) → (⟨S2x8192x16x16, .f32⟩ : BufTy).Contents (Elt F) → (⟨S2x8192x16x16, .f32⟩ : BufTy).Contents (Elt F)) ]
/-- Operations 178–205: the totals and the two results. -/
abbrev opsD : List (HloOp τ sig (Elt F)) :=
  [
    unary main_v92 main_v134 (broadcastInDim S2x8192x16x16x1 ![0, 1, 2, 3] bcast_S2x8192x16x16_S2x8192x16x16x1_0_1_2_3 : (⟨S2x8192x16x16, .f32⟩ : BufTy).Contents (Elt F) → (⟨S2x8192x16x16x1, .f32⟩ : BufTy).Contents (Elt F)),
    binary main_v134 main_arg0 main_v135 (mulf : (⟨S2x8192x16x16x1, .f32⟩ : BufTy).Contents (Elt F) → (⟨S2x8192x16x16x1, .f32⟩ : BufTy).Contents (Elt F) → (⟨S2x8192x16x16x1, .f32⟩ : BufTy).Contents (Elt F)),
    nullary main_cst_37 (constant S_ .f32 0x00000000#32),
    binary main_v133 main_cst_37 main_v136 ((fun x v => Host.reduceAdd x v reducesTo_S2x8192x16x16_S2x8192_d2_3 h_S_) : (⟨S2x8192x16x16, .f32⟩ : BufTy).Contents (Elt F) → (⟨S_, .f32⟩ : BufTy).Contents (Elt F) → (⟨S2x8192, .f32⟩ : BufTy).Contents (Elt F)),
    nullary main_cst_38 (constant S_ .f32 0x43800000#32),
    unary main_cst_38 main_v137 (broadcastInDim S2x8192 ![] bcast_S_S2x8192 : (⟨S_, .f32⟩ : BufTy).Contents (Elt F) → (⟨S2x8192, .f32⟩ : BufTy).Contents (Elt F)),
    binary main_v136 main_v137 main_v138 (Host.divf : (⟨S2x8192, .f32⟩ : BufTy).Contents (Elt F) → (⟨S2x8192, .f32⟩ : BufTy).Contents (Elt F) → (⟨S2x8192, .f32⟩ : BufTy).Contents (Elt F)),
    nullary main_cst_39 (constant S_ .f32 0x00000000#32),
    binary main_v134 main_cst_39 main_v139 ((fun x v => Host.reduceAdd x v reducesTo_S2x8192x16x16x1_S2x8192_d2_3_4 h_S_) : (⟨S2x8192x16x16x1, .f32⟩ : BufTy).Contents (Elt F) → (⟨S_, .f32⟩ : BufTy).Contents (Elt F) → (⟨S2x8192, .f32⟩ : BufTy).Contents (Elt F)),
    nullary main_cst_40 (constant S_ .f32 0x322BCC77#32),
    unary main_cst_40 main_v140 (broadcastInDim S2x8192 ![] bcast_S_S2x8192 : (⟨S_, .f32⟩ : BufTy).Contents (Elt F) → (⟨S2x8192, .f32⟩ : BufTy).Contents (Elt F)),
    binary main_v139 main_v140 main_v141 (addf : (⟨S2x8192, .f32⟩ : BufTy).Contents (Elt F) → (⟨S2x8192, .f32⟩ : BufTy).Contents (Elt F) → (⟨S2x8192, .f32⟩ : BufTy).Contents (Elt F)),
    nullary main_cst_41 (constant S_ .f32 0x00000000#32),
    binary main_v135 main_cst_41 main_v142 ((fun x v => Host.reduceAdd x v reducesTo_S2x8192x16x16x1_S2x8192_d2_3_4 h_S_) : (⟨S2x8192x16x16x1, .f32⟩ : BufTy).Contents (Elt F) → (⟨S_, .f32⟩ : BufTy).Contents (Elt F) → (⟨S2x8192, .f32⟩ : BufTy).Contents (Elt F)),
    binary main_v142 main_v141 main_v143 (Host.divf : (⟨S2x8192, .f32⟩ : BufTy).Contents (Elt F) → (⟨S2x8192, .f32⟩ : BufTy).Contents (Elt F) → (⟨S2x8192, .f32⟩ : BufTy).Contents (Elt F)),
    unary main_v143 main_v144 (broadcastInDim S2x8192x1x1x1 ![0, 1] bcast_S2x8192_S2x8192x1x1x1_0_1 : (⟨S2x8192, .f32⟩ : BufTy).Contents (Elt F) → (⟨S2x8192x1x1x1, .f32⟩ : BufTy).Contents (Elt F)),
    unary main_v144 main_v145 (broadcastInDim S2x8192x16x16x1 ![0, 1, 2, 3, 4] bcast_S2x8192x1x1x1_S2x8192x16x16x1_0_1_2_3_4 : (⟨S2x8192x1x1x1, .f32⟩ : BufTy).Contents (Elt F) → (⟨S2x8192x16x16x1, .f32⟩ : BufTy).Contents (Elt F)),
    binary main_v135 main_v145 main_v146 (subf : (⟨S2x8192x16x16x1, .f32⟩ : BufTy).Contents (Elt F) → (⟨S2x8192x16x16x1, .f32⟩ : BufTy).Contents (Elt F) → (⟨S2x8192x16x16x1, .f32⟩ : BufTy).Contents (Elt F)),
    binary main_v146 main_v134 main_v147 (mulf : (⟨S2x8192x16x16x1, .f32⟩ : BufTy).Contents (Elt F) → (⟨S2x8192x16x16x1, .f32⟩ : BufTy).Contents (Elt F) → (⟨S2x8192x16x16x1, .f32⟩ : BufTy).Contents (Elt F)),
    binary main_v147 main_v147 main_v148 (mulf : (⟨S2x8192x16x16x1, .f32⟩ : BufTy).Contents (Elt F) → (⟨S2x8192x16x16x1, .f32⟩ : BufTy).Contents (Elt F) → (⟨S2x8192x16x16x1, .f32⟩ : BufTy).Contents (Elt F)),
    nullary main_cst_42 (constant S_ .f32 0x00000000#32),
    binary main_v148 main_cst_42 main_v149 ((fun x v => Host.reduceAdd x v reducesTo_S2x8192x16x16x1_S2x8192_d2_3_4 h_S_) : (⟨S2x8192x16x16x1, .f32⟩ : BufTy).Contents (Elt F) → (⟨S_, .f32⟩ : BufTy).Contents (Elt F) → (⟨S2x8192, .f32⟩ : BufTy).Contents (Elt F)),
    binary main_v149 main_v141 main_v150 (Host.divf : (⟨S2x8192, .f32⟩ : BufTy).Contents (Elt F) → (⟨S2x8192, .f32⟩ : BufTy).Contents (Elt F) → (⟨S2x8192, .f32⟩ : BufTy).Contents (Elt F)),
    unary main_v133 main_v151 (broadcastInDim S2x8192x16x16x1 ![0, 1, 2, 3] bcast_S2x8192x16x16_S2x8192x16x16x1_0_1_2_3 : (⟨S2x8192x16x16, .f32⟩ : BufTy).Contents (Elt F) → (⟨S2x8192x16x16x1, .f32⟩ : BufTy).Contents (Elt F)),
    binary main_v150 main_v138 main_v152 (mulf : (⟨S2x8192, .f32⟩ : BufTy).Contents (Elt F) → (⟨S2x8192, .f32⟩ : BufTy).Contents (Elt F) → (⟨S2x8192, .f32⟩ : BufTy).Contents (Elt F)),
    nullary main_cst_43 (constant S_ .f32 0x447A0000#32),
    unary main_cst_43 main_v153 (broadcastInDim S2x8192 ![] bcast_S_S2x8192 : (⟨S_, .f32⟩ : BufTy).Contents (Elt F) → (⟨S2x8192, .f32⟩ : BufTy).Contents (Elt F)),
    binary main_v152 main_v153 main_v154 (mulf : (⟨S2x8192, .f32⟩ : BufTy).Contents (Elt F) → (⟨S2x8192, .f32⟩ : BufTy).Contents (Elt F) → (⟨S2x8192, .f32⟩ : BufTy).Contents (Elt F)) ]

set_option maxRecDepth 8192 in
set_option maxHeartbeats 4000000 in
theorem main_eq (c : Dev nD) : main (F := F) c = seq ops := rfl
theorem scopedRefs_eq : (Finset.univ.filter fun b : Ref sig .tc => b.isScoped) = ∅ := by decide
theorem scopedSems_eq : (Finset.univ.filter fun sm : SemLoc sig => sm.isScoped .tc) = ∅ := by decide
set_option maxRecDepth 8192 in
theorem ops_sub : (ops : List (HloOp τ sig (Elt F))).Forall fun op => op.bufs ⊆ tcRefs τ sig :=
  ⟨unary_bufs_sub .., nullary_bufs_sub .., unary_bufs_sub .., binary_bufs_sub .., unary_bufs_sub .., nullary_bufs_sub .., unary_bufs_sub .., binary_bufs_sub .., binary_bufs_sub .., nullary_bufs_sub .., unary_bufs_sub .., binary_bufs_sub .., unary_bufs_sub .., nullary_bufs_sub .., unary_bufs_sub .., binary_bufs_sub .., binary_bufs_sub .., nullary_bufs_sub .., unary_bufs_sub .., binary_bufs_sub .., unary_bufs_sub .., nullary_bufs_sub .., unary_bufs_sub .., binary_bufs_sub .., binary_bufs_sub .., nullary_bufs_sub .., unary_bufs_sub .., binary_bufs_sub .., unary_bufs_sub .., nullary_bufs_sub .., unary_bufs_sub .., binary_bufs_sub .., binary_bufs_sub .., unary_bufs_sub .., binary_bufs_sub .., nullary_bufs_sub .., unary_bufs_sub .., binary_bufs_sub .., nullary_bufs_sub .., unary_bufs_sub .., binary_bufs_sub .., unary_bufs_sub .., binary_bufs_sub .., binary_bufs_sub .., nullary_bufs_sub .., unary_bufs_sub .., binary_bufs_sub .., unary_bufs_sub .., nullary_bufs_sub .., unary_bufs_sub .., binary_bufs_sub .., binary_bufs_sub .., nullary_bufs_sub .., unary_bufs_sub .., binary_bufs_sub .., unary_bufs_sub .., nullary_bufs_sub .., unary_bufs_sub .., binary_bufs_sub .., binary_bufs_sub .., unary_bufs_sub .., reshape_bufs_sub .., unary_bufs_sub .., reshape_bufs_sub .., nullary_bufs_sub .., unary_bufs_sub .., binary_bufs_sub .., unary_bufs_sub .., nullary_bufs_sub .., unary_bufs_sub .., binary_bufs_sub .., binary_bufs_sub .., nullary_bufs_sub .., unary_bufs_sub .., binary_bufs_sub .., unary_bufs_sub .., nullary_bufs_sub .., unary_bufs_sub .., binary_bufs_sub .., binary_bufs_sub .., binary_bufs_sub .., unary_bufs_sub .., reshape_bufs_sub .., unary_bufs_sub .., reshape_bufs_sub .., nullary_bufs_sub .., unary_bufs_sub .., binary_bufs_sub .., unary_bufs_sub .., nullary_bufs_sub .., unary_bufs_sub .., binary_bufs_sub .., binary_bufs_sub .., nullary_bufs_sub .., unary_bufs_sub .., binary_bufs_sub .., unary_bufs_sub .., nullary_bufs_sub .., unary_bufs_sub .., binary_bufs_sub .., binary_bufs_sub .., binary_bufs_sub .., nullary_bufs_sub .., unary_bufs_sub .., binary_bufs_sub .., unary_bufs_sub .., nullary_bufs_sub .., unary_bufs_sub .., binary_bufs_sub .., binary_bufs_sub .., nullary_bufs_sub .., unary_bufs_sub .., binary_bufs_sub .., unary_bufs_sub .., nullary_bufs_sub .., unary_bufs_sub .., binary_bufs_sub .., binary_bufs_sub .., binary_bufs_sub .., unary_bufs_sub .., nullary_bufs_sub .., unary_bufs_sub .., binary_bufs_sub .., unary_bufs_sub .., nullary_bufs_sub .., unary_bufs_sub .., binary_bufs_sub .., unary_bufs_sub .., nullary_bufs_sub .., unary_bufs_sub .., binary_bufs_sub .., unary_bufs_sub .., nullary_bufs_sub .., unary_bufs_sub .., binary_bufs_sub .., binary_bufs_sub .., nullary_bufs_sub .., unary_bufs_sub .., binary_bufs_sub .., nullary_bufs_sub .., unary_bufs_sub .., binary_bufs_sub .., binary_bufs_sub .., binary_bufs_sub .., nullary_bufs_sub .., unary_bufs_sub .., binary_bufs_sub .., binary_bufs_sub .., nullary_bufs_sub .., unary_bufs_sub .., binary_bufs_sub .., nullary_bufs_sub .., unary_bufs_sub .., binary_bufs_sub .., binary_bufs_sub .., binary_bufs_sub .., nullary_bufs_sub .., unary_bufs_sub .., binary_bufs_sub .., binary_bufs_sub .., binary_bufs_sub .., binary_bufs_sub .., nullary_bufs_sub .., unary_bufs_sub .., binary_bufs_sub .., binary_bufs_sub .., binary_bufs_sub .., nullary_bufs_sub .., unary_bufs_sub .., binary_bufs_sub .., binary_bufs_sub .., binary_bufs_sub .., nullary_bufs_sub .., unary_bufs_sub .., binary_bufs_sub .., binary_bufs_sub .., binary_bufs_sub .., unary_bufs_sub .., binary_bufs_sub .., nullary_bufs_sub .., binary_bufs_sub .., nullary_bufs_sub .., unary_bufs_sub .., binary_bufs_sub .., nullary_bufs_sub .., binary_bufs_sub .., nullary_bufs_sub .., unary_bufs_sub .., binary_bufs_sub .., nullary_bufs_sub .., binary_bufs_sub .., binary_bufs_sub .., unary_bufs_sub .., unary_bufs_sub .., binary_bufs_sub .., binary_bufs_sub .., binary_bufs_sub .., nullary_bufs_sub .., binary_bufs_sub .., binary_bufs_sub .., unary_bufs_sub .., binary_bufs_sub .., nullary_bufs_sub .., unary_bufs_sub .., binary_bufs_sub ..⟩

set_option maxRecDepth 8192 in
theorem ops_split : (ops : List (HloOp τ sig (Elt F))) = opsA ++ (opsB ++ (opsC ++ opsD)) := rfl

/-- The state after two stretches run one after the other. -/
theorem after_app : ∀ (l₁ l₂ : List (HloOp τ sig (Elt F))) (V : Valuation τ sig (Elt F)),
    after (l₁ ++ l₂) V = after l₂ (after l₁ V)
  | [], _, _ => rfl
  | op :: l₁, l₂, V => by rw [List.cons_append, after_cons, after_cons, after_app l₁ l₂]

theorem after_ops (V : Valuation τ sig (Elt F)) :
    after ops V = after opsD (after opsC (after opsB (after opsA V))) := by
  rw [ops_split, after_app, after_app, after_app]

/-! ## What each stretch writes, from any state before it -/

set_option maxHeartbeats 4000000 in
/-- The first stretch leaves the soft equality of the four channels. -/
theorem stageA (W : Valuation τ sig (Elt F)) :
    (after opsA W (Proc.devRef .tc main_v45) : (⟨S2x8192x16x16x4, .f32⟩ : BufTy).Contents (Elt F))
      = val_main_v45 (F := F) (W (Proc.devRef .tc main_arg1)) (W (Proc.devRef .tc main_arg2)) := by
  after_results_simp
  rfl

set_option maxHeartbeats 4000000 in
/-- The second stretch turns it into the weight. -/
theorem stageB (W : Valuation τ sig (Elt F)) (x1 : (⟨S2x8192x16x16x4, .f32⟩ : BufTy).Contents (Elt F)) (x2 : (⟨S2x8192x4, .f32⟩ : BufTy).Contents (Elt F))
    (h45 : (W (Proc.devRef .tc main_v45) : (⟨S2x8192x16x16x4, .f32⟩ : BufTy).Contents (Elt F)) = val_main_v45 (F := F) x1 x2) :
    (after opsB W (Proc.devRef .tc main_v92) : (⟨S2x8192x16x16, .f32⟩ : BufTy).Contents (Elt F)) = val_main_v92 (F := F) x1 x2 := by
  after_results_simp
  rw [h45]
  rfl

set_option maxHeartbeats 4000000 in
/-- The third stretch turns the weight and the edge map into the masked edges. -/
theorem stageC (W : Valuation τ sig (Elt F)) (x1 : (⟨S2x8192x16x16x4, .f32⟩ : BufTy).Contents (Elt F)) (x2 : (⟨S2x8192x4, .f32⟩ : BufTy).Contents (Elt F)) (x3 : (⟨S2x8192x16x16, .f32⟩ : BufTy).Contents (Elt F))
    (h92 : (W (Proc.devRef .tc main_v92) : (⟨S2x8192x16x16, .f32⟩ : BufTy).Contents (Elt F)) = val_main_v92 (F := F) x1 x2)
    (h3 : (W (Proc.devRef .tc main_arg3) : (⟨S2x8192x16x16, .f32⟩ : BufTy).Contents (Elt F)) = x3) :
    (after opsC W (Proc.devRef .tc main_v133) : (⟨S2x8192x16x16, .f32⟩ : BufTy).Contents (Elt F)) = val_main_v133 (F := F) x1 x2 x3 := by
  after_results_simp
  rw [h92, h3]
  rfl

set_option maxHeartbeats 4000000 in
/-- The last stretch gives the first result from the masked edges. -/
theorem stageD0 (W : Valuation τ sig (Elt F)) (x1 : (⟨S2x8192x16x16x4, .f32⟩ : BufTy).Contents (Elt F)) (x2 : (⟨S2x8192x4, .f32⟩ : BufTy).Contents (Elt F)) (x3 : (⟨S2x8192x16x16, .f32⟩ : BufTy).Contents (Elt F))
    (h133 : (W (Proc.devRef .tc main_v133) : (⟨S2x8192x16x16, .f32⟩ : BufTy).Contents (Elt F)) = val_main_v133 (F := F) x1 x2 x3) :
    (after opsD W (Proc.devRef .tc main_v151) : (⟨S2x8192x16x16x1, .f32⟩ : BufTy).Contents (Elt F)) = val_main_v151 (F := F) x1 x2 x3 := by
  after_results_simp
  rw [h133]
  rfl

set_option maxHeartbeats 4000000 in
/-- The last stretch gives the second result from the weight, the masked edges and the image. -/
theorem stageD1 (W : Valuation τ sig (Elt F)) (x0 : (⟨S2x8192x16x16x1, .f32⟩ : BufTy).Contents (Elt F)) (x1 : (⟨S2x8192x16x16x4, .f32⟩ : BufTy).Contents (Elt F)) (x2 : (⟨S2x8192x4, .f32⟩ : BufTy).Contents (Elt F)) (x3 : (⟨S2x8192x16x16, .f32⟩ : BufTy).Contents (Elt F))
    (h92 : (W (Proc.devRef .tc main_v92) : (⟨S2x8192x16x16, .f32⟩ : BufTy).Contents (Elt F)) = val_main_v92 (F := F) x1 x2)
    (h133 : (W (Proc.devRef .tc main_v133) : (⟨S2x8192x16x16, .f32⟩ : BufTy).Contents (Elt F)) = val_main_v133 (F := F) x1 x2 x3)
    (h0 : (W (Proc.devRef .tc main_arg0) : (⟨S2x8192x16x16x1, .f32⟩ : BufTy).Contents (Elt F)) = x0) :
    (after opsD W (Proc.devRef .tc main_v154) : (⟨S2x8192, .f32⟩ : BufTy).Contents (Elt F)) = val_main_v154 (F := F) x0 x1 x2 x3 := by
  after_results_simp
  rw [h92, h133, h0]
  rfl

/-! ## What each stretch keeps -/

theorem keepA0 (W : Valuation τ sig (Elt F)) : after opsA W (Proc.devRef .tc main_arg0) = W (Proc.devRef .tc main_arg0) := by
  after_results_simp
theorem keepA1 (W : Valuation τ sig (Elt F)) : after opsA W (Proc.devRef .tc main_arg1) = W (Proc.devRef .tc main_arg1) := by
  after_results_simp
theorem keepA2 (W : Valuation τ sig (Elt F)) : after opsA W (Proc.devRef .tc main_arg2) = W (Proc.devRef .tc main_arg2) := by
  after_results_simp
theorem keepA3 (W : Valuation τ sig (Elt F)) : after opsA W (Proc.devRef .tc main_arg3) = W (Proc.devRef .tc main_arg3) := by
  after_results_simp
theorem keepB0 (W : Valuation τ sig (Elt F)) : after opsB W (Proc.devRef .tc main_arg0) = W (Proc.devRef .tc main_arg0) := by
  after_results_simp
theorem keepB1 (W : Valuation τ sig (Elt F)) : after opsB W (Proc.devRef .tc main_arg1) = W (Proc.devRef .tc main_arg1) := by
  after_results_simp
theorem keepB2 (W : Valuation τ sig (Elt F)) : after opsB W (Proc.devRef .tc main_arg2) = W (Proc.devRef .tc main_arg2) := by
  after_results_simp
theorem keepB3 (W : Valuation τ sig (Elt F)) : after opsB W (Proc.devRef .tc main_arg3) = W (Proc.devRef .tc main_arg3) := by
  after_results_simp
theorem keepC0 (W : Valuation τ sig (Elt F)) : after opsC W (Proc.devRef .tc main_arg0) = W (Proc.devRef .tc main_arg0) := by
  after_results_simp
theorem keepC1 (W : Valuation τ sig (Elt F)) : after opsC W (Proc.devRef .tc main_arg1) = W (Proc.devRef .tc main_arg1) := by
  after_results_simp
theorem keepC2 (W : Valuation τ sig (Elt F)) : after opsC W (Proc.devRef .tc main_arg2) = W (Proc.devRef .tc main_arg2) := by
  after_results_simp
theorem keepC3 (W : Valuation τ sig (Elt F)) : after opsC W (Proc.devRef .tc main_arg3) = W (Proc.devRef .tc main_arg3) := by
  after_results_simp
theorem keepD0 (W : Valuation τ sig (Elt F)) : after opsD W (Proc.devRef .tc main_arg0) = W (Proc.devRef .tc main_arg0) := by
  after_results_simp
theorem keepD1 (W : Valuation τ sig (Elt F)) : after opsD W (Proc.devRef .tc main_arg1) = W (Proc.devRef .tc main_arg1) := by
  after_results_simp
theorem keepD2 (W : Valuation τ sig (Elt F)) : after opsD W (Proc.devRef .tc main_arg2) = W (Proc.devRef .tc main_arg2) := by
  after_results_simp
theorem keepD3 (W : Valuation τ sig (Elt F)) : after opsD W (Proc.devRef .tc main_arg3) = W (Proc.devRef .tc main_arg3) := by
  after_results_simp

theorem keepC92 (W : Valuation τ sig (Elt F)) : after opsC W (Proc.devRef .tc main_v92) = W (Proc.devRef .tc main_v92) := by
  after_results_simp

/-! ## The two results and the arguments after the whole line -/

theorem res0 (V : Valuation τ sig (Elt F)) :
    (after ops V (Proc.devRef .tc main_v151) : (⟨S2x8192x16x16x1, .f32⟩ : BufTy).Contents (Elt F))
      = val_main_v151 (F := F) (V (Proc.devRef .tc main_arg1)) (V (Proc.devRef .tc main_arg2)) (V (Proc.devRef .tc main_arg3)) := by
  rw [after_ops]
  refine stageD0 _ _ _ _ ?_
  refine stageC _ _ _ _ ?_ ?_
  · exact stageB _ _ _ (stageA V)
  · rw [keepB3, keepA3]

theorem res1 (V : Valuation τ sig (Elt F)) :
    (after ops V (Proc.devRef .tc main_v154) : (⟨S2x8192, .f32⟩ : BufTy).Contents (Elt F))
      = val_main_v154 (F := F) (V (Proc.devRef .tc main_arg0)) (V (Proc.devRef .tc main_arg1)) (V (Proc.devRef .tc main_arg2)) (V (Proc.devRef .tc main_arg3)) := by
  rw [after_ops]
  refine stageD1 _ _ _ _ _ ?_ ?_ ?_
  · rw [keepC92]; exact stageB _ _ _ (stageA V)
  · refine stageC _ _ _ _ ?_ ?_
    · exact stageB _ _ _ (stageA V)
    · rw [keepB3, keepA3]
  · rw [keepC0, keepB0, keepA0]

theorem kept0 (V : Valuation τ sig (Elt F)) : after ops V (Proc.devRef .tc main_arg0) = V (Proc.devRef .tc main_arg0) := by
  rw [after_ops, keepD0, keepC0, keepB0, keepA0]
theorem kept1 (V : Valuation τ sig (Elt F)) : after ops V (Proc.devRef .tc main_arg1) = V (Proc.devRef .tc main_arg1) := by
  rw [after_ops, keepD1, keepC1, keepB1, keepA1]
theorem kept2 (V : Valuation τ sig (Elt F)) : after ops V (Proc.devRef .tc main_arg2) = V (Proc.devRef .tc main_arg2) := by
  rw [after_ops, keepD2, keepC2, keepB2, keepA2]
theorem kept3 (V : Valuation τ sig (Elt F)) : after ops V (Proc.devRef .tc main_arg3) = V (Proc.devRef .tc main_arg3) := by
  rw [after_ops, keepD3, keepC3, keepB3, keepA3]

/-- On every device, from any memory with zero counters: every weakly fair execution of the reference terminates
    with the two results at the stages `val_main_v151` and `val_main_v154` of the arguments, the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v151)
        = val_main_v151 (F := F) (m ((c.tc : Thread nD τ).loc main_arg1)) (m ((c.tc : Thread nD τ).loc main_arg2)) (m ((c.tc : Thread nD τ).loc main_arg3))
      ∧ r.2.mem ((c.tc : Thread nD τ).loc main_v154)
        = val_main_v154 (F := F) (m ((c.tc : Thread nD τ).loc main_arg0)) (m ((c.tc : Thread nD τ).loc main_arg1)) (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c =>
    ⟨(h c main_v151).trans (res0 _), (h c main_v154).trans (res1 _),
     (h c main_arg0).trans (kept0 _), (h c main_arg1).trans (kept1 _), (h c main_arg2).trans (kept2 _), (h c main_arg3).trans (kept3 _)⟩)
    (run_seq scopedRefs_eq scopedSems_eq defs main (fun _ => ops) main_eq (fun _ => ops_sub) m ρ)

end Cert.ReferenceIdeal.Line

end
-- ==== Proof.RefWeight.lean ====
/-
  The reference, first part: the weight of every pixel.

  The reference keeps the areas on two leading axes (2 × 8192) and the four mask channels on
  the last axis. Its first 93 operations compute, pixel by pixel, the soft comparison of
  each channel with the area's identifier and the soft conjunction of the four answers.
  Each soft rounding divides by τ, which is the product with ι = 1/τ (`Cert.Soft.dr_div`).
-/
import proofs.«139546_j7627861917769_2_alg».proof.Proof.RefRead
import proofs.«139546_j7627861917769_2_alg».proof.Proof.Spec
import Idealize.ShloMosaic.Lib.ValueIdx
import Idealize.ShloMosaic.Lib.Pipeline.Value

noncomputable section

namespace Cert.ReferenceIdeal.Tile

open Idealize.ShloMosaic Idealize.ShloMosaic.ValueIdx Cert.ReferenceIdeal Cert.ReferenceIdeal.ReadP

/-- The weights of area (b, a), from the mask array and the identifier array. -/
def areaWeight (x1 : (⟨S2x8192x16x16x4, .f32⟩ : BufTy).Contents (Elt Ideal)) (x2 : (⟨S2x8192x4, .f32⟩ : BufTy).Contents (Elt Ideal)) (b : Fin 2) (a : Fin 8192) : Fin 16 → Fin 16 → EReal :=
  fun i j => Cert.Soft.weight (fun ch => x1 (ix5 b a i j ch)) (fun ch => x2 (ix3 b a ch))

/-! ## The soft roundings

Every soft rounding of the reference is the same six operations: the operand times a splat of τ, its sine, the
quotient by a second splat of τ, and the operand minus that quotient. Read at one index this is
`x − sin(τ·x)/τ`, the soft rounding `Cert.Soft.dr x`. Each lemma below reads one such group at an arbitrary
index `k` and leaves its operand folded. -/

section Stages

variable (x1 : (⟨S2x8192x16x16x4, .f32⟩ : BufTy).Contents (Elt Ideal)) (x2 : (⟨S2x8192x4, .f32⟩ : BufTy).Contents (Elt Ideal))

/-- %1 … %6: the mask, rounded once. -/
private theorem v6_eq (k : S2x8192x16x16x4.Idx) :
    val_main_v6 (F := Ideal) x1 k = Cert.Soft.dr (x1 k) := by
  rw [val_main_v6_apply, val_main_v5_apply, val_main_v3_apply, val_main_v2_apply,
    val_main_v1_apply, val_main_cst_apply, val_main_v4_apply, val_main_cst_0_apply]
  exact Cert.Soft.dr_div _

/-- %7 … %12: the mask, rounded a second time. -/
private theorem v12_eq (k : S2x8192x16x16x4.Idx) :
    val_main_v12 (F := Ideal) x1 k = Cert.Soft.dr (val_main_v6 (F := Ideal) x1 k) := by
  rw [val_main_v12_apply, val_main_v11_apply, val_main_v9_apply, val_main_v8_apply,
    val_main_v7_apply, val_main_cst_1_apply, val_main_v10_apply, val_main_cst_2_apply]
  exact Cert.Soft.dr_div _

/-- %12 is the mask rounded twice. -/
private theorem v12_hdr (k : S2x8192x16x16x4.Idx) :
    val_main_v12 (F := Ideal) x1 k = Cert.Soft.hdr (x1 k) := by
  rw [v12_eq, v6_eq]; rfl

/-- %13 … %18: the identifiers (broadcast to five axes by %0), rounded once. -/
private theorem v18_eq (k : S2x8192x1x1x4.Idx) :
    val_main_v18 (F := Ideal) x2 k = Cert.Soft.dr (val_main_v0 (F := Ideal) x2 k) := by
  rw [val_main_v18_apply, val_main_v17_apply, val_main_v15_apply, val_main_v14_apply,
    val_main_v13_apply, val_main_cst_3_apply, val_main_v16_apply, val_main_cst_4_apply]
  exact Cert.Soft.dr_div _

/-- %19 … %24: the identifiers, rounded a second time. -/
private theorem v24_eq (k : S2x8192x1x1x4.Idx) :
    val_main_v24 (F := Ideal) x2 k = Cert.Soft.dr (val_main_v18 (F := Ideal) x2 k) := by
  rw [val_main_v24_apply, val_main_v23_apply, val_main_v21_apply, val_main_v20_apply,
    val_main_v19_apply, val_main_cst_5_apply, val_main_v22_apply, val_main_cst_6_apply]
  exact Cert.Soft.dr_div _

/-- %24 is the identifier rounded twice; %0 only repeats the identifier array on two unit axes. -/
private theorem v24_hdr (k : S2x8192x1x1x4.Idx) :
    val_main_v24 (F := Ideal) x2 k = Cert.Soft.hdr (x2 (idx_main_v0 k)) := by
  rw [v24_eq, v18_eq, val_main_v0_apply]; rfl

/-! ## The soft equality of a mask channel and its identifier -/

/-- %25 … %33: `hdr m · hdr d + (1 − hdr m)·(1 − hdr d)`, with the identifier side read through the two
    broadcasts %25 and %31 along the tile's axes (they read the same entry). -/
private theorem v33_eq (k : S2x8192x16x16x4.Idx) :
    val_main_v33 (F := Ideal) x1 x2 k
      = Cert.Soft.hdr (x1 k) * Cert.Soft.hdr (x2 (idx_main_v0 (idx_main_v25 k)))
        + (Cert.Soft.one - Cert.Soft.hdr (x1 k)) * (Cert.Soft.one - Cert.Soft.hdr (x2 (idx_main_v0 (idx_main_v25 k)))) := by
  rw [val_main_v33_apply, val_main_v26_apply, val_main_v32_apply, val_main_v28_apply, val_main_v31_apply,
    val_main_v30_apply, val_main_v25_apply, val_main_v27_apply, val_main_cst_7_apply, val_main_v29_apply,
    val_main_cst_8_apply]
  simp only [v12_hdr, v24_hdr]
  rfl

/-- %34 … %39: the unrounded comparison %33, rounded once. -/
private theorem v39_eq (k : S2x8192x16x16x4.Idx) :
    val_main_v39 (F := Ideal) x1 x2 k = Cert.Soft.dr (val_main_v33 (F := Ideal) x1 x2 k) := by
  rw [val_main_v39_apply, val_main_v38_apply, val_main_v36_apply, val_main_v35_apply,
    val_main_v34_apply, val_main_cst_9_apply, val_main_v37_apply, val_main_cst_10_apply]
  exact Cert.Soft.dr_div _

/-- %40 … %45: the comparison, rounded a second time. -/
private theorem v45_eq (k : S2x8192x16x16x4.Idx) :
    val_main_v45 (F := Ideal) x1 x2 k = Cert.Soft.dr (val_main_v39 (F := Ideal) x1 x2 k) := by
  rw [val_main_v45_apply, val_main_v44_apply, val_main_v42_apply, val_main_v41_apply,
    val_main_v40_apply, val_main_cst_11_apply, val_main_v43_apply, val_main_cst_12_apply]
  exact Cert.Soft.dr_div _

/-- %45 is the soft equality of the mask entry and its identifier. -/
private theorem v45_softEq (k : S2x8192x16x16x4.Idx) :
    val_main_v45 (F := Ideal) x1 x2 k = Cert.Soft.softEq (x1 k) (x2 (idx_main_v0 (idx_main_v25 k))) := by
  rw [v45_eq, v39_eq, v33_eq]; rfl

end Stages

/-! ## Indices -/

/-- The identifier that the entry (b, a, i, j, ch) of the mask is compared with is entry (b, a, ch). -/
private theorem idx_ident (b : Fin 2) (a : Fin 8192) (i j : Fin 16) (ch : Fin 4) :
    idx_main_v0 (idx_main_v25 (ix5 b a i j ch)) = ix3 b a ch := by
  funext d
  match d with
  | ⟨0, _⟩ => rfl
  | ⟨1, _⟩ => rfl
  | ⟨2, _⟩ => rfl

/-- Slicing channel 0 and dropping the unit axis: pixel (b, a, i, j) reads entry (b, a, i, j, 0). The reshape
    goes through the row-major position ((b·8192 + a)·16 + i)·16 + j, whose digits are b, a, i, j again. -/
private theorem idx_chan0 (b : Fin 2) (a : Fin 8192) (i j : Fin 16) :
    idx_main_v46 (idx_main_v47 (ix4 b a i j)) = ix5 b a i j (0 : Fin 4) := by
  have hb := b.isLt; have ha := a.isLt; have hi := i.isLt; have hj := j.isLt
  funext d
  match d with
  | ⟨0, _⟩ => exact Fin.ext (by show (((b.val * 8192 + a.val) * 16 + i.val) * 16 + j.val) / 2097152 = b.val; omega)
  | ⟨1, _⟩ => exact Fin.ext (by show (((b.val * 8192 + a.val) * 16 + i.val) * 16 + j.val) / 256 % 8192 = a.val; omega)
  | ⟨2, _⟩ => exact Fin.ext (by show (((b.val * 8192 + a.val) * 16 + i.val) * 16 + j.val) / 16 % 16 = i.val; omega)
  | ⟨3, _⟩ => exact Fin.ext (by show (((b.val * 8192 + a.val) * 16 + i.val) * 16 + j.val) / 1 % 16 = j.val; omega)
  | ⟨4, _⟩ => rfl

/-- The same for channel 1. -/
private theorem idx_chan1 (b : Fin 2) (a : Fin 8192) (i j : Fin 16) :
    idx_main_v48 (idx_main_v49 (ix4 b a i j)) = ix5 b a i j (1 : Fin 4) := by
  have hb := b.isLt; have ha := a.isLt; have hi := i.isLt; have hj := j.isLt
  funext d
  match d with
  | ⟨0, _⟩ => exact Fin.ext (by show (((b.val * 8192 + a.val) * 16 + i.val) * 16 + j.val) / 2097152 = b.val; omega)
  | ⟨1, _⟩ => exact Fin.ext (by show (((b.val * 8192 + a.val) * 16 + i.val) * 16 + j.val) / 256 % 8192 = a.val; omega)
  | ⟨2, _⟩ => exact Fin.ext (by show (((b.val * 8192 + a.val) * 16 + i.val) * 16 + j.val) / 16 % 16 = i.val; omega)
  | ⟨3, _⟩ => exact Fin.ext (by show (((b.val * 8192 + a.val) * 16 + i.val) * 16 + j.val) / 1 % 16 = j.val; omega)
  | ⟨4, _⟩ => rfl

/-- The same for channel 2. -/
private theorem idx_chan2 (b : Fin 2) (a : Fin 8192) (i j : Fin 16) :
    idx_main_v63 (idx_main_v64 (ix4 b a i j)) = ix5 b a i j (2 : Fin 4) := by
  have hb := b.isLt; have ha := a.isLt; have hi := i.isLt; have hj := j.isLt
  funext d
  match d with
  | ⟨0, _⟩ => exact Fin.ext (by show (((b.val * 8192 + a.val) * 16 + i.val) * 16 + j.val) / 2097152 = b.val; omega)
  | ⟨1, _⟩ => exact Fin.ext (by show (((b.val * 8192 + a.val) * 16 + i.val) * 16 + j.val) / 256 % 8192 = a.val; omega)
  | ⟨2, _⟩ => exact Fin.ext (by show (((b.val * 8192 + a.val) * 16 + i.val) * 16 + j.val) / 16 % 16 = i.val; omega)
  | ⟨3, _⟩ => exact Fin.ext (by show (((b.val * 8192 + a.val) * 16 + i.val) * 16 + j.val) / 1 % 16 = j.val; omega)
  | ⟨4, _⟩ => rfl

/-- The same for channel 3. -/
private theorem idx_chan3 (b : Fin 2) (a : Fin 8192) (i j : Fin 16) :
    idx_main_v65 (idx_main_v66 (ix4 b a i j)) = ix5 b a i j (3 : Fin 4) := by
  have hb := b.isLt; have ha := a.isLt; have hi := i.isLt; have hj := j.isLt
  funext d
  match d with
  | ⟨0, _⟩ => exact Fin.ext (by show (((b.val * 8192 + a.val) * 16 + i.val) * 16 + j.val) / 2097152 = b.val; omega)
  | ⟨1, _⟩ => exact Fin.ext (by show (((b.val * 8192 + a.val) * 16 + i.val) * 16 + j.val) / 256 % 8192 = a.val; omega)
  | ⟨2, _⟩ => exact Fin.ext (by show (((b.val * 8192 + a.val) * 16 + i.val) * 16 + j.val) / 16 % 16 = i.val; omega)
  | ⟨3, _⟩ => exact Fin.ext (by show (((b.val * 8192 + a.val) * 16 + i.val) * 16 + j.val) / 1 % 16 = j.val; omega)
  | ⟨4, _⟩ => rfl

/-! ## The four channels, and their soft conjunction -/

section Channels

variable (x1 : (⟨S2x8192x16x16x4, .f32⟩ : BufTy).Contents (Elt Ideal)) (x2 : (⟨S2x8192x4, .f32⟩ : BufTy).Contents (Elt Ideal)) (b : Fin 2) (a : Fin 8192) (i j : Fin 16)

/-- %45 at explicit coordinates: the soft equality of mask entry (b, a, i, j, ch) and identifier (b, a, ch). -/
private theorem v45_at (ch : Fin 4) :
    val_main_v45 (F := Ideal) x1 x2 (ix5 b a i j ch)
      = Cert.Soft.softEq (x1 (ix5 b a i j ch)) (x2 (ix3 b a ch)) := by
  rw [v45_softEq, idx_ident]

/-- %46, %47: channel 0 of the comparison at pixel (i, j) of area (b, a). -/
private theorem v47_at : val_main_v47 (F := Ideal) x1 x2 (ix4 b a i j) = val_main_v45 (F := Ideal) x1 x2 (ix5 b a i j (0 : Fin 4)) := by
  rw [val_main_v47_apply, val_main_v46_apply, idx_chan0]
/-- %48, %49: channel 1. -/
private theorem v49_at : val_main_v49 (F := Ideal) x1 x2 (ix4 b a i j) = val_main_v45 (F := Ideal) x1 x2 (ix5 b a i j (1 : Fin 4)) := by
  rw [val_main_v49_apply, val_main_v48_apply, idx_chan1]
/-- %63, %64: channel 2. -/
private theorem v64_at : val_main_v64 (F := Ideal) x1 x2 (ix4 b a i j) = val_main_v45 (F := Ideal) x1 x2 (ix5 b a i j (2 : Fin 4)) := by
  rw [val_main_v64_apply, val_main_v63_apply, idx_chan2]
/-- %65, %66: channel 3. -/
private theorem v66_at : val_main_v66 (F := Ideal) x1 x2 (ix4 b a i j) = val_main_v45 (F := Ideal) x1 x2 (ix5 b a i j (3 : Fin 4)) := by
  rw [val_main_v66_apply, val_main_v65_apply, idx_chan3]

end Channels

section Conj

variable (x1 : (⟨S2x8192x16x16x4, .f32⟩ : BufTy).Contents (Elt Ideal)) (x2 : (⟨S2x8192x4, .f32⟩ : BufTy).Contents (Elt Ideal))

/-- %50 … %55: channel 0's comparison, rounded. -/
private theorem v55_eq (k : S2x8192x16x16.Idx) :
    val_main_v55 (F := Ideal) x1 x2 k = Cert.Soft.dr (val_main_v47 (F := Ideal) x1 x2 k) := by
  rw [val_main_v55_apply, val_main_v54_apply, val_main_v52_apply, val_main_v51_apply,
    val_main_v50_apply, val_main_cst_13_apply, val_main_v53_apply, val_main_cst_14_apply]
  exact Cert.Soft.dr_div _

/-- %56 … %61: channel 1's comparison, rounded. -/
private theorem v61_eq (k : S2x8192x16x16.Idx) :
    val_main_v61 (F := Ideal) x1 x2 k = Cert.Soft.dr (val_main_v49 (F := Ideal) x1 x2 k) := by
  rw [val_main_v61_apply, val_main_v60_apply, val_main_v58_apply, val_main_v57_apply,
    val_main_v56_apply, val_main_cst_15_apply, val_main_v59_apply, val_main_cst_16_apply]
  exact Cert.Soft.dr_div _

/-- %67 … %72: channel 2's comparison, rounded. -/
private theorem v72_eq (k : S2x8192x16x16.Idx) :
    val_main_v72 (F := Ideal) x1 x2 k = Cert.Soft.dr (val_main_v64 (F := Ideal) x1 x2 k) := by
  rw [val_main_v72_apply, val_main_v71_apply, val_main_v69_apply, val_main_v68_apply,
    val_main_v67_apply, val_main_cst_17_apply, val_main_v70_apply, val_main_cst_18_apply]
  exact Cert.Soft.dr_div _

/-- %73 … %78: channel 3's comparison, rounded. -/
private theorem v78_eq (k : S2x8192x16x16.Idx) :
    val_main_v78 (F := Ideal) x1 x2 k = Cert.Soft.dr (val_main_v66 (F := Ideal) x1 x2 k) := by
  rw [val_main_v78_apply, val_main_v77_apply, val_main_v75_apply, val_main_v74_apply,
    val_main_v73_apply, val_main_cst_19_apply, val_main_v76_apply, val_main_cst_20_apply]
  exact Cert.Soft.dr_div _

/-- %80 … %85: the conjunction of channels 0 and 1, rounded. -/
private theorem v85_eq (k : S2x8192x16x16.Idx) :
    val_main_v85 (F := Ideal) x1 x2 k = Cert.Soft.dr (val_main_v62 (F := Ideal) x1 x2 k) := by
  rw [val_main_v85_apply, val_main_v84_apply, val_main_v82_apply, val_main_v81_apply,
    val_main_v80_apply, val_main_cst_21_apply, val_main_v83_apply, val_main_cst_22_apply]
  exact Cert.Soft.dr_div _

/-- %86 … %91: the conjunction of channels 2 and 3, rounded. -/
private theorem v91_eq (k : S2x8192x16x16.Idx) :
    val_main_v91 (F := Ideal) x1 x2 k = Cert.Soft.dr (val_main_v79 (F := Ideal) x1 x2 k) := by
  rw [val_main_v91_apply, val_main_v90_apply, val_main_v88_apply, val_main_v87_apply,
    val_main_v86_apply, val_main_cst_23_apply, val_main_v89_apply, val_main_cst_24_apply]
  exact Cert.Soft.dr_div _

end Conj

/-- The reference's weight array (its value %92) at pixel (i, j) of area (b, a). -/
theorem weight_apply (x1 : (⟨S2x8192x16x16x4, .f32⟩ : BufTy).Contents (Elt Ideal)) (x2 : (⟨S2x8192x4, .f32⟩ : BufTy).Contents (Elt Ideal)) (b : Fin 2) (a : Fin 8192) (i j : Fin 16) :
    val_main_v92 (F := Ideal) x1 x2 (ix4 b a i j) = areaWeight x1 x2 b a i j := by
  rw [val_main_v92_apply, v85_eq, v91_eq, val_main_v62_apply, val_main_v79_apply, v55_eq, v61_eq, v72_eq, v78_eq,
    v47_at, v49_at, v64_at, v66_at]
  simp only [v45_at]
  rfl

end Cert.ReferenceIdeal.Tile

end
-- ==== Proof.RefEdges.lean ====
/-
  The reference, second part: erosion and the first result.

  The weight array is moved by one row and one column in both directions: a slice that drops
  one line, then a pad that adds one line of the padding value on the other side. Pixel by
  pixel the four moved copies and the weight give the eroded weight; times the edge map it
  is the first result, returned with a trailing axis of length one.
-/
import proofs.«139546_j7627861917769_2_alg».proof.Proof.RefRead
import proofs.«139546_j7627861917769_2_alg».proof.Proof.Spec
import proofs.«139546_j7627861917769_2_alg».proof.Proof.RefWeight
import Idealize.ShloMosaic.Lib.ValueIdx
import Idealize.ShloMosaic.Lib.Pipeline.Value
import Idealize.ShloMosaic.Lib.KernelVsHost

noncomputable section

namespace Cert.ReferenceIdeal.Tile

open Idealize.ShloMosaic Idealize.ShloMosaic.ValueIdx Cert.ReferenceIdeal Cert.ReferenceIdeal.ReadP

/-! ## The four moved copies of the weight

Each is a pad with no interior padding of a slice that drops one line. Inside the operand the
pad reads the slice one line further (or nearer), hence the weight at the neighbouring pixel;
on the one added line it reads the padding value, the integer 0 converted to a float. -/

/-- %94: rows 1 … 15 of the weight, then one row of the padding value: row i shows row i + 1. -/
private theorem rowNext_apply (x1 : (⟨S2x8192x16x16x4, .f32⟩ : BufTy).Contents (Elt Ideal)) (x2 : (⟨S2x8192x4, .f32⟩ : BufTy).Contents (Elt Ideal))
    (b : Fin 2) (a : Fin 8192) (i j : Fin 16) :
    val_main_v94 (F := Ideal) x1 x2 (ix4 b a i j) = Cert.Soft.rowNext (areaWeight x1 x2 b a) i j := by
  unfold val_main_v94 Cert.Soft.rowNext
  by_cases h : i.val + 1 < 16
  · rw [dif_pos h]
    have hi : i.val < 15 := by omega
    have e : idx_main_v93 (ix4 b a (⟨i.val, hi⟩ : Fin 15) j) = ix4 b a (⟨i.val + 1, h⟩ : Fin 16) j :=
      funext fun c => Fin.ext (by
        match c with
        | ⟨0, _⟩ => rfl
        | ⟨1, _⟩ => rfl
        | ⟨2, _⟩ => show 1 + i.val = i.val + 1; omega
        | ⟨3, _⟩ => rfl)
    refine Eq.trans (pad_apply_of_inside _ _ _ _ _ _ _ _ (ix4 b a (⟨i.val, hi⟩ : Fin 15) j) ?_) ?_
    · intro c
      match c with
      | ⟨0, _⟩ => show b.val = 0 + b.val * (0 + 1); omega
      | ⟨1, _⟩ => show a.val = 0 + a.val * (0 + 1); omega
      | ⟨2, _⟩ => show i.val = 0 + i.val * (0 + 1); omega
      | ⟨3, _⟩ => show j.val = 0 + j.val * (0 + 1); omega
    · rw [val_main_v93_apply, e]
      exact weight_apply x1 x2 b a _ j
  · rw [dif_neg h]
    refine Eq.trans (pad_apply_of_not_inside _ _ _ _ _ _ _ _ ⟨2, by decide⟩ ?_) rfl
    intro hin
    have e : i.val / 1 < 15 := hin.2.2
    omega

/-- %96: one row of the padding value, then rows 0 … 14 of the weight: row i shows row i − 1. -/
private theorem rowPrev_apply (x1 : (⟨S2x8192x16x16x4, .f32⟩ : BufTy).Contents (Elt Ideal)) (x2 : (⟨S2x8192x4, .f32⟩ : BufTy).Contents (Elt Ideal))
    (b : Fin 2) (a : Fin 8192) (i j : Fin 16) :
    val_main_v96 (F := Ideal) x1 x2 (ix4 b a i j) = Cert.Soft.rowPrev (areaWeight x1 x2 b a) i j := by
  unfold val_main_v96 Cert.Soft.rowPrev
  by_cases h : 0 < i.val
  · rw [dif_pos h]
    have hi : i.val - 1 < 15 := by omega
    have hi' : i.val - 1 < 16 := by omega
    have e : idx_main_v95 (ix4 b a (⟨i.val - 1, hi⟩ : Fin 15) j) = ix4 b a (⟨i.val - 1, hi'⟩ : Fin 16) j :=
      funext fun c => Fin.ext (by
        match c with
        | ⟨0, _⟩ => rfl
        | ⟨1, _⟩ => rfl
        | ⟨2, _⟩ => rfl
        | ⟨3, _⟩ => rfl)
    refine Eq.trans (pad_apply_of_inside _ _ _ _ _ _ _ _ (ix4 b a (⟨i.val - 1, hi⟩ : Fin 15) j) ?_) ?_
    · intro c
      match c with
      | ⟨0, _⟩ => show b.val = 0 + b.val * (0 + 1); omega
      | ⟨1, _⟩ => show a.val = 0 + a.val * (0 + 1); omega
      | ⟨2, _⟩ => show i.val = 1 + (i.val - 1) * (0 + 1); omega
      | ⟨3, _⟩ => show j.val = 0 + j.val * (0 + 1); omega
    · rw [val_main_v95_apply, e]
      exact weight_apply x1 x2 b a _ j
  · rw [dif_neg h]
    refine Eq.trans (pad_apply_of_not_inside _ _ _ _ _ _ _ _ ⟨2, by decide⟩ ?_) rfl
    intro hin
    have e : 1 ≤ i.val := hin.1
    omega

/-- %98: columns 1 … 15 of the weight, then one column of the padding value: column j shows column j + 1. -/
private theorem colNext_apply (x1 : (⟨S2x8192x16x16x4, .f32⟩ : BufTy).Contents (Elt Ideal)) (x2 : (⟨S2x8192x4, .f32⟩ : BufTy).Contents (Elt Ideal))
    (b : Fin 2) (a : Fin 8192) (i j : Fin 16) :
    val_main_v98 (F := Ideal) x1 x2 (ix4 b a i j) = Cert.Soft.colNext (areaWeight x1 x2 b a) i j := by
  unfold val_main_v98 Cert.Soft.colNext
  by_cases h : j.val + 1 < 16
  · rw [dif_pos h]
    have hj : j.val < 15 := by omega
    have e : idx_main_v97 (ix4 b a i (⟨j.val, hj⟩ : Fin 15)) = ix4 b a i (⟨j.val + 1, h⟩ : Fin 16) :=
      funext fun c => Fin.ext (by
        match c with
        | ⟨0, _⟩ => rfl
        | ⟨1, _⟩ => rfl
        | ⟨2, _⟩ => rfl
        | ⟨3, _⟩ => show 1 + j.val = j.val + 1; omega)
    refine Eq.trans (pad_apply_of_inside _ _ _ _ _ _ _ _ (ix4 b a i (⟨j.val, hj⟩ : Fin 15)) ?_) ?_
    · intro c
      match c with
      | ⟨0, _⟩ => show b.val = 0 + b.val * (0 + 1); omega
      | ⟨1, _⟩ => show a.val = 0 + a.val * (0 + 1); omega
      | ⟨2, _⟩ => show i.val = 0 + i.val * (0 + 1); omega
      | ⟨3, _⟩ => show j.val = 0 + j.val * (0 + 1); omega
    · rw [val_main_v97_apply, e]
      exact weight_apply x1 x2 b a i _
  · rw [dif_neg h]
    refine Eq.trans (pad_apply_of_not_inside _ _ _ _ _ _ _ _ ⟨3, by decide⟩ ?_) rfl
    intro hin
    have e : j.val / 1 < 15 := hin.2.2
    omega

/-- %100: one column of the padding value, then columns 0 … 14 of the weight: column j shows column j − 1. -/
private theorem colPrev_apply (x1 : (⟨S2x8192x16x16x4, .f32⟩ : BufTy).Contents (Elt Ideal)) (x2 : (⟨S2x8192x4, .f32⟩ : BufTy).Contents (Elt Ideal))
    (b : Fin 2) (a : Fin 8192) (i j : Fin 16) :
    val_main_v100 (F := Ideal) x1 x2 (ix4 b a i j) = Cert.Soft.colPrev (areaWeight x1 x2 b a) i j := by
  unfold val_main_v100 Cert.Soft.colPrev
  by_cases h : 0 < j.val
  · rw [dif_pos h]
    have hj : j.val - 1 < 15 := by omega
    have hj' : j.val - 1 < 16 := by omega
    have e : idx_main_v99 (ix4 b a i (⟨j.val - 1, hj⟩ : Fin 15)) = ix4 b a i (⟨j.val - 1, hj'⟩ : Fin 16) :=
      funext fun c => Fin.ext (by
        match c with
        | ⟨0, _⟩ => rfl
        | ⟨1, _⟩ => rfl
        | ⟨2, _⟩ => rfl
        | ⟨3, _⟩ => rfl)
    refine Eq.trans (pad_apply_of_inside _ _ _ _ _ _ _ _ (ix4 b a i (⟨j.val - 1, hj⟩ : Fin 15)) ?_) ?_
    · intro c
      match c with
      | ⟨0, _⟩ => show b.val = 0 + b.val * (0 + 1); omega
      | ⟨1, _⟩ => show a.val = 0 + a.val * (0 + 1); omega
      | ⟨2, _⟩ => show i.val = 0 + i.val * (0 + 1); omega
      | ⟨3, _⟩ => show j.val = 1 + (j.val - 1) * (0 + 1); omega
    · rw [val_main_v99_apply, e]
      exact weight_apply x1 x2 b a i _
  · rw [dif_neg h]
    refine Eq.trans (pad_apply_of_not_inside _ _ _ _ _ _ _ _ ⟨3, by decide⟩ ?_) rfl
    intro hin
    have e : 1 ≤ j.val := hin.1
    omega

/-- The reference's masked edges (its value %133) at pixel (i, j) of area (b, a). -/
theorem edges_apply (x1 : (⟨S2x8192x16x16x4, .f32⟩ : BufTy).Contents (Elt Ideal)) (x2 : (⟨S2x8192x4, .f32⟩ : BufTy).Contents (Elt Ideal)) (x3 : (⟨S2x8192x16x16, .f32⟩ : BufTy).Contents (Elt Ideal))
    (b : Fin 2) (a : Fin 8192) (i j : Fin 16) :
    val_main_v133 (F := Ideal) x1 x2 x3 (ix4 b a i j)
    = Cert.Soft.edges (areaWeight x1 x2 b a) (fun i j => x3 (ix4 b a i j)) i j := by
  -- the pointwise operations %101 … %133, outermost first; every constant is the float 1
  rw [val_main_v133_apply, val_main_v132_apply, val_main_v131_apply, val_main_v130_apply, val_main_cst_36_apply,
    val_main_v129_apply, val_main_v128_apply, val_main_v127_apply, val_main_v126_apply, val_main_cst_35_apply,
    val_main_v125_apply, val_main_v124_apply, val_main_v123_apply, val_main_v122_apply, val_main_cst_34_apply,
    val_main_v121_apply, val_main_v120_apply, val_main_v119_apply,
    val_main_v118_apply, val_main_v117_apply, val_main_cst_33_apply, val_main_v116_apply, val_main_v115_apply,
    val_main_v114_apply, val_main_v113_apply, val_main_cst_32_apply, val_main_v112_apply, val_main_v111_apply,
    val_main_cst_31_apply, val_main_v110_apply,
    val_main_v109_apply, val_main_v108_apply, val_main_cst_30_apply, val_main_v107_apply, val_main_v106_apply,
    val_main_v105_apply, val_main_v104_apply, val_main_cst_29_apply, val_main_v103_apply, val_main_v102_apply,
    val_main_cst_28_apply, val_main_v101_apply,
    rowNext_apply, rowPrev_apply, colNext_apply, colPrev_apply, weight_apply]
  unfold Cert.Soft.edges Cert.Soft.eroded Cert.Soft.differ
  beta_reduce
  generalize Cert.Soft.rowNext (areaWeight x1 x2 b a) i j = rn
  generalize Cert.Soft.rowPrev (areaWeight x1 x2 b a) i j = rp
  generalize Cert.Soft.colNext (areaWeight x1 x2 b a) i j = cn
  generalize Cert.Soft.colPrev (areaWeight x1 x2 b a) i j = cp
  generalize areaWeight x1 x2 b a i j = m
  generalize x3 (ix4 b a i j) = e
  rfl

/-- The reference's first result (its value %151) at pixel (i, j) of area (b, a); the last axis has length one. -/
theorem result0_apply (x1 : (⟨S2x8192x16x16x4, .f32⟩ : BufTy).Contents (Elt Ideal)) (x2 : (⟨S2x8192x4, .f32⟩ : BufTy).Contents (Elt Ideal)) (x3 : (⟨S2x8192x16x16, .f32⟩ : BufTy).Contents (Elt Ideal))
    (b : Fin 2) (a : Fin 8192) (i j : Fin 16) (u : Fin 1) :
    val_main_v151 (F := Ideal) x1 x2 x3 (ix5 b a i j u)
    = Cert.Soft.edges (areaWeight x1 x2 b a) (fun i j => x3 (ix4 b a i j)) i j := by
  have e : idx_main_v151 (ix5 b a i j u) = ix4 b a i j :=
    funext fun c => Fin.ext (by
      match c with
      | ⟨0, _⟩ => rfl
      | ⟨1, _⟩ => rfl
      | ⟨2, _⟩ => rfl
      | ⟨3, _⟩ => rfl)
  rw [val_main_v151_apply, e]
  exact edges_apply x1 x2 x3 b a i j

end Cert.ReferenceIdeal.Tile

end
-- ==== Proof.RefStat.lean ====
/-
  The reference, third part: the per-area number.

  Three tables of an area are added up over the tile (a sum over the two pixel axes, and for
  the tables with a trailing axis of length one over that axis too), started from the zero
  word, which is 0: the masked edges, the weight, the weighted image, and the squared
  weighted deviation from the weighted mean. The totals are combined as
  variance · mean edge · 1000.
-/
import proofs.«139546_j7627861917769_2_alg».proof.Proof.RefRead
import proofs.«139546_j7627861917769_2_alg».proof.Proof.Spec
import proofs.«139546_j7627861917769_2_alg».proof.Proof.RefWeight
import proofs.«139546_j7627861917769_2_alg».proof.Proof.RefEdges
import Idealize.ShloMosaic.Lib.ValueIdx
import Idealize.ShloMosaic.Lib.Pipeline.Value
import Idealize.ShloMosaic.PureOps.Ideal.Laws

noncomputable section

namespace Cert.ReferenceIdeal.Tile

open Idealize.ShloMosaic Idealize.ShloMosaic.ValueIdx Cert.ReferenceIdeal Cert.ReferenceIdeal.ReadP

/-! ## A sum over the pixel axes, read at an area

The reference adds a table up over its pixel axes with one reduction over several axes. At an
area (b, a) the operand indices that reduce to it are exactly the indices (b, a, p, q) (and
(b, a, p, q, 0) when there is a trailing axis of length one), one for each pixel, so the sum
over them is the double sum over the pixel's row and column. -/

/-- Rank 4, axes 2 and 3 removed: the sum over the indices that drop to (b, a) is the tile's total. -/
private theorem sum_filter_tile4 (h : S2x8192x16x16.ReducesTo [2, 3] S2x8192) (x : S2x8192x16x16.Idx → EReal)
    (b : Fin 2) (a : Fin 8192) :
    ∑ i ∈ Finset.univ.filter (fun i => h.drop i = ix2 b a), x i = Cert.Soft.total fun p q => x (ix4 b a p q) := by
  have e : (Cert.Soft.total fun p q => x (ix4 b a p q)) = ∑ pq : Fin 16 × Fin 16, x (ix4 b a pq.1 pq.2) :=
    (Fintype.sum_prod_type' (fun (p q : Fin 16) => x (ix4 b a p q))).symm
  rw [e]
  symm
  refine Finset.sum_bij (fun pq _ => ix4 b a pq.1 pq.2) ?_ ?_ ?_ ?_
  · intro pq _
    rw [Finset.mem_filter]
    refine ⟨Finset.mem_univ _, ?_⟩
    funext c
    match c with
    | ⟨0, _⟩ => exact Fin.ext (h.drop_apply_val_of_eq _ 0 0)
    | ⟨1, _⟩ => exact Fin.ext (h.drop_apply_val_of_eq _ 1 1)
  · intro pq _ pq' _ e'
    exact Prod.ext (congrFun e' 2) (congrFun e' 3)
  · intro i hi
    rw [Finset.mem_filter] at hi
    have e' := hi.2
    have e0 : (i 0).val = b.val := (h.drop_apply_val_of_eq i 0 0).symm.trans (by rw [e'])
    have e1 : (i 1).val = a.val := (h.drop_apply_val_of_eq i 1 1).symm.trans (by rw [e'])
    refine ⟨(⟨(i 2).val, (i 2).isLt⟩, ⟨(i 3).val, (i 3).isLt⟩), Finset.mem_univ _, ?_⟩
    funext c
    match c with
    | ⟨0, _⟩ => exact Fin.ext e0.symm
    | ⟨1, _⟩ => exact Fin.ext e1.symm
    | ⟨2, _⟩ => exact Fin.ext rfl
    | ⟨3, _⟩ => exact Fin.ext rfl
  · intro pq _
    rfl

/-- Rank 5 with a last axis of length one, axes 2, 3 and 4 removed: the same. -/
private theorem sum_filter_tile5 (h : S2x8192x16x16x1.ReducesTo [2, 3, 4] S2x8192) (x : S2x8192x16x16x1.Idx → EReal)
    (b : Fin 2) (a : Fin 8192) :
    ∑ i ∈ Finset.univ.filter (fun i => h.drop i = ix2 b a), x i = Cert.Soft.total fun p q => x (ix5 b a p q 0) := by
  have e : (Cert.Soft.total fun p q => x (ix5 b a p q 0)) = ∑ pq : Fin 16 × Fin 16, x (ix5 b a pq.1 pq.2 0) :=
    (Fintype.sum_prod_type' (fun (p q : Fin 16) => x (ix5 b a p q 0))).symm
  rw [e]
  symm
  refine Finset.sum_bij (fun pq _ => ix5 b a pq.1 pq.2 0) ?_ ?_ ?_ ?_
  · intro pq _
    rw [Finset.mem_filter]
    refine ⟨Finset.mem_univ _, ?_⟩
    funext c
    match c with
    | ⟨0, _⟩ => exact Fin.ext (h.drop_apply_val_of_eq _ 0 0)
    | ⟨1, _⟩ => exact Fin.ext (h.drop_apply_val_of_eq _ 1 1)
  · intro pq _ pq' _ e'
    exact Prod.ext (congrFun e' 2) (congrFun e' 3)
  · intro i hi
    rw [Finset.mem_filter] at hi
    have e' := hi.2
    have e0 : (i 0).val = b.val := (h.drop_apply_val_of_eq i 0 0).symm.trans (by rw [e'])
    have e1 : (i 1).val = a.val := (h.drop_apply_val_of_eq i 1 1).symm.trans (by rw [e'])
    have e4 : (i 4).val < 1 := (i 4).isLt
    refine ⟨(⟨(i 2).val, (i 2).isLt⟩, ⟨(i 3).val, (i 3).isLt⟩), Finset.mem_univ _, ?_⟩
    funext c
    match c with
    | ⟨0, _⟩ => exact Fin.ext e0.symm
    | ⟨1, _⟩ => exact Fin.ext e1.symm
    | ⟨2, _⟩ => exact Fin.ext rfl
    | ⟨3, _⟩ => exact Fin.ext rfl
    | ⟨4, _⟩ => exact Fin.ext (show (0 : Nat) = (i 4).val by omega)
  · intro pq _
    rfl

/-- The reference's sum of a rank-4 table over its two pixel axes, at area (b, a): the initial
    value plus the tile's total. -/
private theorem reduceAdd_tile4 (x : FVec Ideal S2x8192x16x16 .f32) (init : FVec Ideal S_ .f32)
    (h : S2x8192x16x16.ReducesTo [2, 3] S2x8192) (hu : 0 < S_.numel) (b : Fin 2) (a : Fin 8192) :
    Host.reduceAdd (F := Ideal) (φ := .f32) x init h hu (ix2 b a)
      = init (Shape.Idx.first hu) + Cert.Soft.total fun p q => x (ix4 b a p q) := by
  show Ideal.hostReduceAdd h x (init (Shape.Idx.first hu)) (ix2 b a) = _
  unfold Ideal.hostReduceAdd
  rw [sum_filter_tile4]

/-- The same for a rank-5 table with a last axis of length one, over its pixel axes and that axis. -/
private theorem reduceAdd_tile5 (x : FVec Ideal S2x8192x16x16x1 .f32) (init : FVec Ideal S_ .f32)
    (h : S2x8192x16x16x1.ReducesTo [2, 3, 4] S2x8192) (hu : 0 < S_.numel) (b : Fin 2) (a : Fin 8192) :
    Host.reduceAdd (F := Ideal) (φ := .f32) x init h hu (ix2 b a)
      = init (Shape.Idx.first hu) + Cert.Soft.total fun p q => x (ix5 b a p q 0) := by
  show Ideal.hostReduceAdd h x (init (Shape.Idx.first hu)) (ix2 b a) = _
  unfold Ideal.hostReduceAdd
  rw [sum_filter_tile5]

/-! ## The stages, read at an area or at one of its pixels -/

section Stages

variable (x0 : (⟨S2x8192x16x16x1, .f32⟩ : BufTy).Contents (Elt Ideal))
  (x1 : (⟨S2x8192x16x16x4, .f32⟩ : BufTy).Contents (Elt Ideal))
  (x2 : (⟨S2x8192x4, .f32⟩ : BufTy).Contents (Elt Ideal))
  (x3 : (⟨S2x8192x16x16, .f32⟩ : BufTy).Contents (Elt Ideal))
  (b : Fin 2) (a : Fin 8192)

/-- %134: the weight, with a trailing axis of length one. -/
private theorem v134_at (i j : Fin 16) (u : Fin 1) :
    val_main_v134 (F := Ideal) x1 x2 (ix5 b a i j u) = areaWeight x1 x2 b a i j := by
  have e : idx_main_v134 (ix5 b a i j u) = ix4 b a i j := by
    funext c
    match c with
    | ⟨0, _⟩ => rfl
    | ⟨1, _⟩ => rfl
    | ⟨2, _⟩ => rfl
    | ⟨3, _⟩ => rfl
  rw [val_main_v134_apply, e, weight_apply]

/-- %135: weight · image. -/
private theorem v135_at (i j : Fin 16) :
    val_main_v135 (F := Ideal) x0 x1 x2 (ix5 b a i j 0)
      = areaWeight x1 x2 b a i j * x0 (ix5 b a i j 0) := by
  rw [val_main_v135_apply, v134_at, Ideal.mulf_def]

/-- %136: the total of the first result over the tile. -/
private theorem v136_at :
    val_main_v136 (F := Ideal) x1 x2 x3 (ix2 b a)
      = Cert.Soft.total (Cert.Soft.edges (areaWeight x1 x2 b a) fun i j => x3 (ix4 b a i j)) := by
  unfold val_main_v136
  rw [reduceAdd_tile4, val_main_cst_37_apply, Ideal.ofBits_def, Ideal.ofBits_zero_f32, zero_add]
  exact congrArg Cert.Soft.total (funext fun i => funext fun j => edges_apply x1 x2 x3 b a i j)

/-- %139: the total weight of the tile. -/
private theorem v139_at :
    val_main_v139 (F := Ideal) x1 x2 (ix2 b a) = Cert.Soft.total (areaWeight x1 x2 b a) := by
  unfold val_main_v139
  rw [reduceAdd_tile5, val_main_cst_39_apply, Ideal.ofBits_def, Ideal.ofBits_zero_f32, zero_add]
  exact congrArg Cert.Soft.total (funext fun i => funext fun j => v134_at x1 x2 b a i j 0)

/-- %141: the total weight plus the small number. -/
private theorem v141_at :
    val_main_v141 (F := Ideal) x1 x2 (ix2 b a) = Cert.Soft.total (areaWeight x1 x2 b a) + Cert.Soft.eps := by
  rw [val_main_v141_apply, v139_at, val_main_v140_apply, val_main_cst_40_apply, Ideal.addf_def, Ideal.ofBits_def]
  rfl

/-- %142: the total of weight · image. -/
private theorem v142_at :
    val_main_v142 (F := Ideal) x0 x1 x2 (ix2 b a)
      = Cert.Soft.total fun i j => areaWeight x1 x2 b a i j * x0 (ix5 b a i j 0) := by
  unfold val_main_v142
  rw [reduceAdd_tile5, val_main_cst_41_apply, Ideal.ofBits_def, Ideal.ofBits_zero_f32, zero_add]
  exact congrArg Cert.Soft.total (funext fun i => funext fun j => v135_at x0 x1 x2 b a i j)

/-- %143: the weighted mean of the image. -/
private theorem v143_at :
    val_main_v143 (F := Ideal) x0 x1 x2 (ix2 b a)
      = Ideal.div (Cert.Soft.total fun i j => areaWeight x1 x2 b a i j * x0 (ix5 b a i j 0))
          (Cert.Soft.total (areaWeight x1 x2 b a) + Cert.Soft.eps) := by
  rw [val_main_v143_apply, v142_at, v141_at, Ideal.hostDivf_def]

/-- %144, %145: the mean, repeated at every pixel of its area. -/
private theorem v145_at (i j : Fin 16) (u : Fin 1) :
    val_main_v145 (F := Ideal) x0 x1 x2 (ix5 b a i j u) = val_main_v143 (F := Ideal) x0 x1 x2 (ix2 b a) := by
  have e : idx_main_v144 (idx_main_v145 (ix5 b a i j u)) = ix2 b a := by
    funext c
    match c with
    | ⟨0, _⟩ => rfl
    | ⟨1, _⟩ => rfl
  rw [val_main_v145_apply, val_main_v144_apply, e]

/-- %146, %147: the weighted deviation from the mean. -/
private theorem v147_at (i j : Fin 16) :
    val_main_v147 (F := Ideal) x0 x1 x2 (ix5 b a i j 0)
      = (areaWeight x1 x2 b a i j * x0 (ix5 b a i j 0) - val_main_v143 (F := Ideal) x0 x1 x2 (ix2 b a))
          * areaWeight x1 x2 b a i j := by
  rw [val_main_v147_apply, val_main_v146_apply, v135_at, v145_at, v134_at, Ideal.subf_def, Ideal.mulf_def]

/-- %148, %149: the total of the squared weighted deviation. -/
private theorem v149_at :
    val_main_v149 (F := Ideal) x0 x1 x2 (ix2 b a)
      = Cert.Soft.total fun i j =>
          ((areaWeight x1 x2 b a i j * x0 (ix5 b a i j 0) - val_main_v143 (F := Ideal) x0 x1 x2 (ix2 b a))
            * areaWeight x1 x2 b a i j)
          * ((areaWeight x1 x2 b a i j * x0 (ix5 b a i j 0) - val_main_v143 (F := Ideal) x0 x1 x2 (ix2 b a))
            * areaWeight x1 x2 b a i j) := by
  unfold val_main_v149
  rw [reduceAdd_tile5, val_main_cst_42_apply, Ideal.ofBits_def, Ideal.ofBits_zero_f32, zero_add]
  refine congrArg Cert.Soft.total (funext fun i => funext fun j => ?_)
  rw [val_main_v148_apply, v147_at, Ideal.mulf_def]

end Stages

/-- The reference's second result (its value %154) at area (b, a). -/
theorem stat_apply (x0 : (⟨S2x8192x16x16x1, .f32⟩ : BufTy).Contents (Elt Ideal)) (x1 : (⟨S2x8192x16x16x4, .f32⟩ : BufTy).Contents (Elt Ideal)) (x2 : (⟨S2x8192x4, .f32⟩ : BufTy).Contents (Elt Ideal)) (x3 : (⟨S2x8192x16x16, .f32⟩ : BufTy).Contents (Elt Ideal))
    (b : Fin 2) (a : Fin 8192) :
    val_main_v154 (F := Ideal) x0 x1 x2 x3 (ix2 b a)
    = Cert.Soft.stat (areaWeight x1 x2 b a) (fun i j => x0 (ix5 b a i j 0)) (fun i j => x3 (ix4 b a i j)) := by
  rw [val_main_v154_apply, val_main_v152_apply, val_main_v150_apply, val_main_v138_apply, v149_at, v143_at, v141_at,
    v136_at, val_main_v137_apply, val_main_cst_38_apply, val_main_v153_apply, val_main_cst_43_apply]
  rfl

end Cert.ReferenceIdeal.Tile

end
-- ==== Proof.lean ====
/-
  The kernel and its reference compute one function.

  Both programs treat each of the 2 · 8192 areas alone. Per pixel they compare the four mask
  channels with the area's four identifiers by a soft equality built from the soft rounding
  x ↦ x − sin(τ·x)/τ, join the four answers by a soft conjunction into a weight, erode the
  weight where the four neighbours disagree, and multiply by the edge map: the first result.
  Per area they add up the masked edges, the weight, the weighted image and the squared
  weighted deviation over the 256 pixels and combine the totals: the second result.

  They differ in three ways, none of which changes a value over the extended reals:
  the kernel multiplies by the reciprocal ι = 1/τ where the reference divides by τ (a quotient
  by a nonzero real IS the product with its reciprocal, for every extended real); the kernel
  works on a flattened, channel-major copy of the arrays, 256 areas per grid point (a relabelling
  of indices); and the kernel adds a tile's entries row by row where the reference adds them in
  one sweep (finite sums in a commutative monoid). No input needs to be finite for any of this,
  so the precondition is never opened.

  `Cert.Soft` (Proof/Spec.lean, Proof/Result.lean) states the common function; the kernel's run
  is read off its frame run block by block (Proof/KerWeight, KerErode, KerHost, KerArrays) and
  the reference's off its line of host operations (Proof/RefRun over the stages of Proof/RefRead;
  Proof/RefWeight, RefEdges, RefStat read the stages at an index).
-/
import proofs.«139546_j7627861917769_2_alg».proof.Defs
import proofs.«139546_j7627861917769_2_alg».proof.Proof.Gen.Kernel
import proofs.«139546_j7627861917769_2_alg».proof.Proof.Gen.Kernel.Skeleton
import proofs.«139546_j7627861917769_2_alg».proof.Proof.Gen.Kernel.Launch
import proofs.«139546_j7627861917769_2_alg».proof.Proof.Gen.Kernel.Points
import proofs.«139546_j7627861917769_2_alg».proof.Proof.Gen.Kernel.Frame
import proofs.«139546_j7627861917769_2_alg».proof.Proof.Gen.KernelIdeal
import proofs.«139546_j7627861917769_2_alg».proof.Proof.Gen.KernelIdeal.Skeleton
import proofs.«139546_j7627861917769_2_alg».proof.Proof.Gen.KernelIdeal.Launch
import proofs.«139546_j7627861917769_2_alg».proof.Proof.Gen.KernelIdeal.Points
import proofs.«139546_j7627861917769_2_alg».proof.Proof.Gen.KernelIdeal.Frame
import proofs.«139546_j7627861917769_2_alg».proof.Proof.Gen.ReferenceIdeal
import proofs.«139546_j7627861917769_2_alg».proof.Proof.Gen.Pre_finite_inputs
import proofs.«139546_j7627861917769_2_alg».proof.Proof.Spec
import proofs.«139546_j7627861917769_2_alg».proof.Proof.Result
import proofs.«139546_j7627861917769_2_alg».proof.Proof.KerArrays
import proofs.«139546_j7627861917769_2_alg».proof.Proof.RefRun
import proofs.«139546_j7627861917769_2_alg».proof.Proof.RefWeight
import proofs.«139546_j7627861917769_2_alg».proof.Proof.RefEdges
import proofs.«139546_j7627861917769_2_alg».proof.Proof.RefStat
import Idealize.ShloMosaic.Adequacy
import Idealize.ShloMosaic.Init

noncomputable section

namespace Cert.Proof

open Idealize.ShloMosaic Idealize.ShloMosaic.TcCoe Idealize.SL.Sem Idealize.ShloMosaic.ValueIdx

/-! ## The reference's two results are the common function -/

theorem ref_result0 (x1 : (⟨Cert.ReferenceIdeal.S2x8192x16x16x4, .f32⟩ : BufTy).Contents (Elt Ideal)) (x2 : (⟨Cert.ReferenceIdeal.S2x8192x4, .f32⟩ : BufTy).Contents (Elt Ideal)) (x3 : (⟨Cert.ReferenceIdeal.S2x8192x16x16, .f32⟩ : BufTy).Contents (Elt Ideal)) :
    Cert.ReferenceIdeal.ReadP.val_main_v151 (F := Ideal) x1 x2 x3 = Cert.Soft.result0 x1 x2 x3 := by
  funext (idx : Cert.ReferenceIdeal.S2x8192x16x16x1.Idx)
  obtain ⟨b, a, i, j, u, rfl⟩ : ∃ (b : Fin 2) (a : Fin 8192) (i j : Fin 16) (u : Fin 1), idx = ix5 b a i j u :=
    ⟨idx 0, idx 1, idx 2, idx 3, idx 4, eq_ix5 idx⟩
  rw [Cert.ReferenceIdeal.Tile.result0_apply, Cert.Soft.result0_apply]
  rfl

theorem ref_result1 (x0 : (⟨Cert.ReferenceIdeal.S2x8192x16x16x1, .f32⟩ : BufTy).Contents (Elt Ideal)) (x1 : (⟨Cert.ReferenceIdeal.S2x8192x16x16x4, .f32⟩ : BufTy).Contents (Elt Ideal)) (x2 : (⟨Cert.ReferenceIdeal.S2x8192x4, .f32⟩ : BufTy).Contents (Elt Ideal)) (x3 : (⟨Cert.ReferenceIdeal.S2x8192x16x16, .f32⟩ : BufTy).Contents (Elt Ideal)) :
    Cert.ReferenceIdeal.ReadP.val_main_v154 (F := Ideal) x0 x1 x2 x3 = Cert.Soft.result1 x0 x1 x2 x3 := by
  funext (idx : Cert.ReferenceIdeal.S2x8192.Idx)
  obtain ⟨b, a, rfl⟩ : ∃ (b : Fin 2) (a : Fin 8192), idx = ix2 b a := ⟨idx 0, idx 1, eq_ix2 idx⟩
  rw [Cert.ReferenceIdeal.Tile.stat_apply, Cert.Soft.result1_apply]
  rfl

/-! ## The claims -/

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2.2) (Cert.ReferenceIdeal.Line.run (F := Ideal) m ρ)

/-- The ledger's twelve entries are one statement twelve times: the certificate's table gives the name
    the value 2097152 / 13176795, the exact reciprocal of the binary value of 6.28318548…. -/
theorem preserves : Cert.preserves_Kernel_KernelIdeal :=
  ⟨IdealRules.named_const.statement Cert.KernelIdeal.κ "inv_two_pi" .f32 0x3E22F983#32 ((2097152 / 13176795 : ℝ) : EReal) rfl,
   IdealRules.named_const.statement Cert.KernelIdeal.κ "inv_two_pi" .f32 0x3E22F983#32 ((2097152 / 13176795 : ℝ) : EReal) rfl,
   IdealRules.named_const.statement Cert.KernelIdeal.κ "inv_two_pi" .f32 0x3E22F983#32 ((2097152 / 13176795 : ℝ) : EReal) rfl,
   IdealRules.named_const.statement Cert.KernelIdeal.κ "inv_two_pi" .f32 0x3E22F983#32 ((2097152 / 13176795 : ℝ) : EReal) rfl,
   IdealRules.named_const.statement Cert.KernelIdeal.κ "inv_two_pi" .f32 0x3E22F983#32 ((2097152 / 13176795 : ℝ) : EReal) rfl,
   IdealRules.named_const.statement Cert.KernelIdeal.κ "inv_two_pi" .f32 0x3E22F983#32 ((2097152 / 13176795 : ℝ) : EReal) rfl,
   IdealRules.named_const.statement Cert.KernelIdeal.κ "inv_two_pi" .f32 0x3E22F983#32 ((2097152 / 13176795 : ℝ) : EReal) rfl,
   IdealRules.named_const.statement Cert.KernelIdeal.κ "inv_two_pi" .f32 0x3E22F983#32 ((2097152 / 13176795 : ℝ) : EReal) rfl,
   IdealRules.named_const.statement Cert.KernelIdeal.κ "inv_two_pi" .f32 0x3E22F983#32 ((2097152 / 13176795 : ℝ) : EReal) rfl,
   IdealRules.named_const.statement Cert.KernelIdeal.κ "inv_two_pi" .f32 0x3E22F983#32 ((2097152 / 13176795 : ℝ) : EReal) rfl,
   IdealRules.named_const.statement Cert.KernelIdeal.κ "inv_two_pi" .f32 0x3E22F983#32 ((2097152 / 13176795 : ℝ) : EReal) rfl,
   IdealRules.named_const.statement Cert.KernelIdeal.κ "inv_two_pi" .f32 0x3E22F983#32 ((2097152 / 13176795 : ℝ) : EReal) rfl⟩

/-- Both runs end with the two results at `Cert.Soft.result0` and `Cert.Soft.result1` of the arguments,
    which agree. -/
theorem algebraic : Cert.algebraic_KernelIdeal_ReferenceIdeal := by
  intro m ρ m' ρ' _ hagree
  refine ⟨fun c => Cert.Soft.result0 (m ((c.tc : Thread Cert.KernelIdeal.nD Cert.KernelIdeal.τ).loc Cert.KernelIdeal.main_arg1))
        (m ((c.tc : Thread Cert.KernelIdeal.nD Cert.KernelIdeal.τ).loc Cert.KernelIdeal.main_arg2))
        (m ((c.tc : Thread Cert.KernelIdeal.nD Cert.KernelIdeal.τ).loc Cert.KernelIdeal.main_arg3)),
      fun c => Cert.Soft.result1 (m ((c.tc : Thread Cert.KernelIdeal.nD Cert.KernelIdeal.τ).loc Cert.KernelIdeal.main_arg0))
        (m ((c.tc : Thread Cert.KernelIdeal.nD Cert.KernelIdeal.τ).loc Cert.KernelIdeal.main_arg1))
        (m ((c.tc : Thread Cert.KernelIdeal.nD Cert.KernelIdeal.τ).loc Cert.KernelIdeal.main_arg2))
        (m ((c.tc : Thread Cert.KernelIdeal.nD Cert.KernelIdeal.τ).loc Cert.KernelIdeal.main_arg3)),
      Cert.KernelIdeal.Arrays.run m ρ, ?_⟩
  refine (θ_run Cert.ReferenceIdeal.defs _ _).mono (fun _ h c => ⟨?_, ?_, (h c).2.2⟩)
    (Cert.ReferenceIdeal.Line.run (F := Ideal) m' ρ')
  · rw [(h c).1, ref_result0, (hagree c).2.1, (hagree c).2.2.1, (hagree c).2.2.2]
  · rw [(h c).2.1, ref_result1, (hagree c).1, (hagree c).2.1, (hagree c).2.2.1, (hagree c).2.2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
